-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x16 : Shape := ⟨2, ![100000, 16]⟩
abbrev S64x64 : Shape := ⟨2, ![64, 64]⟩
abbrev S64 : Shape := ⟨1, ![64]⟩
abbrev S1040x128 : Shape := ⟨2, ![1040, 128]⟩
abbrev S128 : Shape := ⟨1, ![128]⟩
abbrev S128x128 : Shape := ⟨2, ![128, 128]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1040x128 : S_.BroadcastsInDim S1040x128 (![] : Fin 0 → Fin S1040x128.rank)
  reducesTo_S1040x128_S_d0_1 : S1040x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S1040x128 .f32) (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1040x128 .f32 := Host.absf main_arg5
  let main_cst_6 : FVec F S_ .f32 := constant S_ .f32 0x7F800000#32
  let main_v20 : FVec F S1040x128 .f32 := broadcastInDim S1040x128 ![] bcast_S_S1040x128 main_cst_6
  let main_v21 : IVec S1040x128 1 := cmpf .olt main_v19 main_v20
  let main_c_7 : IVec S_ 1 := constantI S_ 1 1#1
  let main_v22 : IVec S_ 1 := (fun x v => Host.reduce IntOp.andi x v reducesTo_S1040x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S100000x16 32) (main_arg2 : FVec F S100000x16 .f32) (main_arg3 : FVec F S64x64 .f32) (main_arg4 : FVec F S64 .f32) (main_arg5 : FVec F S1040x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x16 .f32 := Host.absf main_arg2
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S100000x16 : Shape := ⟨2, ![100000, 16]⟩
abbrev S64x64 : Shape := ⟨2, ![64, 64]⟩
abbrev S64 : Shape := ⟨1, ![64]⟩
abbrev S1040x128 : Shape := ⟨2, ![1040, 128]⟩
abbrev S128 : Shape := ⟨1, ![128]⟩
abbrev S128x128 : Shape := ⟨2, ![128, 128]⟩
abbrev S128x64 : Shape := ⟨2, ![128, 64]⟩
abbrev S5000x64 : Shape := ⟨2, ![5000, 64]⟩
abbrev S1x64 : Shape := ⟨2, ![1, 64]⟩
abbrev S_ : Shape := ⟨0, ![]⟩
abbrev S100000x16x1 : Shape := ⟨3, ![100000, 16, 1]⟩
abbrev S1 : Shape := ⟨1, ![1]⟩
abbrev S1x1x1 : Shape := ⟨3, ![1, 1, 1]⟩
abbrev S100000x16x64 : Shape := ⟨3, ![100000, 16, 64]⟩
abbrev S16x65x128 : Shape := ⟨3, ![16, 65, 128]⟩
abbrev S16x64x128 : Shape := ⟨3, ![16, 64, 128]⟩
abbrev S16x1x128 : Shape := ⟨3, ![16, 1, 128]⟩
abbrev S16x128 : Shape := ⟨2, ![16, 128]⟩
abbrev S1000x64 : Shape := ⟨2, ![1000, 64]⟩
abbrev S1000x16x64 : Shape := ⟨3, ![1000, 16, 64]⟩
abbrev S1000x16 : Shape := ⟨2, ![1000, 16]⟩
abbrev S1000x128 : Shape := ⟨2, ![1000, 128]⟩
abbrev S1000x1x64 : Shape := ⟨3, ![1000, 1, 64]⟩
abbrev S1x64x128 : Shape := ⟨3, ![1, 64, 128]⟩
abbrev S64x128 : Shape := ⟨2, ![64, 128]⟩
abbrev S1000x1 : Shape := ⟨2, ![1000, 1]⟩
abbrev S1x128 : Shape := ⟨2, ![1, 128]⟩
abbrev S1000x4x16 : Shape := ⟨3, ![1000, 4, 16]⟩
abbrev S1000x4 : Shape := ⟨2, ![1000, 4]⟩
abbrev S1000x4x1 : Shape := ⟨3, ![1000, 4, 1]⟩
abbrev S100000x4x16 : Shape := ⟨3, ![100000, 4, 16]⟩

abbrev nBuf : Space → Nat
  | .hbm => 53
  | .vmem => 21
  | .smem => 0
  | _ => 0

abbrev bufTy : (tb : Table) → Fin (tcTables nBuf tb) → BufTy
  | .hbm, ⟨0, _⟩ => ⟨S100000x64, .f32⟩
  | .hbm, ⟨1, _⟩ => ⟨S100000x16, .i32⟩
  | .hbm, ⟨2, _⟩ => ⟨S100000x16, .f32⟩
  | .hbm, ⟨3, _⟩ => ⟨S64x64, .f32⟩
  | .hbm, ⟨4, _⟩ => ⟨S64, .f32⟩
  | .hbm, ⟨5, _⟩ => ⟨S1040x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S100000x64, .f32⟩
  | .hbm, ⟨12, _⟩ => ⟨S_, .i32⟩
  | .hbm, ⟨13, _⟩ => ⟨S100000x16, .i32⟩
  | .hbm, ⟨14, _⟩ => ⟨S100000x16, .i32⟩
  | .hbm, ⟨15, _⟩ => ⟨S_, .i32⟩
  | .hbm, ⟨16, _⟩ => ⟨S100000x16, .i32⟩
  | .hbm, ⟨17, _⟩ => ⟨S100000x16, .i1⟩
  | .hbm, ⟨18, _⟩ => ⟨S_, .i32⟩
  | .hbm, ⟨19, _⟩ => ⟨S100000x16, .i32⟩
  | .hbm, ⟨20, _⟩ => ⟨S100000x16, .i32⟩
  | .hbm, ⟨21, _⟩ => ⟨S100000x16, .i32⟩
  | .hbm, ⟨22, _⟩ => ⟨S100000x16x1, .i32⟩
  | .hbm, ⟨23, _⟩ => ⟨S1, .i32⟩
  | .hbm, ⟨24, _⟩ => ⟨S_, .i32⟩
  | .hbm, ⟨25, _⟩ => ⟨S100000x16x1, .i32⟩
  | .hbm, ⟨26, _⟩ => ⟨S100000x16x1, .i1⟩
  | .hbm, ⟨27, _⟩ => ⟨S1x1x1, .i32⟩
  | .hbm, ⟨28, _⟩ => ⟨S100000x16x1, .i32⟩
  | .hbm, ⟨29, _⟩ => ⟨S100000x16x1, .i1⟩
  | .hbm, ⟨30, _⟩ => ⟨S100000x16x1, .i1⟩
  | .hbm, ⟨31, _⟩ => ⟨S_, .i1⟩
  | .hbm, ⟨32, _⟩ => ⟨S100000x16, .i1⟩
  | .hbm, ⟨33, _⟩ => ⟨S100000x16x64, .f32⟩
  | .hbm, ⟨34, _⟩ => ⟨S100000x16x64, .i1⟩
  | .hbm, ⟨35, _⟩ => ⟨S_, .f32⟩
  | .hbm, ⟨36, _⟩ => ⟨S100000x16x64, .f32⟩
  | .hbm, ⟨37, _⟩ => ⟨S100000x16x64, .f32⟩
  | .hbm, ⟨38, _⟩ => ⟨S_, .i32⟩
  | .hbm, ⟨39, _⟩ => ⟨S100000x16, .i32⟩
  | .hbm, ⟨40, _⟩ => ⟨S100000x16, .i1⟩
  | .hbm, ⟨41, _⟩ => ⟨S100000x16x1, .i1⟩
  | .hbm, ⟨42, _⟩ => ⟨S_, .f32⟩
  | .hbm, ⟨43, _⟩ => ⟨S_, .f32⟩
  | .hbm, ⟨44, _⟩ => ⟨S100000x16x64, .i1⟩
  | .hbm, ⟨45, _⟩ => ⟨S100000x16x64, .f32⟩
  | .hbm, ⟨46, _⟩ => ⟨S100000x16x64, .f32⟩
  | .hbm, ⟨47, _⟩ => ⟨S16x65x128, .f32⟩
  | .hbm, ⟨48, _⟩ => ⟨S16x64x128, .f32⟩
  | .hbm, ⟨49, _⟩ => ⟨S16x1x128, .f32⟩
  | .hbm, ⟨50, _⟩ => ⟨S16x128, .f32⟩
  | .hbm, ⟨51, _⟩ => ⟨S100000x64, .f32⟩
  | .hbm, ⟨52, _⟩ => ⟨S100000x4x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S1000x64, .f32⟩
  | .local _ .vmem, ⟨7, _⟩ => ⟨S1000x64, .f32⟩
  | .local _ .vmem, ⟨8, _⟩ => ⟨S1000x16x64, .f32⟩
  | .local _ .vmem, ⟨9, _⟩ => ⟨S1000x16x64, .f32⟩
  | .local _ .vmem, ⟨10, _⟩ => ⟨S1000x16, .f32⟩
  | .local _ .vmem, ⟨11, _⟩ => ⟨S1000x16, .f32⟩
  | .local _ .vmem, ⟨12, _⟩ => ⟨S16x64x128, .f32⟩
  | .local _ .vmem, ⟨13, _⟩ => ⟨S16x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S128x64, .f32⟩
  | .local _ .vmem, ⟨18, _⟩ => ⟨S64, .f32⟩
  | .local _ .vmem, ⟨19, _⟩ => ⟨S1000x64, .f32⟩
  | .local _ .vmem, ⟨20, _⟩ => ⟨S1000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v3 : Ref sig .tc := ⟨.hbm, 37, rfl⟩
abbrev main_c_0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  bcast_S_S100000x16x1 : S_.BroadcastsInDim S100000x16x1 (![] : Fin 0 → Fin S100000x16x1.rank)
  bcast_S1_S1x1x1_2 : S1.BroadcastsInDim S1x1x1 (![2] : Fin 1 → Fin S1x1x1.rank)
  bcast_S1x1x1_S100000x16x1_0_1_2 : S1x1x1.BroadcastsInDim S100000x16x1 (![0, 1, 2] : Fin 3 → Fin S100000x16x1.rank)
  reducesTo_S100000x16x1_S100000x16_d2 : S100000x16x1.ReducesTo [2] S100000x16
  h_S_ : 0 < S_.numel
  bcast_S100000x16_S100000x16x64_0_1 : S100000x16.BroadcastsInDim S100000x16x64 (![0, 1] : Fin 2 → Fin S100000x16x64.rank)
  bcast_S_S100000x16x64 : S_.BroadcastsInDim S100000x16x64 (![] : Fin 0 → Fin S100000x16x64.rank)
  bcast_S100000x16x1_S100000x16x64_0_1_2 : S100000x16x1.BroadcastsInDim S100000x16x64 (![0, 1, 2] : Fin 3 → Fin S100000x16x64.rank)
  shapeCasts_S1040x128_S16x65x128 : S1040x128.ShapeCasts S16x65x128
  slices_S16x65x128_S16x64x128_0_0_0 : S16x65x128.Slices ![0, 0, 0] S16x64x128
  slices_S16x65x128_S16x1x128_0_64_0 : S16x65x128.Slices ![0, 64, 0] S16x1x128
  shapeCasts_S16x1x128_S16x128 : S16x1x128.ShapeCasts S16x128
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x16_S1000x16_0_0 : ∀ a, (![0, 0] : Fin 2 → Nat) a + S1000x16.size a ≤ S1000x16.size a
  h_S1000x16 : 0 < S1000x16.numel
  inb_S1000x16x64_S1000x1x64_0_0_0 : ∀ a, (![0, 0, 0] : Fin 3 → Nat) a + S1000x1x64.size a ≤ S1000x16x64.size a
  h_S1000x1x64 : 0 < S1000x1x64.numel
  shapeCasts_S1000x1x64_S1000x64 : S1000x1x64.ShapeCasts S1000x64
  inb_S16x64x128_S1x64x128_0_0_0 : ∀ a, (![0, 0, 0] : Fin 3 → Nat) a + S1x64x128.size a ≤ S16x64x128.size a
  h_S1x64x128 : 0 < S1x64x128.numel
  shapeCasts_S1x64x128_S64x128 : S1x64x128.ShapeCasts S64x128
  slices_S1000x16_o0_0_S1000x1 : S1000x16.Slices ![0, 0] S1000x1
  inb_S16x128_S1x128_0_0 : ∀ a, (![0, 0] : Fin 2 → Nat) a + S1x128.size a ≤ S16x128.size a
  h_S1x128 : 0 < S1x128.numel
  shapeCasts_S1x128_S128 : S1x128.ShapeCasts S128
  shapeCasts_S128_S1x128 : S128.ShapeCasts S1x128
  broadcasts_S1000x1_S1000x128 : S1000x1.Broadcasts S1000x128
  broadcasts_S1x128_S1000x128 : S1x128.Broadcasts S1000x128
  inb_S1000x16x64_S1000x1x64_0_1_0 : ∀ a, (![0, 1, 0] : Fin 3 → Nat) a + S1000x1x64.size a ≤ S1000x16x64.size a
  inb_S16x64x128_S1x64x128_1_0_0 : ∀ a, (![1, 0, 0] : Fin 3 → Nat) a + S1x64x128.size a ≤ S16x64x128.size a
  slices_S1000x16_o0_1_S1000x1 : S1000x16.Slices ![0, 1] S1000x1
  inb_S16x128_S1x128_1_0 : ∀ a, (![1, 0] : Fin 2 → Nat) a + S1x128.size a ≤ S16x128.size a
  inb_S1000x16x64_S1000x1x64_0_2_0 : ∀ a, (![0, 2, 0] : Fin 3 → Nat) a + S1000x1x64.size a ≤ S1000x16x64.size a
  inb_S16x64x128_S1x64x128_2_0_0 : ∀ a, (![2, 0, 0] : Fin 3 → Nat) a + S1x64x128.size a ≤ S16x64x128.size a
  slices_S1000x16_o0_2_S1000x1 : S1000x16.Slices ![0, 2] S1000x1
  inb_S16x128_S1x128_2_0 : ∀ a, (![2, 0] : Fin 2 → Nat) a + S1x128.size a ≤ S16x128.size a
  inb_S1000x16x64_S1000x1x64_0_3_0 : ∀ a, (![0, 3, 0] : Fin 3 → Nat) a + S1000x1x64.size a ≤ S1000x16x64.size a
  inb_S16x64x128_S1x64x128_3_0_0 : ∀ a, (![3, 0, 0] : Fin 3 → Nat) a + S1x64x128.size a ≤ S16x64x128.size a
  slices_S1000x16_o0_3_S1000x1 : S1000x16.Slices ![0, 3] S1000x1
  inb_S16x128_S1x128_3_0 : ∀ a, (![3, 0] : Fin 2 → Nat) a + S1x128.size a ≤ S16x128.size a
  inb_S1000x16x64_S1000x1x64_0_4_0 : ∀ a, (![0, 4, 0] : Fin 3 → Nat) a + S1000x1x64.size a ≤ S1000x16x64.size a
  inb_S16x64x128_S1x64x128_4_0_0 : ∀ a, (![4, 0, 0] : Fin 3 → Nat) a + S1x64x128.size a ≤ S16x64x128.size a
  slices_S1000x16_o0_4_S1000x1 : S1000x16.Slices ![0, 4] S1000x1
  inb_S16x128_S1x128_4_0 : ∀ a, (![4, 0] : Fin 2 → Nat) a + S1x128.size a ≤ S16x128.size a
  inb_S1000x16x64_S1000x1x64_0_5_0 : ∀ a, (![0, 5, 0] : Fin 3 → Nat) a + S1000x1x64.size a ≤ S1000x16x64.size a
  inb_S16x64x128_S1x64x128_5_0_0 : ∀ a, (![5, 0, 0] : Fin 3 → Nat) a + S1x64x128.size a ≤ S16x64x128.size a
  slices_S1000x16_o0_5_S1000x1 : S1000x16.Slices ![0, 5] S1000x1
  inb_S16x128_S1x128_5_0 : ∀ a, (![5, 0] : Fin 2 → Nat) a + S1x128.size a ≤ S16x128.size a
  inb_S1000x16x64_S1000x1x64_0_6_0 : ∀ a, (![0, 6, 0] : Fin 3 → Nat) a + S1000x1x64.size a ≤ S1000x16x64.size a
  inb_S16x64x128_S1x64x128_6_0_0 : ∀ a, (![6, 0, 0] : Fin 3 → Nat) a + S1x64x128.size a ≤ S16x64x128.size a
  slices_S1000x16_o0_6_S1000x1 : S1000x16.Slices ![0, 6] S1000x1
  inb_S16x128_S1x128_6_0 : ∀ a, (![6, 0] : Fin 2 → Nat) a + S1x128.size a ≤ S16x128.size a
  inb_S1000x16x64_S1000x1x64_0_7_0 : ∀ a, (![0, 7, 0] : Fin 3 → Nat) a + S1000x1x64.size a ≤ S1000x16x64.size a
  inb_S16x64x128_S1x64x128_7_0_0 : ∀ a, (![7, 0, 0] : Fin 3 → Nat) a + S1x64x128.size a ≤ S16x64x128.size a
  slices_S1000x16_o0_7_S1000x1 : S1000x16.Slices ![0, 7] S1000x1
  inb_S16x128_S1x128_7_0 : ∀ a, (![7, 0] : Fin 2 → Nat) a + S1x128.size a ≤ S16x128.size a
  inb_S1000x16x64_S1000x1x64_0_8_0 : ∀ a, (![0, 8, 0] : Fin 3 → Nat) a + S1000x1x64.size a ≤ S1000x16x64.size a
  inb_S16x64x128_S1x64x128_8_0_0 : ∀ a, (![8, 0, 0] : Fin 3 → Nat) a + S1x64x128.size a ≤ S16x64x128.size a
  slices_S1000x16_o0_8_S1000x1 : S1000x16.Slices ![0, 8] S1000x1
  inb_S16x128_S1x128_8_0 : ∀ a, (![8, 0] : Fin 2 → Nat) a + S1x128.size a ≤ S16x128.size a
  inb_S1000x16x64_S1000x1x64_0_9_0 : ∀ a, (![0, 9, 0] : Fin 3 → Nat) a + S1000x1x64.size a ≤ S1000x16x64.size a
  inb_S16x64x128_S1x64x128_9_0_0 : ∀ a, (![9, 0, 0] : Fin 3 → Nat) a + S1x64x128.size a ≤ S16x64x128.size a
  slices_S1000x16_o0_9_S1000x1 : S1000x16.Slices ![0, 9] S1000x1
  inb_S16x128_S1x128_9_0 : ∀ a, (![9, 0] : Fin 2 → Nat) a + S1x128.size a ≤ S16x128.size a
  inb_S1000x16x64_S1000x1x64_0_10_0 : ∀ a, (![0, 10, 0] : Fin 3 → Nat) a + S1000x1x64.size a ≤ S1000x16x64.size a
  inb_S16x64x128_S1x64x128_10_0_0 : ∀ a, (![10, 0, 0] : Fin 3 → Nat) a + S1x64x128.size a ≤ S16x64x128.size a
  slices_S1000x16_o0_10_S1000x1 : S1000x16.Slices ![0, 10] S1000x1
  inb_S16x128_S1x128_10_0 : ∀ a, (![10, 0] : Fin 2 → Nat) a + S1x128.size a ≤ S16x128.size a
  inb_S1000x16x64_S1000x1x64_0_11_0 : ∀ a, (![0, 11, 0] : Fin 3 → Nat) a + S1000x1x64.size a ≤ S1000x16x64.size a
  inb_S16x64x128_S1x64x128_11_0_0 : ∀ a, (![11, 0, 0] : Fin 3 → Nat) a + S1x64x128.size a ≤ S16x64x128.size a
  slices_S1000x16_o0_11_S1000x1 : S1000x16.Slices ![0, 11] S1000x1
  inb_S16x128_S1x128_11_0 : ∀ a, (![11, 0] : Fin 2 → Nat) a + S1x128.size a ≤ S16x128.size a
  inb_S1000x16x64_S1000x1x64_0_12_0 : ∀ a, (![0, 12, 0] : Fin 3 → Nat) a + S1000x1x64.size a ≤ S1000x16x64.size a
  inb_S16x64x128_S1x64x128_12_0_0 : ∀ a, (![12, 0, 0] : Fin 3 → Nat) a + S1x64x128.size a ≤ S16x64x128.size a
  slices_S1000x16_o0_12_S1000x1 : S1000x16.Slices ![0, 12] S1000x1
  inb_S16x128_S1x128_12_0 : ∀ a, (![12, 0] : Fin 2 → Nat) a + S1x128.size a ≤ S16x128.size a
  inb_S1000x16x64_S1000x1x64_0_13_0 : ∀ a, (![0, 13, 0] : Fin 3 → Nat) a + S1000x1x64.size a ≤ S1000x16x64.size a
  inb_S16x64x128_S1x64x128_13_0_0 : ∀ a, (![13, 0, 0] : Fin 3 → Nat) a + S1x64x128.size a ≤ S16x64x128.size a
  slices_S1000x16_o0_13_S1000x1 : S1000x16.Slices ![0, 13] S1000x1
  inb_S16x128_S1x128_13_0 : ∀ a, (![13, 0] : Fin 2 → Nat) a + S1x128.size a ≤ S16x128.size a
  inb_S1000x16x64_S1000x1x64_0_14_0 : ∀ a, (![0, 14, 0] : Fin 3 → Nat) a + S1000x1x64.size a ≤ S1000x16x64.size a
  inb_S16x64x128_S1x64x128_14_0_0 : ∀ a, (![14, 0, 0] : Fin 3 → Nat) a + S1x64x128.size a ≤ S16x64x128.size a
  slices_S1000x16_o0_14_S1000x1 : S1000x16.Slices ![0, 14] S1000x1
  inb_S16x128_S1x128_14_0 : ∀ a, (![14, 0] : Fin 2 → Nat) a + S1x128.size a ≤ S16x128.size a
  inb_S1000x16x64_S1000x1x64_0_15_0 : ∀ a, (![0, 15, 0] : Fin 3 → Nat) a + S1000x1x64.size a ≤ S1000x16x64.size a
  inb_S16x64x128_S1x64x128_15_0_0 : ∀ a, (![15, 0, 0] : Fin 3 → Nat) a + S1x64x128.size a ≤ S16x64x128.size a
  slices_S1000x16_o0_15_S1000x1 : S1000x16.Slices ![0, 15] S1000x1
  inb_S16x128_S1x128_15_0 : ∀ a, (![15, 0] : Fin 2 → Nat) a + S1x128.size a ≤ S16x128.size a
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  broadcasts_S1x64_S1000x64 : S1x64.Broadcasts S1000x64
  shapeCasts_S1000x64_S1000x4x16 : S1000x64.ShapeCasts S1000x4x16
  reduces_S1000x4x16_S1000x4 : S1000x4x16.Reduces [2] S1000x4
  shapeCasts_S1000x4_S1000x4x1 : S1000x4.ShapeCasts S1000x4x1
  broadcasts_S1000x4x1_S1000x4x16 : S1000x4x1.Broadcasts S1000x4x16
  shapeCasts_S1000x4x16_S1000x64 : S1000x4x16.ShapeCasts S1000x64
  shapeCasts_S100000x64_S100000x4x16 : S100000x64.ShapeCasts S100000x4x16
  dot_S5000x64_S64x64_S5000x64_1_0_0_1_n_n_wf : DotDims.WF S5000x64 S64x64 S5000x64 [1] [0] [0] [1] [] []
  gather_S100000x64_S100000x16x1_S100000x16x64_2_0_n_n_0_2_164_wf : GatherDims.WF S100000x64 S100000x16x1 S100000x16x64 [2] [0] [] [0] [] 2 ![1, 64]
  dot_S1000x64_S64x128_S1000x128_1_0_0_1_n_n_wf : DotDims.WF S1000x64 S64x128 S1000x128 [1] [0] [0] [1] [] []
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S100000x64.size a
  hwx1_0 : ∀ i : grid1.Coords, EltTy.bits .f32 = 32 ∨ (Rect.block (s := S100000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x16x64.size a ≤ S100000x16x64.size a
  hwx1_1 : ∀ i : grid1.Coords, EltTy.bits .f32 = 32 ∨ (Rect.block (s := S100000x16x64) S1000x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x16.size a ≤ S100000x16.size a
  hwx1_2 : ∀ i : grid1.Coords, EltTy.bits .f32 = 32 ∨ (Rect.block (s := S100000x16) S1000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64x128.size a ≤ S16x64x128.size a
  hwx1_3 : ∀ i : grid1.Coords, EltTy.bits .f32 = 32 ∨ (Rect.block (s := S16x64x128) S16x64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x128.size a ≤ S16x128.size a
  hwx1_4 : ∀ i : grid1.Coords, EltTy.bits .f32 = 32 ∨ (Rect.block (s := S16x128) S16x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1000x64.size a ≤ S100000x64.size a
  hwx1_10 : ∀ i : grid1.Coords, EltTy.bits .f32 = 32 ∨ (Rect.block (s := S100000x64) S1000x64.size (cc1_transform_10 i) (hinb1_10 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S100000x16x1_S100000x16x64_2_0_n_n_0_2_164 : GatherDims S100000x64 S100000x16x1 S100000x16x64 where
  offsetDims := [2]
  collapsedSliceDims := [0]
  operandBatchingDims := []
  startIndicesBatchingDims := []
  startIndexMap := [0]
  indexVectorDim := 2
  sliceSizes := ![1, 64]
  wf := gather_S100000x64_S100000x16x1_S100000x16x64_2_0_n_n_0_2_164_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1000x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S16x64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S16x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S1000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x16 : Shape := ⟨2, ![100000, 16]⟩
abbrev S64x64 : Shape := ⟨2, ![64, 64]⟩
abbrev S64 : Shape := ⟨1, ![64]⟩
abbrev S1040x128 : Shape := ⟨2, ![1040, 128]⟩
abbrev S128 : Shape := ⟨1, ![128]⟩
abbrev S128x128 : Shape := ⟨2, ![128, 128]⟩
abbrev S128x64 : Shape := ⟨2, ![128, 64]⟩
abbrev S1x64 : Shape := ⟨2, ![1, 64]⟩
abbrev S_ : Shape := ⟨0, ![]⟩
abbrev S100000x16x1 : Shape := ⟨3, ![100000, 16, 1]⟩
abbrev S1 : Shape := ⟨1, ![1]⟩
abbrev S1x1x1 : Shape := ⟨3, ![1, 1, 1]⟩
abbrev S100000x16x64 : Shape := ⟨3, ![100000, 16, 64]⟩
abbrev S100000x1x64 : Shape := ⟨3, ![100000, 1, 64]⟩
abbrev S100000x16x65 : Shape := ⟨3, ![100000, 16, 65]⟩
abbrev S100000x1040 : Shape := ⟨2, ![100000, 1040]⟩
abbrev S100000x128 : Shape := ⟨2, ![100000, 128]⟩
abbrev S1x128 : Shape := ⟨2, ![1, 128]⟩
abbrev S100000x4x16 : Shape := ⟨3, ![100000, 4, 16]⟩
abbrev S100000x4 : Shape := ⟨2, ![100000, 4]⟩
abbrev S100000x4x1 : Shape := ⟨3, ![100000, 4, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x16, .i32⟩
  | .hbm, ⟨2, _⟩ => ⟨S100000x16, .f32⟩
  | .hbm, ⟨3, _⟩ => ⟨S64x64, .f32⟩
  | .hbm, ⟨4, _⟩ => ⟨S64, .f32⟩
  | .hbm, ⟨5, _⟩ => ⟨S1040x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S100000x64, .f32⟩
  | .hbm, ⟨12, _⟩ => ⟨S1x64, .f32⟩
  | .hbm, ⟨13, _⟩ => ⟨S100000x64, .f32⟩
  | .hbm, ⟨14, _⟩ => ⟨S100000x64, .f32⟩
  | .hbm, ⟨15, _⟩ => ⟨S_, .f32⟩
  | .hbm, ⟨16, _⟩ => ⟨S100000x64, .f32⟩
  | .hbm, ⟨17, _⟩ => ⟨S100000x64, .i1⟩
  | .hbm, ⟨18, _⟩ => ⟨S_, .f32⟩
  | .hbm, ⟨19, _⟩ => ⟨S100000x64, .f32⟩
  | .hbm, ⟨20, _⟩ => ⟨S100000x64, .i1⟩
  | .hbm, ⟨21, _⟩ => ⟨S_, .f32⟩
  | .hbm, ⟨22, _⟩ => ⟨S_, .f32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S100000x16, .i32⟩
  | .hbm, ⟨32, _⟩ => ⟨S100000x16, .i32⟩
  | .hbm, ⟨33, _⟩ => ⟨S_, .i32⟩
  | .hbm, ⟨34, _⟩ => ⟨S100000x16, .i32⟩
  | .hbm, ⟨35, _⟩ => ⟨S100000x16, .i1⟩
  | .hbm, ⟨36, _⟩ => ⟨S_, .i32⟩
  | .hbm, ⟨37, _⟩ => ⟨S100000x16, .i32⟩
  | .hbm, ⟨38, _⟩ => ⟨S100000x16, .i32⟩
  | .hbm, ⟨39, _⟩ => ⟨S100000x16, .i32⟩
  | .hbm, ⟨40, _⟩ => ⟨S100000x16x1, .i32⟩
  | .hbm, ⟨41, _⟩ => ⟨S1, .i32⟩
  | .hbm, ⟨42, _⟩ => ⟨S_, .i32⟩
  | .hbm, ⟨43, _⟩ => ⟨S100000x16x1, .i32⟩
  | .hbm, ⟨44, _⟩ => ⟨S100000x16x1, .i1⟩
  | .hbm, ⟨45, _⟩ => ⟨S1x1x1, .i32⟩
  | .hbm, ⟨46, _⟩ => ⟨S100000x16x1, .i32⟩
  | .hbm, ⟨47, _⟩ => ⟨S100000x16x1, .i1⟩
  | .hbm, ⟨48, _⟩ => ⟨S100000x16x1, .i1⟩
  | .hbm, ⟨49, _⟩ => ⟨S_, .i1⟩
  | .hbm, ⟨50, _⟩ => ⟨S100000x16, .i1⟩
  | .hbm, ⟨51, _⟩ => ⟨S100000x16x64, .f32⟩
  | .hbm, ⟨52, _⟩ => ⟨S100000x16x64, .i1⟩
  | .hbm, ⟨53, _⟩ => ⟨S_, .f32⟩
  | .hbm, ⟨54, _⟩ => ⟨S100000x16x64, .f32⟩
  | .hbm, ⟨55, _⟩ => ⟨S100000x16x64, .f32⟩
  | .hbm, ⟨56, _⟩ => ⟨S100000x16x1, .i32⟩
  | .hbm, ⟨57, _⟩ => ⟨S_, .i32⟩
  | .hbm, ⟨58, _⟩ => ⟨S100000x16x1, .i32⟩
  | .hbm, ⟨59, _⟩ => ⟨S100000x16x1, .i1⟩
  | .hbm, ⟨60, _⟩ => ⟨S_, .f32⟩
  | .hbm, ⟨61, _⟩ => ⟨S_, .f32⟩
  | .hbm, ⟨62, _⟩ => ⟨S100000x16x64, .i1⟩
  | .hbm, ⟨63, _⟩ => ⟨S100000x16x64, .f32⟩
  | .hbm, ⟨64, _⟩ => ⟨S100000x16x64, .f32⟩
  | .hbm, ⟨65, _⟩ => ⟨S100000x1x64, .f32⟩
  | .hbm, ⟨66, _⟩ => ⟨S100000x16x64, .f32⟩
  | .hbm, ⟨67, _⟩ => ⟨S100000x16x64, .f32⟩
  | .hbm, ⟨68, _⟩ => ⟨S100000x16x1, .f32⟩
  | .hbm, ⟨69, _⟩ => ⟨S100000x16x65, .f32⟩
  | .hbm, ⟨70, _⟩ => ⟨S100000x1040, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .i1⟩
  | .hbm, ⟨78, _⟩ => ⟨S_, .f32⟩
  | .hbm, ⟨79, _⟩ => ⟨S100000x128, .f32⟩
  | .hbm, ⟨80, _⟩ => ⟨S100000x128, .i1⟩
  | .hbm, ⟨81, _⟩ => ⟨S_, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .i1⟩
  | .hbm, ⟨97, _⟩ => ⟨S_, .f32⟩
  | .hbm, ⟨98, _⟩ => ⟨S100000x128, .f32⟩
  | .hbm, ⟨99, _⟩ => ⟨S100000x128, .i1⟩
  | .hbm, ⟨100, _⟩ => ⟨S_, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S100000x128, .f32⟩
  | .hbm, ⟨107, _⟩ => ⟨S100000x128, .f32⟩
  | .hbm, ⟨108, _⟩ => ⟨S100000x128, .f32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S100000x4x16, .f32⟩
  | .hbm, ⟨114, _⟩ => ⟨S_, .f32⟩
  | .hbm, ⟨115, _⟩ => ⟨S100000x4, .f32⟩
  | .hbm, ⟨116, _⟩ => ⟨S_, .f32⟩
  | .hbm, ⟨117, _⟩ => ⟨S100000x4, .f32⟩
  | .hbm, ⟨118, _⟩ => ⟨S100000x4, .f32⟩
  | .hbm, ⟨119, _⟩ => ⟨S100000x4x1, .f32⟩
  | .hbm, ⟨120, _⟩ => ⟨S100000x4x16, .f32⟩
  | .hbm, ⟨121, _⟩ => ⟨S100000x4x16, .f32⟩
  | .hbm, ⟨122, _⟩ => ⟨S100000x4x16, .f32⟩
  | .hbm, ⟨123, _⟩ => ⟨S_, .f32⟩
  | .hbm, ⟨124, _⟩ => ⟨S100000x4, .f32⟩
  | .hbm, ⟨125, _⟩ => ⟨S100000x4x1, .f32⟩
  | .hbm, ⟨126, _⟩ => ⟨S100000x4x16, .f32⟩
  | .hbm, ⟨127, _⟩ => ⟨S100000x4x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_cst_1 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v4 : Ref sig .tc := ⟨.hbm, 24, rfl⟩
abbrev main_call0_v5 : Ref sig .tc := ⟨.hbm, 25, rfl⟩
abbrev main_call0_cst_2 : Ref sig .tc := ⟨.hbm, 26, rfl⟩
abbrev main_call0_v6 : Ref sig .tc := ⟨.hbm, 27, rfl⟩
abbrev main_call0_v7 : Ref sig .tc := ⟨.hbm, 28, rfl⟩
abbrev main_v4 : Ref sig .tc := ⟨.hbm, 29, rfl⟩
abbrev main_c : Ref sig .tc := ⟨.hbm, 30, rfl⟩
abbrev main_v5 : Ref sig .tc := ⟨.hbm, 31, rfl⟩
abbrev main_v6 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v7 : Ref sig .tc := ⟨.hbm, 55, rfl⟩
abbrev main_v8 : Ref sig .tc := ⟨.hbm, 56, rfl⟩
abbrev main_c_0 : Ref sig .tc := ⟨.hbm, 57, rfl⟩
abbrev main_v9 : Ref sig .tc := ⟨.hbm, 58, rfl⟩
abbrev main_v10 : Ref sig .tc := ⟨.hbm, 59, rfl⟩
abbrev main_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_call3_cst : Ref sig .tc := ⟨.hbm, 75, rfl⟩
abbrev main_call3_v0 : Ref sig .tc := ⟨.hbm, 76, rfl⟩
abbrev main_call3_v1 : Ref sig .tc := ⟨.hbm, 77, rfl⟩
abbrev main_call3_cst_0 : Ref sig .tc := ⟨.hbm, 78, rfl⟩
abbrev main_call3_v2 : Ref sig .tc := ⟨.hbm, 79, rfl⟩
abbrev main_call3_v3 : Ref sig .tc := ⟨.hbm, 80, rfl⟩
abbrev main_call3_cst_1 : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_v4 : Ref sig .tc := ⟨.hbm, 84, rfl⟩
abbrev main_call3_v5 : Ref sig .tc := ⟨.hbm, 85, rfl⟩
abbrev main_call3_cst_2 : Ref sig .tc := ⟨.hbm, 86, rfl⟩
abbrev main_call3_v6 : Ref sig .tc := ⟨.hbm, 87, rfl⟩
abbrev main_call3_v7 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_call4_cst : Ref sig .tc := ⟨.hbm, 94, rfl⟩
abbrev main_call4_v0 : Ref sig .tc := ⟨.hbm, 95, rfl⟩
abbrev main_call4_v1 : Ref sig .tc := ⟨.hbm, 96, rfl⟩
abbrev main_call4_cst_0 : Ref sig .tc := ⟨.hbm, 97, rfl⟩
abbrev main_call4_v2 : Ref sig .tc := ⟨.hbm, 98, rfl⟩
abbrev main_call4_v3 : Ref sig .tc := ⟨.hbm, 99, rfl⟩
abbrev main_call4_cst_1 : Ref sig .tc := ⟨.hbm, 100, rfl⟩
abbrev main_call4_call0_v0 : Ref sig .tc := ⟨.hbm, 101, rfl⟩
abbrev main_call4_call0_v1 : Ref sig .tc := ⟨.hbm, 102, rfl⟩
abbrev main_call4_v4 : Ref sig .tc := ⟨.hbm, 103, rfl⟩
abbrev main_call4_v5 : Ref sig .tc := ⟨.hbm, 104, rfl⟩
abbrev main_call4_cst_2 : Ref sig .tc := ⟨.hbm, 105, rfl⟩
abbrev main_call4_v6 : Ref sig .tc := ⟨.hbm, 106, rfl⟩
abbrev main_call4_v7 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_cst_1 : Ref sig .tc := ⟨.hbm, 114, rfl⟩
abbrev main_v33 : Ref sig .tc := ⟨.hbm, 115, rfl⟩
abbrev main_cst_2 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_cst_3 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  bcast_S_S100000x16x1 : S_.BroadcastsInDim S100000x16x1 (![] : Fin 0 → Fin S100000x16x1.rank)
  bcast_S1_S1x1x1_2 : S1.BroadcastsInDim S1x1x1 (![2] : Fin 1 → Fin S1x1x1.rank)
  bcast_S1x1x1_S100000x16x1_0_1_2 : S1x1x1.BroadcastsInDim S100000x16x1 (![0, 1, 2] : Fin 3 → Fin S100000x16x1.rank)
  reducesTo_S100000x16x1_S100000x16_d2 : S100000x16x1.ReducesTo [2] S100000x16
  h_S_ : 0 < S_.numel
  bcast_S100000x16_S100000x16x64_0_1 : S100000x16.BroadcastsInDim S100000x16x64 (![0, 1] : Fin 2 → Fin S100000x16x64.rank)
  bcast_S_S100000x16x64 : S_.BroadcastsInDim S100000x16x64 (![] : Fin 0 → Fin S100000x16x64.rank)
  bcast_S100000x16x1_S100000x16x64_0_1_2 : S100000x16x1.BroadcastsInDim S100000x16x64 (![0, 1, 2] : Fin 3 → Fin S100000x16x64.rank)
  bcast_S100000x64_S100000x1x64_0_2 : S100000x64.BroadcastsInDim S100000x1x64 (![0, 2] : Fin 2 → Fin S100000x1x64.rank)
  bcast_S100000x1x64_S100000x16x64_0_1_2 : S100000x1x64.BroadcastsInDim S100000x16x64 (![0, 1, 2] : Fin 3 → Fin S100000x16x64.rank)
  concatenates_S100000x16x64_S100000x16x1_S100000x16x65_d2 : Shape.Concatenates [S100000x16x64, S100000x16x1] S100000x16x65 2
  shapeCasts_S100000x16x65_S100000x1040 : S100000x16x65.ShapeCasts S100000x1040
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  shapeCasts_S100000x64_S100000x4x16 : S100000x64.ShapeCasts S100000x4x16
  reducesTo_S100000x4x16_S100000x4_d2 : S100000x4x16.ReducesTo [2] S100000x4
  bcast_S_S100000x4 : S_.BroadcastsInDim S100000x4 (![] : Fin 0 → Fin S100000x4.rank)
  bcast_S100000x4_S100000x4x1_0_1 : S100000x4.BroadcastsInDim S100000x4x1 (![0, 1] : Fin 2 → Fin S100000x4x1.rank)
  bcast_S100000x4x1_S100000x4x16_0_1_2 : S100000x4x1.BroadcastsInDim S100000x4x16 (![0, 1, 2] : Fin 3 → Fin S100000x4x16.rank)
  dot_S100000x64_S64x64_S100000x64_1_0_0_1_n_n_wf : DotDims.WF S100000x64 S64x64 S100000x64 [1] [0] [0] [1] [] []
  gather_S100000x64_S100000x16x1_S100000x16x64_2_0_n_n_0_2_164_wf : GatherDims.WF S100000x64 S100000x16x1 S100000x16x64 [2] [0] [] [0] [] 2 ![1, 64]
  dot_S100000x1040_S1040x128_S100000x128_1_0_0_1_n_n_wf : DotDims.WF S100000x1040 S1040x128 S100000x128 [1] [0] [0] [1] [] []
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S100000x16x1_S100000x16x64_2_0_n_n_0_2_164 : GatherDims S100000x64 S100000x16x1 S100000x16x64 where
  offsetDims := [2]
  collapsedSliceDims := [0]
  operandBatchingDims := []
  startIndicesBatchingDims := []
  startIndexMap := [0]
  indexVectorDim := 2
  sliceSizes := ![1, 64]
  wf := gather_S100000x64_S100000x16x1_S100000x16x64_2_0_n_n_0_2_164_wf
def dot_S100000x1040_S1040x128_S100000x128_1_0_0_1_n_n : DotDims S100000x1040 S1040x128 S100000x128 where
  lhsContracting := [1]
  rhsContracting := [0]
  lhsNonContracting := [0]
  rhsNonContracting := [1]
  lhsBatch := []
  rhsBatch := []
  wf := dot_S100000x1040_S1040x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The kernel's run with its result kept.

  From any memory with zero counters every weakly fair execution of the program on the TensorCores terminates without
  a fault, its arguments end as launched, and its result buffer ends at the contents the last segment boundary names:
  the fold of the program's segments (the first region's write-backs, the host operations between the regions, the
  second region's write-backs, the final reshape) over the launch memory.  What that fold IS, as a function of the
  arguments, is read in the modules that import this one.
-/
import proofs.«106685_j23562190586026_2_alg».proof.Proof.Gen.KernelIdeal.Frame

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state has the result buffer at the last boundary's contents and the arguments as launched. -/
theorem run_result : θ_run defs (onTc (τ := τ) (main (F := F))) ⟨m, fun _ => 0, ρ⟩ (fun r => ∀ c : Dev nD,
      r.2.mem ((c.tc : Thread nD τ).loc main_v13) = W8 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v13 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Val

end
-- ==== Proof.KHostDefs.lean ====
/-
  What the kernel's host operations between its two regions compute, as functions of whole arrays: the neighbours'
  feature rows `gmK xp nidx` (the rows of `xp` at `max nidx 0`, zero where `nidx` is negative), and the first layer's
  weights re-laid — `W0` read as [16, 65, 128], its first 64 rows of each segment (`wfK`) and its last row of each
  segment (`wdK`).
-/
import proofs.«106685_j23562190586026_2_alg».proof.KernelIdeal
import proofs.«106685_j23562190586026_2_alg».proof.Proof.Gen.KernelIdeal
import Idealize.ShloMosaic.PureOps.Ideal

noncomputable section

namespace Cert.KernelIdeal.Val

open Idealize.ShloMosaic Cert.KernelIdeal Cert.KernelIdeal.Gen

/-- The neighbours' feature rows: the rows of `xp` at `max nidx 0` (an index past the last row reads as the
    not-a-number word), and zero where `nidx` is negative — the host operations between the two regions, in order. -/
def gmK (xp : FVec Ideal S100000x64 .f32) (nidx : IVec S100000x16 32) : FVec Ideal S100000x16x64 .f32 :=
  let idx : IVec S100000x16 32 := maxsi nidx (broadcastInDim S100000x16 ![] bcast_S_S100000x16 (constantI S_ 32 0#32))
  let wrapped : IVec S100000x16 32 :=
    select (cmpi .slt idx (broadcastInDim S100000x16 ![] bcast_S_S100000x16 (constantI S_ 32 0#32)))
      (addi idx (broadcastInDim S100000x16 ![] bcast_S_S100000x16 (constantI S_ 32 100000#32))) idx
  let start : IVec S100000x16x1 32 := broadcastInDim S100000x16x1 ![0, 1] bcast_S100000x16_S100000x16x1_0_1 wrapped
  let inb : IVec S100000x16 1 :=
    Host.reduce IntOp.andi
      (andi (cmpi .sge start (broadcastInDim S100000x16x1 ![] bcast_S_S100000x16x1 (constantI S_ 32 0#32)))
        (cmpi .sle start (broadcastInDim S100000x16x1 ![0, 1, 2] bcast_S1x1x1_S100000x16x1_0_1_2
          (broadcastInDim S1x1x1 ![2] bcast_S1_S1x1x1_2 (constantI S1 32 99999#32)))))
      (constantI S_ 1 1#1) reducesTo_S100000x16x1_S100000x16_d2 h_S_
  let taken : FVec Ideal S100000x16x64 .f32 :=
    select (broadcastInDim S100000x16x64 ![0, 1] bcast_S100000x16_S100000x16x64_0_1 inb)
      (Host.gather gather_S100000x64_S100000x16x1_S100000x16x64_2_0_n_n_0_2_164 xp start)
      (broadcastInDim S100000x16x64 ![] bcast_S_S100000x16x64 (constant (F := Ideal) S_ .f32 0x7FC00000#32))
  select
    (broadcastInDim S100000x16x64 ![0, 1, 2] bcast_S100000x16x1_S100000x16x64_0_1_2
      (broadcastInDim S100000x16x1 ![0, 1] bcast_S100000x16_S100000x16x1_0_1
        (cmpi .sge nidx (broadcastInDim S100000x16 ![] bcast_S_S100000x16 (constantI S_ 32 0#32)))))
    taken
    (broadcastInDim S100000x16x64 ![] bcast_S_S100000x16x64 (id (constant (F := Ideal) S_ .f32 0x00000000#32)))

/-- The first layer's weights for the difference rows: `W0` as [16, 65, 128], rows 0 … 63 of each segment. -/
def wfK (w0 : FVec Ideal S1040x128 .f32) : FVec Ideal S16x64x128 .f32 :=
  extractStridedSlice S16x64x128 ![0, 0, 0] (shapeCast S16x65x128 w0 shapeCasts_S1040x128_S16x65x128) slices_S16x65x128_S16x64x128_0_0_0

/-- The first layer's weights for the squared distances: `W0` as [16, 65, 128], row 64 of each segment. -/
def wdK (w0 : FVec Ideal S1040x128 .f32) : FVec Ideal S16x128 .f32 :=
  shapeCast S16x128 (extractStridedSlice S16x1x128 ![0, 64, 0] (shapeCast S16x65x128 w0 shapeCasts_S1040x128_S16x65x128) slices_S16x65x128_S16x1x128_0_64_0)
    shapeCasts_S16x1x128_S16x128

end Cert.KernelIdeal.Val

end
-- ==== Proof.KHostOps.lean ====
/-
  The two stretches of host operations that come from functions called between the regions (the row gather with its
  bounds test, and the select against zero), each operation stated directly over its buffers.  They are the printed
  stretches, operation for operation.
-/
import proofs.«106685_j23562190586026_2_alg».proof.Proof.Gen.KernelIdeal.Frame

noncomputable section

namespace Cert.KernelIdeal.Val

open Idealize.ShloMosaic Idealize.SL.Sem Cert.KernelIdeal Cert.KernelIdeal.Gen

variable {F : FTy → Type} [FloatOps F]

/-- The 23 operations of the row gather: the index wrapped when negative, the bounds test, the gather, the select
    against the not-a-number word. -/
abbrev takeOps : List (HloOp τ sig (Elt F)) :=
  [ StableHlo.nullary main_call0_c (constantI S_ 32 0#32 : (⟨S_, .i32⟩ : BufTy).Contents (Elt F)),
    StableHlo.unary main_call0_c main_call0_v0 (broadcastInDim S100000x16 ![] bcast_S_S100000x16 : (⟨S_, .i32⟩ : BufTy).Contents (Elt F) → (⟨S100000x16, .i32⟩ : BufTy).Contents (Elt F)),
    StableHlo.binary main_v2 main_call0_v0 main_call0_v1 (cmpi .slt : (⟨S100000x16, .i32⟩ : BufTy).Contents (Elt F) → (⟨S100000x16, .i32⟩ : BufTy).Contents (Elt F) → (⟨S100000x16, .i1⟩ : BufTy).Contents (Elt F)),
    StableHlo.nullary main_call0_c_0 (constantI S_ 32 100000#32 : (⟨S_, .i32⟩ : BufTy).Contents (Elt F)),
    StableHlo.unary main_call0_c_0 main_call0_v2 (broadcastInDim S100000x16 ![] bcast_S_S100000x16 : (⟨S_, .i32⟩ : BufTy).Contents (Elt F) → (⟨S100000x16, .i32⟩ : BufTy).Contents (Elt F)),
    StableHlo.binary main_v2 main_call0_v2 main_call0_v3 (addi : (⟨S100000x16, .i32⟩ : BufTy).Contents (Elt F) → (⟨S100000x16, .i32⟩ : BufTy).Contents (Elt F) → (⟨S100000x16, .i32⟩ : BufTy).Contents (Elt F)),
    StableHlo.ternary main_call0_v1 main_call0_v3 main_v2 main_call0_v4 (select : (⟨S100000x16, .i1⟩ : BufTy).Contents (Elt F) → (⟨S100000x16, .i32⟩ : BufTy).Contents (Elt F) → (⟨S100000x16, .i32⟩ : BufTy).Contents (Elt F) → (⟨S100000x16, .i32⟩ : BufTy).Contents (Elt F)),
    StableHlo.unary main_call0_v4 main_call0_v5 (broadcastInDim S100000x16x1 ![0, 1] bcast_S100000x16_S100000x16x1_0_1 : (⟨S100000x16, .i32⟩ : BufTy).Contents (Elt F) → (⟨S100000x16x1, .i32⟩ : BufTy).Contents (Elt F)),
    StableHlo.nullary main_call0_c_1 (constantI S1 32 99999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 (broadcastInDim S100000x16x1 ![] bcast_S_S100000x16x1 : (⟨S_, .i32⟩ : BufTy).Contents (Elt F) → (⟨S100000x16x1, .i32⟩ : BufTy).Contents (Elt F)),
    StableHlo.binary main_call0_v5 main_call0_v6 main_call0_v7 (cmpi .sge : (⟨S100000x16x1, .i32⟩ : BufTy).Contents (Elt F) → (⟨S100000x16x1, .i32⟩ : BufTy).Contents (Elt F) → (⟨S100000x16x1, .i1⟩ : BufTy).Contents (Elt F)),
    StableHlo.unary main_call0_c_1 main_call0_v8 (broadcastInDim S1x1x1 ![2] bcast_S1_S1x1x1_2 : (⟨S1, .i32⟩ : BufTy).Contents (Elt F) → (⟨S1x1x1, .i32⟩ : BufTy).Contents (Elt F)),
    StableHlo.unary main_call0_v8 main_call0_v9 (broadcastInDim S100000x16x1 ![0, 1, 2] bcast_S1x1x1_S100000x16x1_0_1_2 : (⟨S1x1x1, .i32⟩ : BufTy).Contents (Elt F) → (⟨S100000x16x1, .i32⟩ : BufTy).Contents (Elt F)),
    StableHlo.binary main_call0_v5 main_call0_v9 main_call0_v10 (cmpi .sle : (⟨S100000x16x1, .i32⟩ : BufTy).Contents (Elt F) → (⟨S100000x16x1, .i32⟩ : BufTy).Contents (Elt F) → (⟨S100000x16x1, .i1⟩ : BufTy).Contents (Elt F)),
    StableHlo.binary main_call0_v7 main_call0_v10 main_call0_v11 (andi : (⟨S100000x16x1, .i1⟩ : BufTy).Contents (Elt F) → (⟨S100000x16x1, .i1⟩ : BufTy).Contents (Elt F) → (⟨S100000x16x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 ((fun x v => Host.reduce IntOp.andi x v reducesTo_S100000x16x1_S100000x16_d2 h_S_) : (⟨S100000x16x1, .i1⟩ : BufTy).Contents (Elt F) → (⟨S_, .i1⟩ : BufTy).Contents (Elt F) → (⟨S100000x16, .i1⟩ : BufTy).Contents (Elt F)),
    StableHlo.binary main_v0 main_call0_v5 main_call0_v13 ((fun x i => Host.gather gather_S100000x64_S100000x16x1_S100000x16x64_2_0_n_n_0_2_164 x i) : (⟨S100000x64, .f32⟩ : BufTy).Contents (Elt F) → (⟨S100000x16x1, .i32⟩ : BufTy).Contents (Elt F) → (⟨S100000x16x64, .f32⟩ : BufTy).Contents (Elt F)),
    StableHlo.unary main_call0_v12 main_call0_v14 (broadcastInDim S100000x16x64 ![0, 1] bcast_S100000x16_S100000x16x64_0_1 : (⟨S100000x16, .i1⟩ : BufTy).Contents (Elt F) → (⟨S100000x16x64, .i1⟩ : BufTy).Contents (Elt F)),
    StableHlo.nullary main_call0_cst (constant S_ .f32 0x7FC00000#32 : (⟨S_, .f32⟩ : BufTy).Contents (Elt F)),
    StableHlo.unary main_call0_cst main_call0_v15 (broadcastInDim S100000x16x64 ![] bcast_S_S100000x16x64 : (⟨S_, .f32⟩ : BufTy).Contents (Elt F) → (⟨S100000x16x64, .f32⟩ : BufTy).Contents (Elt F)),
    StableHlo.ternary main_call0_v14 main_call0_v13 main_call0_v15 main_v3 (select : (⟨S100000x16x64, .i1⟩ : BufTy).Contents (Elt F) → (⟨S100000x16x64, .f32⟩ : BufTy).Contents (Elt F) → (⟨S100000x16x64, .f32⟩ : BufTy).Contents (Elt F) → (⟨S100000x16x64, .f32⟩ : BufTy).Contents (Elt F)) ]

/-- The 4 operations of the select against zero. -/
abbrev maskOps : List (HloOp τ sig (Elt F)) :=
  [ StableHlo.unary main_cst main_call1_v0 (id : (⟨S_, .f32⟩ : BufTy).Contents (Elt F) → (⟨S_, .f32⟩ : BufTy).Contents (Elt F)),
    StableHlo.unary main_v6 main_call1_v1 (broadcastInDim S100000x16x64 ![0, 1, 2] bcast_S100000x16x1_S100000x16x64_0_1_2 : (⟨S100000x16x1, .i1⟩ : BufTy).Contents (Elt F) → (⟨S100000x16x64, .i1⟩ : BufTy).Contents (Elt F)),
    StableHlo.unary main_call1_v0 main_call1_v2 (broadcastInDim S100000x16x64 ![] bcast_S_S100000x16x64 : (⟨S_, .f32⟩ : BufTy).Contents (Elt F) → (⟨S100000x16x64, .f32⟩ : BufTy).Contents (Elt F)),
    StableHlo.ternary main_call1_v1 main_v3 main_call1_v2 main_v7 (select : (⟨S100000x16x64, .i1⟩ : BufTy).Contents (Elt F) → (⟨S100000x16x64, .f32⟩ : BufTy).Contents (Elt F) → (⟨S100000x16x64, .f32⟩ : BufTy).Contents (Elt F) → (⟨S100000x16x64, .f32⟩ : BufTy).Contents (Elt F)) ]

theorem hostOps1_1_eq : (hostOps1_1 : List (HloOp τ sig (Elt F))) = takeOps := by chain_rfl

theorem hostOps1_3_eq : (hostOps1_3 : List (HloOp τ sig (Elt F))) = maskOps := by chain_rfl

end Cert.KernelIdeal.Val

end
-- ==== Proof.KHost.lean ====
/-
  The kernel's program between its two regions, read back.

  When the second region is entered, its eleven windows' arrays hold: the first region's result `xp` untouched; the
  neighbours' feature rows `gmK xp nidx`; the squared distances and the later layers' weights and biases as launched;
  and the first layer's weights re-laid (`wfK`, `wdK`).  After the second region the one remaining host operation
  reshapes its result [100000, 64] to [100000, 4, 16].
-/
import proofs.«106685_j23562190586026_2_alg».proof.Proof.Gen.KernelIdeal.Frame
import proofs.«106685_j23562190586026_2_alg».proof.Proof.KHostDefs
import proofs.«106685_j23562190586026_2_alg».proof.Proof.KHostOps
import Idealize.ShloMosaic.Lib.StableHlo.Run
import Idealize.ShloMosaic.PureOps.Ideal

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## At the second region's entry -/

theorem W6_v7 (c : Dev nD) :
    (W6 m ρ c (Proc.devRef .tc main_v7) : S100000x16x64.Idx → EReal)
      = gmK (W1 m ρ c (Proc.devRef .tc main_v0) : S100000x64.Idx → EReal) (W1 m ρ c (Proc.devRef .tc main_arg1) : S100000x16.Idx → BitVec 32) := by
  show StableHlo.after hostOps1_4 (StableHlo.after hostOps1_3 (StableHlo.after hostOps1_2 (StableHlo.after hostOps1_1 (StableHlo.after hostOps1 (W1 m ρ c))))) (Proc.devRef .tc main_v7) = _
  rw [hostOps1_1_eq, hostOps1_3_eq]
  after_results_simp
  rfl

theorem W6_v9 (c : Dev nD) :
    (W6 m ρ c (Proc.devRef .tc main_v9) : S16x64x128.Idx → EReal) = wfK (W1 m ρ c (Proc.devRef .tc main_arg5) : S1040x128.Idx → EReal) := by
  show StableHlo.after hostOps1_4 (StableHlo.after hostOps1_3 (StableHlo.after hostOps1_2 (StableHlo.after hostOps1_1 (StableHlo.after hostOps1 (W1 m ρ c))))) (Proc.devRef .tc main_v9) = _
  rw [hostOps1_1_eq, hostOps1_3_eq]
  after_results_simp
  rfl

theorem W6_v11 (c : Dev nD) :
    (W6 m ρ c (Proc.devRef .tc main_v11) : S16x128.Idx → EReal) = wdK (W1 m ρ c (Proc.devRef .tc main_arg5) : S1040x128.Idx → EReal) := by
  show StableHlo.after hostOps1_4 (StableHlo.after hostOps1_3 (StableHlo.after hostOps1_2 (StableHlo.after hostOps1_1 (StableHlo.after hostOps1 (W1 m ρ c))))) (Proc.devRef .tc main_v11) = _
  rw [hostOps1_1_eq, hostOps1_3_eq]
  after_results_simp
  rfl

/-- No host operation between the regions writes this buffer. -/
theorem W6_main_v0 (c : Dev nD) : W6 m ρ c (Proc.devRef .tc main_v0) = W1 m ρ c (Proc.devRef .tc main_v0) := by
  show StableHlo.after hostOps1_4 (StableHlo.after hostOps1_3 (StableHlo.after hostOps1_2 (StableHlo.after hostOps1_1 (StableHlo.after hostOps1 (W1 m ρ c))))) (Proc.devRef .tc main_v0) = _
  rw [hostOps1_1_eq, hostOps1_3_eq]
  after_results_simp

/-- No host operation between the regions writes this buffer. -/
theorem W6_main_arg2 (c : Dev nD) : W6 m ρ c (Proc.devRef .tc main_arg2) = W1 m ρ c (Proc.devRef .tc main_arg2) := by
  show StableHlo.after hostOps1_4 (StableHlo.after hostOps1_3 (StableHlo.after hostOps1_2 (StableHlo.after hostOps1_1 (StableHlo.after hostOps1 (W1 m ρ c))))) (Proc.devRef .tc main_arg2) = _
  rw [hostOps1_1_eq, hostOps1_3_eq]
  after_results_simp

/-- No host operation between the regions writes this buffer. -/
theorem W6_main_arg6 (c : Dev nD) : W6 m ρ c (Proc.devRef .tc main_arg6) = W1 m ρ c (Proc.devRef .tc main_arg6) := by
  show StableHlo.after hostOps1_4 (StableHlo.after hostOps1_3 (StableHlo.after hostOps1_2 (StableHlo.after hostOps1_1 (StableHlo.after hostOps1 (W1 m ρ c))))) (Proc.devRef .tc main_arg6) = _
  rw [hostOps1_1_eq, hostOps1_3_eq]
  after_results_simp

/-- No host operation between the regions writes this buffer. -/
theorem W6_main_arg7 (c : Dev nD) : W6 m ρ c (Proc.devRef .tc main_arg7) = W1 m ρ c (Proc.devRef .tc main_arg7) := by
  show StableHlo.after hostOps1_4 (StableHlo.after hostOps1_3 (StableHlo.after hostOps1_2 (StableHlo.after hostOps1_1 (StableHlo.after hostOps1 (W1 m ρ c))))) (Proc.devRef .tc main_arg7) = _
  rw [hostOps1_1_eq, hostOps1_3_eq]
  after_results_simp

/-- No host operation between the regions writes this buffer. -/
theorem W6_main_arg8 (c : Dev nD) : W6 m ρ c (Proc.devRef .tc main_arg8) = W1 m ρ c (Proc.devRef .tc main_arg8) := by
  show StableHlo.after hostOps1_4 (StableHlo.after hostOps1_3 (StableHlo.after hostOps1_2 (StableHlo.after hostOps1_1 (StableHlo.after hostOps1 (W1 m ρ c))))) (Proc.devRef .tc main_arg8) = _
  rw [hostOps1_1_eq, hostOps1_3_eq]
  after_results_simp

/-- No host operation between the regions writes this buffer. -/
theorem W6_main_arg9 (c : Dev nD) : W6 m ρ c (Proc.devRef .tc main_arg9) = W1 m ρ c (Proc.devRef .tc main_arg9) := by
  show StableHlo.after hostOps1_4 (StableHlo.after hostOps1_3 (StableHlo.after hostOps1_2 (StableHlo.after hostOps1_1 (StableHlo.after hostOps1 (W1 m ρ c))))) (Proc.devRef .tc main_arg9) = _
  rw [hostOps1_1_eq, hostOps1_3_eq]
  after_results_simp

/-- No host operation between the regions writes this buffer. -/
theorem W6_main_arg10 (c : Dev nD) : W6 m ρ c (Proc.devRef .tc main_arg10) = W1 m ρ c (Proc.devRef .tc main_arg10) := by
  show StableHlo.after hostOps1_4 (StableHlo.after hostOps1_3 (StableHlo.after hostOps1_2 (StableHlo.after hostOps1_1 (StableHlo.after hostOps1 (W1 m ρ c))))) (Proc.devRef .tc main_arg10) = _
  rw [hostOps1_1_eq, hostOps1_3_eq]
  after_results_simp

/-! ## At the first region's exit -/

/-- The first region does not stage this argument: it is as launched. -/
theorem W1_main_arg1 (c : Dev nD) : W1 m ρ c (Proc.devRef .tc main_arg1) = m ((c : Thread nD τ).loc main_arg1) :=
  (W1_of_ne m ρ c main_arg1 (by decide)).trans rfl
/-- The first region does not stage this argument: it is as launched. -/
theorem W1_main_arg2 (c : Dev nD) : W1 m ρ c (Proc.devRef .tc main_arg2) = m ((c : Thread nD τ).loc main_arg2) :=
  (W1_of_ne m ρ c main_arg2 (by decide)).trans rfl
/-- The first region does not stage this argument: it is as launched. -/
theorem W1_main_arg5 (c : Dev nD) : W1 m ρ c (Proc.devRef .tc main_arg5) = m ((c : Thread nD τ).loc main_arg5) :=
  (W1_of_ne m ρ c main_arg5 (by decide)).trans rfl
/-- The first region does not stage this argument: it is as launched. -/
theorem W1_main_arg6 (c : Dev nD) : W1 m ρ c (Proc.devRef .tc main_arg6) = m ((c : Thread nD τ).loc main_arg6) :=
  (W1_of_ne m ρ c main_arg6 (by decide)).trans rfl
/-- The first region does not stage this argument: it is as launched. -/
theorem W1_main_arg7 (c : Dev nD) : W1 m ρ c (Proc.devRef .tc main_arg7) = m ((c : Thread nD τ).loc main_arg7) :=
  (W1_of_ne m ρ c main_arg7 (by decide)).trans rfl
/-- The first region does not stage this argument: it is as launched. -/
theorem W1_main_arg8 (c : Dev nD) : W1 m ρ c (Proc.devRef .tc main_arg8) = m ((c : Thread nD τ).loc main_arg8) :=
  (W1_of_ne m ρ c main_arg8 (by decide)).trans rfl
/-- The first region does not stage this argument: it is as launched. -/
theorem W1_main_arg9 (c : Dev nD) : W1 m ρ c (Proc.devRef .tc main_arg9) = m ((c : Thread nD τ).loc main_arg9) :=
  (W1_of_ne m ρ c main_arg9 (by decide)).trans rfl
/-- The first region does not stage this argument: it is as launched. -/
theorem W1_main_arg10 (c : Dev nD) : W1 m ρ c (Proc.devRef .tc main_arg10) = m ((c : Thread nD τ).loc main_arg10) :=
  (W1_of_ne m ρ c main_arg10 (by decide)).trans rfl

/-- The first region's output array after its last write-back. -/
theorem W1_main_v0 (c : Dev nD) : W1 m ρ c (Proc.devRef .tc main_v0) = (dat0 (V0 m ρ) c).arrAt 3 cfg0.N := W1_arr m ρ c 3

/-! ## After the second region -/

/-- The second region's output array after its last write-back. -/
theorem W7_main_v12 (c : Dev nD) : W7 m ρ c (Proc.devRef .tc main_v12) = (dat1 (V6 m ρ) c).arrAt 10 cfg1.N := W7_arr m ρ c 10

/-- The result: the second region's output re-laid as [100000, 4, 16]. -/
theorem W8_main_v13 (c : Dev nD) :
    (W8 m ρ c (Proc.devRef .tc main_v13) : S100000x4x16.Idx → EReal)
      = shapeCast S100000x4x16 (W7 m ρ c (Proc.devRef .tc main_v12) : S100000x64.Idx → EReal) shapeCasts_S100000x64_S100000x4x16 := by
  show StableHlo.after hostOps2 (W7 m ρ c) (Proc.devRef .tc main_v13) = _
  after_results_simp
  rfl

end Cert.KernelIdeal.Val

end
-- ==== Proof.LibEluDense.lean ====
/-
  ELU and a dense layer on the extended reals, and how a kernel and a jnp reference each spell them, read at one entry.

  `Cert.Spec.elu y` is `y` above zero and `exp y − 1` otherwise; `Cert.Spec.dense x w b c = Σ_j x j · w j c + b c`.

  A Pallas kernel writes ELU as  select (y > 0) y (exp (min y 0) − 1)  and a dense layer as a matrix product into the
  zero matrix plus the bias row laid over the rows (`Cert.KernelIdeal.Val.elu_apply`, `matmul_zero_apply`,
  `rowOver_apply` …); jax writes ELU as  select (y > 0) y (1 · expm1 (select (y > 0) 0 y))  and a dense layer as a plain
  dot_general plus the bias broadcast in two steps (`Cert.ReferenceIdeal.RefValue.jaxElu_apply`, `dense_apply`).  Each
  is the same function of the entry on every extended real: below zero `min y 0 = y`, `expm1 = exp − 1`, the factor 1
  drops.  Nothing here mentions a particular program or shape; it imports only the Idealize library.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section
open scoped BigOperators

/-! # ELU and a dense layer, as a Pallas kernel and as jax spell them, at one entry

`Cert.Spec.elu`, `Cert.Spec.dense`; the kernel's forms in `Cert.KernelIdeal.Val` (`elu_entry`, `elu_apply`,
`matmul_zero_apply`, `rowOver_apply`, `rowOver2_apply`, `colOver_apply`, `lastCol_apply`, the words `one_f32`,
`negInf_f32`); jax's forms in `Cert.ReferenceIdeal.RefValue` (`elu_elem`, `jaxElu_apply`, `bias_apply`, `dense_apply`).
Self-contained: imports only the Idealize library. -/

namespace Cert.Spec

open Idealize.ShloMosaic

/-- ELU: the identity above zero, `exp y − 1` at and below it. -/
def elu (y : EReal) : EReal := if 0 < y then y else Ideal.exp y - 1

/-- Entry `c` of a dense layer: the row against column `c` of the weights, plus the bias. -/
def dense {k n : Nat} (x : Fin k → EReal) (w : Fin k → Fin n → EReal) (b : Fin n → EReal) (c : Fin n) : EReal :=
  (∑ j : Fin k, x j * w j c) + b c

end Cert.Spec

/-! ## As a kernel spells them -/

namespace Cert.KernelIdeal.Val
open Idealize.ShloMosaic Idealize.ShloMosaic.ValueIdx

/-! ## Two float words -/

/-- The word 0x3F800000 is 1. -/
theorem one_f32 : Ideal.ofBits .f32 0x3F800000#32 = 1 := by
  simp [Ideal.ofBits, Ideal.ieee, -EReal.coe_mul]; norm_num

/-- The word 0xFF800000 is −∞. -/
theorem negInf_f32 : Ideal.ofBits .f32 0xFF800000#32 = ⊥ := by
  simp [Ideal.ofBits, Ideal.ieee]

/-! ## ELU -/

/-- One entry: the selection between `y` and `exp (min y 0) − 1` on `y > 0` is `elu y`. -/
theorem elu_entry (y : EReal) :
    Scalar.select (Ideal.cmp .ogt y 0) y (Ideal.exp (min y 0) - 1) = Cert.Spec.elu y := by
  unfold Cert.Spec.elu Scalar.select Ideal.cmp
  by_cases h : 0 < y
  · simp [h]
  · simp [h, min_eq_left (not_lt.mp h)]

/-- The kernel's ELU over a whole vector, read at an index. -/
theorem elu_apply {s : Shape} (x : FVec Ideal s .f32) (i : s.Idx) :
    select (cmpf .ogt x (broadcast s (Scalar.ofBits (F := Ideal) .f32 0x00000000#32))) x
        (subf (exp (minimumf x (broadcast s (Scalar.ofBits (F := Ideal) .f32 0x00000000#32))))
          (broadcast s (Scalar.ofBits (F := Ideal) .f32 0x3F800000#32))) i
      = Cert.Spec.elu (x i) := by
  show Scalar.select (Ideal.cmp .ogt (x i) (Ideal.ofBits .f32 0x00000000#32)) (x i)
      (Ideal.exp (min (x i) (Ideal.ofBits .f32 0x00000000#32)) - Ideal.ofBits .f32 0x3F800000#32) = _
  rw [Ideal.ofBits_zero_f32, one_f32]
  exact elu_entry (x i)

/-! ## A matrix product into the zero matrix -/

/-- Entry (a, b) of the product of an m×k by a k×n matrix accumulated into zero: Σ_c A a c · B c b. -/
theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant (F := Ideal) ⟨2, ![m, n]⟩ .f32 0x00000000#32) (ix2 a b)
      = ∑ c : Fin k, A (ix2 a c) * B (ix2 c b) := by
  show FloatOps.matmul _ none A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Rows, columns -/

variable {α : Type}

/-- A vector [b], as one row, laid over the rows of an [a, b] matrix reads, at (p, c), its entry c. -/
theorem rowOver_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A one-row matrix [1, b] flattened to [b] and back, laid over the rows of an [a, b] matrix, reads its entry (0, c). -/
theorem rowOver2_apply {a b : ℕ} (v : (⟨2, ![1, b]⟩ : Shape).Idx → α) (h0 : (⟨2, ![1, b]⟩ : Shape).ShapeCasts ⟨1, ![b]⟩)
    (h1 : (⟨1, ![b]⟩ : Shape).ShapeCasts ⟨2, ![1, b]⟩) (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix2 (0 : Fin 1) c) :=
  (rowOver_apply _ h1 h2 p c).trans (shapeCast_1a_a_apply v h0 c)

/-- A column [a, 1] laid over the columns of an [a, b] matrix reads, at (p, c), its entry (p, 0). -/
theorem colOver_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column 15 of an [a, 16] matrix, cut out as [a, 1], reads at (p, 0) the matrix at (p, 15). -/
theorem lastCol_apply {a : ℕ} (X : (⟨2, ![a, 16]⟩ : Shape).Idx → α)
    (h : (⟨2, ![a, 16]⟩ : Shape).Slices ![0, 15] ⟨2, ![a, 1]⟩) (p : Fin a) :
    extractStridedSlice ⟨2, ![a, 1]⟩ ![0, 15] X h (ix2 p (0 : Fin 1)) = X (ix2 p (15 : Fin 16)) :=
  slice2_axis1_apply 15 X h p 0 (15 : Fin 16) rfl

end Cert.KernelIdeal.Val

/-! ## As jax spells them -/

namespace Cert.ReferenceIdeal.RefValue
open Idealize.ShloMosaic Idealize.ShloMosaic.ValueIdx

/-- The printed elu at one extended real. -/
theorem elu_elem (y : EReal) :
    Scalar.select (Ideal.cmp .ogt y 0) y (1 * (Ideal.exp (Scalar.select (Ideal.cmp .ogt y 0) 0 y) - 1)) = Cert.Spec.elu y := by
  unfold Cert.Spec.elu Scalar.select Ideal.cmp
  by_cases h : 0 < y
  · simp [h]
  · simp [h]

/-- The printed elu over an array of any shape, at an index. -/
theorem jaxElu_apply {s : Shape} (h : (⟨0, ![]⟩ : Shape).BroadcastsInDim s ![]) (y : FVec Ideal s .f32) (i : s.Idx) :
    select (cmpf .ogt y (broadcastInDim s ![] h (constant (F := Ideal) ⟨0, ![]⟩ .f32 0x00000000#32))) y
      (mulf (broadcastInDim s ![] h (constant (F := Ideal) ⟨0, ![]⟩ .f32 0x3F800000#32))
        (Host.expm1 (F := Ideal) (select (cmpf .ogt y (broadcastInDim s ![] h (constant (F := Ideal) ⟨0, ![]⟩ .f32 0x00000000#32)))
          (broadcastInDim s ![] h (id (constant (F := Ideal) ⟨0, ![]⟩ .f32 0x00000000#32))) y))) i
      = Cert.Spec.elu (y i) := by
  rw [select_apply, mulf_apply, cmpf_apply, broadcastInDim_scalar_apply, broadcastInDim_scalar_apply]
  show Scalar.select (Ideal.cmp .ogt (y i) (Ideal.ofBits .f32 0x00000000#32)) (y i)
      (Ideal.ofBits .f32 0x3F800000#32 * (Ideal.exp (Scalar.select (Ideal.cmp .ogt (y i) (Ideal.ofBits .f32 0x00000000#32))
        (Ideal.ofBits .f32 0x00000000#32) (y i)) - 1)) = _
  rw [Ideal.ofBits_zero_f32, Ideal.ofBits_one_f32]
  exact elu_elem (y i)

/-- A bias row broadcast down the rows, at (v, c), is the bias at c. -/
theorem bias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (v : Fin m) (c : Fin n) :
    broadcastInDim ⟨2, ![m, n]⟩ ![0, 1] h2 (broadcastInDim ⟨2, ![1, n]⟩ ![1] h1 b) (ix2 v c) = b (ix1 c) := by
  rw [broadcastInDim_oneRow_apply h2]
  refine broadcastInDim_apply ![1] h1 b (ix2 (0 : Fin 1) c) (ix1 c) ?_
  intro a
  fin_cases a
  show c.val = if n = 1 then 0 else c.val
  split_ifs with hn
  · have := c.isLt; omega
  · rfl

/-- A plain product plus the broadcast bias row, at (v, c). -/
theorem dense_apply {m k n : Nat} (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1]) (h2 : (⟨2, ![1, n]⟩ : Shape).BroadcastsInDim ⟨2, ![m, n]⟩ ![0, 1])
    (l : FVec Ideal ⟨2, ![m, k]⟩ .f32) (r : FVec Ideal ⟨2, ![k, n]⟩ .f32) (b : FVec Ideal ⟨1, ![n]⟩ .f32) (v : Fin m) (c : Fin n) :
    addf (Host.dotGeneral (F := Ideal) D none l r) (broadcastInDim ⟨2, ![m, n]⟩ ![0, 1] h2 (broadcastInDim ⟨2, ![1, n]⟩ ![1] h1 b)) (ix2 v c)
      = Cert.Spec.dense (fun j : Fin k => l (ix2 v j)) (fun (j : Fin k) (c : Fin n) => r (ix2 j c)) (fun c : Fin n => b (ix1 c)) c := by
  subst hD
  rw [addf_apply, StackMember.dotGeneral_plain_apply, bias_apply]
  rfl

end Cert.ReferenceIdeal.RefValue

end
-- ==== Proof.Spec.lean ====
/-
  The function both programs compute, on the extended reals, row by row.

  For one row v of the point cloud:  xp = elu (x·W_pre + b_pre)  (64 features);  for each of the 16 neighbours k the
  difference row  xp − g k  (g k the neighbour's feature row, or zero) followed by the squared distance  ds k  is one
  segment of 65 entries of a 1040-long vector; three dense layers 1040 → 128 → 128 → 64 with elu after the first two
  give 64 logits, read as 4 heads × 16 neighbours, and each head is normalised by a softmax over its 16 entries.

  The first dense layer is written here already split along the 16 segments: segment k contributes
  (Σ_p (xp p − g k p) · wf k p c) + ds k · wd k c,  where  wf k p = W0 (65 k + p)  and  wd k = W0 (65 k + 64).
  That a 1040-long sum is the sum of its 16 segments of 64 + 1 terms (`sum_segments`) is the one law between the two
  arrangements; it is commutativity and associativity of + only, so it holds on the extended reals as it stands.
-/
import Idealize.ShloMosaic.PureOps.Ideal
import Idealize.ShloMosaic.Lib.ValueIdx
import proofs.«106685_j23562190586026_2_alg».proof.Proof.LibEluDense

noncomputable section

open scoped BigOperators

namespace Cert.Spec

open Idealize.ShloMosaic Idealize.ShloMosaic.ValueIdx

/-! ## One entry at a time -/

/-- Entry `c` of the first hidden layer before its activation, the 1040-long contraction taken segment by segment. -/
def hid0 (xp : Fin 64 → EReal) (g : Fin 16 → Fin 64 → EReal) (ds : Fin 16 → EReal)
    (wf : Fin 16 → Fin 64 → Fin 128 → EReal) (wd : Fin 16 → Fin 128 → EReal) (b0 : Fin 128 → EReal) (c : Fin 128) : EReal :=
  (∑ k : Fin 16, ((∑ p : Fin 64, (xp p - g k p) * wf k p c) + ds k * wd k c)) + b0 c

/-- Logit `q` of a row: three dense layers, elu after the first two. -/
def logit (xp : Fin 64 → EReal) (g : Fin 16 → Fin 64 → EReal) (ds : Fin 16 → EReal)
    (wf : Fin 16 → Fin 64 → Fin 128 → EReal) (wd : Fin 16 → Fin 128 → EReal) (b0 : Fin 128 → EReal)
    (w1 : Fin 128 → Fin 128 → EReal) (b1 : Fin 128 → EReal) (w2 : Fin 128 → Fin 64 → EReal) (b2 : Fin 64 → EReal)
    (q : Fin 64) : EReal :=
  dense (fun j => elu (dense (fun i => elu (hid0 xp g ds wf wd b0 i)) w1 b1 j)) w2 b2 q

/-- Segment `k`'s difference rows against their weights, entry `c`. -/
def segD (xp : Fin 64 → EReal) (g : Fin 16 → Fin 64 → EReal) (wf : Fin 16 → Fin 64 → Fin 128 → EReal) (k : Fin 16) (c : Fin 128) : EReal :=
  ∑ p : Fin 64, (xp p - g k p) * wf k p c

/-- Segment `k`'s squared distance against its weight row, entry `c`. -/
def segE (ds : Fin 16 → EReal) (wd : Fin 16 → Fin 128 → EReal) (k : Fin 16) (c : Fin 128) : EReal := ds k * wd k c

theorem hid0_eq (xp : Fin 64 → EReal) (g : Fin 16 → Fin 64 → EReal) (ds : Fin 16 → EReal)
    (wf : Fin 16 → Fin 64 → Fin 128 → EReal) (wd : Fin 16 → Fin 128 → EReal) (b0 : Fin 128 → EReal) (c : Fin 128) :
    hid0 xp g ds wf wd b0 c = (∑ k : Fin 16, (segD xp g wf k c + segE ds wd k c)) + b0 c := rfl

/-- The two later layers on a first hidden row `a` (before its activation): logit `q`. -/
def logitOf (a : Fin 128 → EReal) (w1 : Fin 128 → Fin 128 → EReal) (b1 : Fin 128 → EReal) (w2 : Fin 128 → Fin 64 → EReal)
    (b2 : Fin 64 → EReal) (q : Fin 64) : EReal :=
  dense (fun j => elu (dense (fun i => elu (a i)) w1 b1 j)) w2 b2 q

theorem logit_eq (xp : Fin 64 → EReal) (g : Fin 16 → Fin 64 → EReal) (ds : Fin 16 → EReal)
    (wf : Fin 16 → Fin 64 → Fin 128 → EReal) (wd : Fin 16 → Fin 128 → EReal) (b0 : Fin 128 → EReal)
    (w1 : Fin 128 → Fin 128 → EReal) (b1 : Fin 128 → EReal) (w2 : Fin 128 → Fin 64 → EReal) (b2 : Fin 64 → EReal) (q : Fin 64) :
    logit xp g ds wf wd b0 w1 b1 w2 b2 q = logitOf (hid0 xp g ds wf wd b0) w1 b1 w2 b2 q := rfl

/-- The largest of 16 entries (the fold of `max` from −∞). -/
def rowMax (z : Fin 16 → EReal) : EReal := (Finset.univ : Finset (Fin 16)).fold max ⊥ z

/-- Softmax over 16 entries, shifted by their maximum. -/
def softmax16 (z : Fin 16 → EReal) (k : Fin 16) : EReal :=
  Ideal.div (Ideal.exp (z k - rowMax z)) (∑ k' : Fin 16, Ideal.exp (z k' - rowMax z))

/-- Position `16 h + k` of a 64-long row. -/
def flat (h : Fin 4) (k : Fin 16) : Fin 64 := ⟨16 * h.val + k.val, by omega⟩

/-- Entry (h, k) of a row's result: head `h`'s 16 logits, normalised. -/
def outHK (xp : Fin 64 → EReal) (g : Fin 16 → Fin 64 → EReal) (ds : Fin 16 → EReal)
    (wf : Fin 16 → Fin 64 → Fin 128 → EReal) (wd : Fin 16 → Fin 128 → EReal) (b0 : Fin 128 → EReal)
    (w1 : Fin 128 → Fin 128 → EReal) (b1 : Fin 128 → EReal) (w2 : Fin 128 → Fin 64 → EReal) (b2 : Fin 64 → EReal)
    (h : Fin 4) (k : Fin 16) : EReal :=
  softmax16 (fun k' => logit xp g ds wf wd b0 w1 b1 w2 b2 (flat h k')) k

/-- The same at position `q = 16 h + k` of the row laid flat. -/
def outRow (xp : Fin 64 → EReal) (g : Fin 16 → Fin 64 → EReal) (ds : Fin 16 → EReal)
    (wf : Fin 16 → Fin 64 → Fin 128 → EReal) (wd : Fin 16 → Fin 128 → EReal) (b0 : Fin 128 → EReal)
    (w1 : Fin 128 → Fin 128 → EReal) (b1 : Fin 128 → EReal) (w2 : Fin 128 → Fin 64 → EReal) (b2 : Fin 64 → EReal)
    (q : Fin 64) : EReal :=
  outHK xp g ds wf wd b0 w1 b1 w2 b2 ⟨q.val / 16, by omega⟩ ⟨q.val % 16, by omega⟩

/-- A 64-long row of logits normalised head by head, at position `q` of the row laid flat. -/
def smFlat (z : Fin 64 → EReal) (q : Fin 64) : EReal :=
  softmax16 (fun k' => z (flat ⟨q.val / 16, by omega⟩ k')) ⟨q.val % 16, by omega⟩

theorem outRow_eq (xp : Fin 64 → EReal) (g : Fin 16 → Fin 64 → EReal) (ds : Fin 16 → EReal)
    (wf : Fin 16 → Fin 64 → Fin 128 → EReal) (wd : Fin 16 → Fin 128 → EReal) (b0 : Fin 128 → EReal)
    (w1 : Fin 128 → Fin 128 → EReal) (b1 : Fin 128 → EReal) (w2 : Fin 128 → Fin 64 → EReal) (b2 : Fin 64 → EReal) (q : Fin 64) :
    outRow xp g ds wf wd b0 w1 b1 w2 b2 q = smFlat (logitOf (hid0 xp g ds wf wd b0) w1 b1 w2 b2) q := rfl

theorem outRow_flat (xp : Fin 64 → EReal) (g : Fin 16 → Fin 64 → EReal) (ds : Fin 16 → EReal)
    (wf : Fin 16 → Fin 64 → Fin 128 → EReal) (wd : Fin 16 → Fin 128 → EReal) (b0 : Fin 128 → EReal)
    (w1 : Fin 128 → Fin 128 → EReal) (b1 : Fin 128 → EReal) (w2 : Fin 128 → Fin 64 → EReal) (b2 : Fin 64 → EReal)
    (h : Fin 4) (k : Fin 16) :
    outRow xp g ds wf wd b0 w1 b1 w2 b2 (flat h k) = outHK xp g ds wf wd b0 w1 b1 w2 b2 h k := by
  unfold outRow flat
  congr 1 <;> apply Fin.ext <;> simp only <;> omega

/-! ## Whole arrays -/

abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The pre-dense layer over all rows: entry (v, p) is `elu (x v · W_pre · p + b_pre p)`. -/
def xpArr (x : A2 100000 64) (w : A2 64 64) (b : A1 64) : A2 100000 64 := fun j =>
  elu (dense (fun f : Fin 64 => x (ix2 (j 0) f)) (fun (f : Fin 64) (p : Fin 64) => w (ix2 f p)) (fun p : Fin 64 => b (ix1 p)) (j 1))

theorem xpArr_apply (x : A2 100000 64) (w : A2 64 64) (b : A1 64) (v : Fin 100000) (p : Fin 64) :
    xpArr x w b (ix2 v p) = elu (dense (fun f : Fin 64 => x (ix2 v f)) (fun (f : Fin 64) (p : Fin 64) => w (ix2 f p)) (fun p : Fin 64 => b (ix1 p)) p) := rfl

/-- The result laid flat, [rows, 64]: entry (v, q) from row v of the features, of the neighbours' features and of the
    squared distances, and the (split) weights. -/
def outArr (xp : A2 100000 64) (g : A3 100000 16 64) (ds : A2 100000 16) (wf : A3 16 64 128) (wd : A2 16 128) (b0 : A1 128)
    (w1 : A2 128 128) (b1 : A1 128) (w2 : A2 128 64) (b2 : A1 64) : A2 100000 64 := fun j =>
  outRow (fun p : Fin 64 => xp (ix2 (j 0) p)) (fun (k : Fin 16) (p : Fin 64) => g (ix3 (j 0) k p)) (fun k : Fin 16 => ds (ix2 (j 0) k))
    (fun (k : Fin 16) (p : Fin 64) (c : Fin 128) => wf (ix3 k p c)) (fun (k : Fin 16) (c : Fin 128) => wd (ix2 k c)) (fun c : Fin 128 => b0 (ix1 c))
    (fun (i : Fin 128) (c : Fin 128) => w1 (ix2 i c)) (fun c : Fin 128 => b1 (ix1 c))
    (fun (i : Fin 128) (q : Fin 64) => w2 (ix2 i q)) (fun q : Fin 64 => b2 (ix1 q)) (j 1)

theorem outArr_apply (xp : A2 100000 64) (g : A3 100000 16 64) (ds : A2 100000 16) (wf : A3 16 64 128) (wd : A2 16 128) (b0 : A1 128)
    (w1 : A2 128 128) (b1 : A1 128) (w2 : A2 128 64) (b2 : A1 64) (v : Fin 100000) (q : Fin 64) :
    outArr xp g ds wf wd b0 w1 b1 w2 b2 (ix2 v q)
      = outRow (fun p : Fin 64 => xp (ix2 v p)) (fun (k : Fin 16) (p : Fin 64) => g (ix3 v k p)) (fun k : Fin 16 => ds (ix2 v k))
          (fun (k : Fin 16) (p : Fin 64) (c : Fin 128) => wf (ix3 k p c)) (fun (k : Fin 16) (c : Fin 128) => wd (ix2 k c)) (fun c : Fin 128 => b0 (ix1 c))
          (fun (i : Fin 128) (c : Fin 128) => w1 (ix2 i c)) (fun c : Fin 128 => b1 (ix1 c))
          (fun (i : Fin 128) (q : Fin 64) => w2 (ix2 i q)) (fun q : Fin 64 => b2 (ix1 q)) q := rfl

/-- The result as [rows, 4, 16]: entry (v, h, k). -/
def outArr3 (xp : A2 100000 64) (g : A3 100000 16 64) (ds : A2 100000 16) (wf : A3 16 64 128) (wd : A2 16 128) (b0 : A1 128)
    (w1 : A2 128 128) (b1 : A1 128) (w2 : A2 128 64) (b2 : A1 64) : A3 100000 4 16 := fun j =>
  outHK (fun p : Fin 64 => xp (ix2 (j 0) p)) (fun (k : Fin 16) (p : Fin 64) => g (ix3 (j 0) k p)) (fun k : Fin 16 => ds (ix2 (j 0) k))
    (fun (k : Fin 16) (p : Fin 64) (c : Fin 128) => wf (ix3 k p c)) (fun (k : Fin 16) (c : Fin 128) => wd (ix2 k c)) (fun c : Fin 128 => b0 (ix1 c))
    (fun (i : Fin 128) (c : Fin 128) => w1 (ix2 i c)) (fun c : Fin 128 => b1 (ix1 c))
    (fun (i : Fin 128) (q : Fin 64) => w2 (ix2 i q)) (fun q : Fin 64 => b2 (ix1 q)) (j 1) (j 2)

/-- The weights of the difference rows: `wf k p c = W0 (65 k + p) c`. -/
def wfArr (w0 : A2 1040 128) : A3 16 64 128 := fun j =>
  w0 (ix2 (⟨65 * (j 0).val + (j 1).val, by have := (j 0).isLt; have := (j 1).isLt; simp only [Matrix.cons_val_zero, Matrix.cons_val_one] at *; omega⟩ : Fin 1040) (j 2))

/-- The weights of the squared distances: `wd k c = W0 (65 k + 64) c`. -/
def wdArr (w0 : A2 1040 128) : A2 16 128 := fun j =>
  w0 (ix2 (⟨65 * (j 0).val + 64, by have := (j 0).isLt; simp only [Matrix.cons_val_zero] at *; omega⟩ : Fin 1040) (j 1))

/-! ## The law between the two arrangements of the first layer -/

/-- A sum over 1040 = 16 · 65 positions is the sum over 16 segments of the first 64 positions of the segment and its
    last one. Only + is reordered. -/
theorem sum_segments {M : Type*} [AddCommMonoid M] (f : Fin 1040 → M) :
    ∑ j : Fin 1040, f j
      = ∑ k : Fin 16, ((∑ p : Fin 64, f ⟨65 * k.val + p.val, by omega⟩) + f ⟨65 * k.val + 64, by omega⟩) := by
  have e : ∑ j : Fin 1040, f j = ∑ kp : Fin 16 × Fin 65, f (finProdFinEquiv kp) :=
    (Fintype.sum_equiv (finProdFinEquiv (m := 16) (n := 65)) _ _ (fun _ => rfl)).symm
  rw [e, Fintype.sum_prod_type]
  refine Finset.sum_congr rfl fun k _ => ?_
  rw [Fin.sum_univ_castSucc]
  congr 1
  · refine Finset.sum_congr rfl fun p _ => congrArg f (Fin.ext ?_)
    simp [finProdFinEquiv]; omega
  · refine congrArg f (Fin.ext ?_)
    simp [finProdFinEquiv]; omega

end Cert.Spec

end
-- ==== Proof.KLayout.lean ====
/-
  Three re-layings read at an index.

  `W0` read as [16, 65, 128]: entry (k, p, c) is `W0 (65 k + p) c`; its first 64 rows of each segment are the weights of
  the difference rows and its 65th row of each segment the weights of the squared distances.  The result [100000, 64]
  read as [100000, 4, 16]: entry (v, h, k) is entry (v, 16 h + k).
-/
import proofs.«106685_j23562190586026_2_alg».proof.Proof.KHost
import proofs.«106685_j23562190586026_2_alg».proof.Proof.Spec
import Idealize.ShloMosaic.Lib.ValueIdx
import Idealize.ShloMosaic.Lib.Pipeline.Value

noncomputable section

namespace Cert.KernelIdeal.Val

open Idealize.ShloMosaic Idealize.ShloMosaic.ValueIdx Cert.KernelIdeal Cert.KernelIdeal.Gen

/-- The weights of the difference rows are `W0 (65 k + p) c`. -/
theorem wfK_eq (w0 : FVec Ideal S1040x128 .f32) : wfK w0 = Cert.Spec.wfArr w0 := by
  funext j
  obtain ⟨k, p, c, rfl⟩ : ∃ (k : Fin 16) (p : Fin 64) (c : Fin 128), j = ix3 k p c := ⟨j 0, j 1, j 2, eq_ix3 j⟩
  unfold wfK
  refine (extractStridedSlice_apply _ _ _ _ (ix3 k (⟨p.val, by omega⟩ : Fin 65) c) fun a => ?_).trans ?_
  · match a with
    | ⟨0, _⟩ => exact (Nat.zero_add _).symm
    | ⟨1, _⟩ => exact (Nat.zero_add _).symm
    | ⟨2, _⟩ => exact (Nat.zero_add _).symm
  · refine shapeCast_apply _ _ _ (ix2 (⟨65 * k.val + p.val, by omega⟩ : Fin 1040) c) ?_
    rw [Shape.rowMajor_val_two, Shape.rowMajor_val_three]
    show (65 * k.val + p.val) * 128 + c.val = (k.val * 65 + p.val) * 128 + c.val
    rw [Nat.mul_comm 65 k.val]

/-- The weights of the squared distances are `W0 (65 k + 64) c`. -/
theorem wdK_eq (w0 : FVec Ideal S1040x128 .f32) : wdK w0 = Cert.Spec.wdArr w0 := by
  funext j
  obtain ⟨k, c, rfl⟩ : ∃ (k : Fin 16) (c : Fin 128), j = ix2 k c := ⟨j 0, j 1, eq_ix2 j⟩
  unfold wdK
  refine (shapeCast_apply _ _ _ (ix3 k (0 : Fin 1) c) ?_).trans ?_
  · rw [Shape.rowMajor_val_three, Shape.rowMajor_val_two]
    show (k.val * 1 + 0) * 128 + c.val = k.val * 128 + c.val
    rw [Nat.mul_one, Nat.add_zero]
  refine (extractStridedSlice_apply _ _ _ _ (ix3 k (64 : Fin 65) c) fun a => ?_).trans ?_
  · match a with
    | ⟨0, _⟩ => exact (Nat.zero_add _).symm
    | ⟨1, _⟩ => rfl
    | ⟨2, _⟩ => exact (Nat.zero_add _).symm
  · refine shapeCast_apply _ _ _ (ix2 (⟨65 * k.val + 64, by omega⟩ : Fin 1040) c) ?_
    rw [Shape.rowMajor_val_two, Shape.rowMajor_val_three]
    show (65 * k.val + 64) * 128 + c.val = (k.val * 65 + 64) * 128 + c.val
    rw [Nat.mul_comm 65 k.val]

/-- The flat result re-laid as [100000, 4, 16] is the result by head and neighbour. -/
theorem relay_eq (xp : Cert.Spec.A2 100000 64) (g : Cert.Spec.A3 100000 16 64) (ds : Cert.Spec.A2 100000 16) (wf : Cert.Spec.A3 16 64 128)
    (wd : Cert.Spec.A2 16 128) (b0 : Cert.Spec.A1 128) (w1 : Cert.Spec.A2 128 128) (b1 : Cert.Spec.A1 128) (w2 : Cert.Spec.A2 128 64)
    (b2 : Cert.Spec.A1 64) :
    shapeCast S100000x4x16 (Cert.Spec.outArr xp g ds wf wd b0 w1 b1 w2 b2) shapeCasts_S100000x64_S100000x4x16
      = Cert.Spec.outArr3 xp g ds wf wd b0 w1 b1 w2 b2 := by
  funext j
  obtain ⟨v, h, k, rfl⟩ : ∃ (v : Fin 100000) (h : Fin 4) (k : Fin 16), j = ix3 v h k := ⟨j 0, j 1, j 2, eq_ix3 j⟩
  refine (shapeCast_apply _ _ _ (ix2 v (Cert.Spec.flat h k)) ?_).trans ?_
  · rw [Shape.rowMajor_val_two, Shape.rowMajor_val_three]
    show v.val * 64 + (16 * h.val + k.val) = (v.val * 4 + h.val) * 16 + k.val
    omega
  · rw [Cert.Spec.outArr_apply]
    exact Cert.Spec.outRow_flat _ _ _ _ _ _ _ _ _ _ h k

end Cert.KernelIdeal.Val

end
-- ==== Proof.K0Pay.lean ====
/-
  Region 0's body at one entry.

  One block of 5000 rows of x, the whole 64 × 64 weight matrix and the 64 biases go in; the body stores one block of
  5000 × 64 values. Entry (r, p) of what it stores is  elu (Σ_f x r f · W f p + b p):
  the matrix product accumulates into the zero splat, so at an entry it is the bare sum over the contracted axis (the
  change of float format of its operands is the identity on extended reals); the bias is a 64-vector cast to one row and
  laid along all 5000 rows; and the select  y > 0 ? y : exp (min y 0) − 1  is elu, because min y 0 = y exactly when y is
  not above zero, and the two float words are the extended reals 0 and 1.
-/
import proofs.«106685_j23562190586026_2_alg».proof.Proof.Gen.KernelIdeal.Frame
import proofs.«106685_j23562190586026_2_alg».proof.Proof.Spec
import Idealize.ShloMosaic.Lib.ValueIdx
import Idealize.ShloMosaic.Lib.ValueLayout
import Idealize.ShloMosaic.Lib.IdealHost
import Idealize.ShloMosaic.Lib.Pipeline.Value

noncomputable section
open scoped BigOperators
namespace Cert.KernelIdeal.Val
open Idealize.ShloMosaic Idealize.ShloMosaic.TcCoe Idealize.ShloMosaic.ValueIdx Idealize.SL.Sem Cert.KernelIdeal Cert.KernelIdeal.Gen

/-- The zero offsets of a rank-2 and of a rank-1 access that starts at the origin. -/
theorem hz2 : (![0, 0] : Fin 2 → Nat) = fun _ => 0 := funext fun a => by fin_cases a <;> rfl
theorem hz1 : (![0] : Fin 1 → Nat) = fun _ => 0 := funext fun a => by fin_cases a; rfl

/-- The body's one store covers the whole output block and each load reads a whole input block, so what the body leaves
    in the output block is its arithmetic applied to the three input blocks. -/
theorem out0_3_eq (x0 : Vec Ideal S5000x64 .f32) (x1 : Vec Ideal S64x64 .f32) (x2 : Vec Ideal S64 .f32) :
    Gen.out0_3 (F := Ideal) x0 x1 x2 = Gen.k0_pay1 x0 x1 x2 := by
  unfold Gen.out0_3
  rw [View.canon_unit_zero hz2]
  simp only [View.ld_unit_zero (S := S5000x64) hz2, View.ld_unit_zero (S := S64x64) hz2, View.ld_unit_zero (S := S64) hz1]

/-- The matrix product into the zero splat, at entry (r, p): Σ_f x r f · W f p. The contraction index has one axis of
    extent 64; the left operand is read at (r, f) and the right one at (f, p). -/
theorem mm0_apply (x0 : Vec Ideal S5000x64 .f32) (x1 : Vec Ideal S64x64 .f32) (h : FTy.bits .bf16 < FTy.bits .f32) (r : Fin 5000) (p : Fin 64) :
    (matmul (F := Ideal) dot_S5000x64_S64x64_S5000x64_1_0_0_1_n_n none (truncf .bf16 x0 h : FVec Ideal S5000x64 .bf16) (truncf .bf16 x1 h : FVec Ideal S64x64 .bf16) (constant S5000x64 .f32 0x00000000#32) : FVec Ideal S5000x64 .f32) (ix2 r p)
      = ∑ f : Fin 64, x0 (ix2 r f) * x1 (ix2 f p) := by
  show FloatOps.matmul _ none _ _ (constant S5000x64 .f32 0x00000000#32) (ix2 r p) = _
  rw [Ideal.matmul_constant_zero_apply, ← Equiv.sum_comp (contrEquiv1 dot_S5000x64_S64x64_S5000x64_1_0_0_1_n_n 64 rfl rfl).symm]
  refine Finset.sum_congr rfl fun f _ => ?_
  have c2 := contrEquiv1_symm_val dot_S5000x64_S64x64_S5000x64_1_0_0_1_n_n 64 rfl rfl f
  have l2 : dot_S5000x64_S64x64_S5000x64_1_0_0_1_n_n.lhsIdx (ix2 r p) ((contrEquiv1 dot_S5000x64_S64x64_S5000x64_1_0_0_1_n_n 64 rfl rfl).symm f) = ix2 r f := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact c2
  have r2 : dot_S5000x64_S64x64_S5000x64_1_0_0_1_n_n.rhsIdx (ix2 r p) ((contrEquiv1 dot_S5000x64_S64x64_S5000x64_1_0_0_1_n_n 64 rfl rfl).symm f) = ix2 f p := by
    funext ax; apply Fin.ext
    match ax with
    | ⟨0, _⟩ => simp [DotDims.rhsIdx, dot_S5000x64_S64x64_S5000x64_1_0_0_1_n_n]; exact c2
    | ⟨1, _⟩ => simp [DotDims.rhsIdx, dot_S5000x64_S64x64_S5000x64_1_0_0_1_n_n]; rfl
  rw [l2, r2]; rfl

/-- The bias cast to one row and laid along every row reads, at (r, p), the bias at p. -/
theorem bias0_apply (x2 : Vec Ideal S64 .f32) (h1 : S64.ShapeCasts S1x64) (h2 : S1x64.Broadcasts S5000x64) (r : Fin 5000) (p : Fin 64) :
    (broadcastTo S5000x64 (shapeCast S1x64 x2 h1) h2 : FVec Ideal S5000x64 .f32) (ix2 r p) = x2 (ix1 p) :=
  (broadcastTo_1b_ab_apply _ h2 r p).trans (shapeCast_a_1a_apply x2 h1 0 p)

/-- The select  y > 0 ? y : exp (min y 0) − 1  is elu: the words are 0 and 1, and below or at zero min y 0 is y. -/
theorem elu_kernel (y : EReal) :
    Scalar.select (FloatOps.cmpf (F := Ideal) (φ := .f32) .ogt y (Ideal.ofBits .f32 0x00000000#32)) y
      (Ideal.exp (min y (Ideal.ofBits .f32 0x00000000#32)) - Ideal.ofBits .f32 0x3F800000#32) = Cert.Spec.elu y := by
  rw [Ideal.cmpf_def, Ideal.ofBits_zero_f32, Ideal.ofBits_one_f32]
  unfold Cert.Spec.elu Scalar.select Ideal.cmp
  by_cases h : 0 < y
  · simp [h]
  · simp [h, min_eq_left (not_lt.mp h)]

/-- Entry (r, p) of the block the body stores: elu of row r of the x block against column p of W, plus the bias at p. -/
theorem out0_3_apply (x0 : Vec Ideal S5000x64 .f32) (x1 : Vec Ideal S64x64 .f32) (x2 : Vec Ideal S64 .f32) (r : Fin 5000) (p : Fin 64) :
    Gen.out0_3 (F := Ideal) x0 x1 x2 (ix2 r p)
      = Cert.Spec.elu (Cert.Spec.dense (fun f : Fin 64 => x0 (ix2 r f)) (fun (f : Fin 64) (p : Fin 64) => x1 (ix2 f p)) (fun p : Fin 64 => x2 (ix1 p)) p) := by
  rw [out0_3_eq]
  unfold Gen.k0_pay1
  refine (elu_kernel _).trans (congrArg Cert.Spec.elu ?_)
  rw [addf_apply, mm0_apply, bias0_apply]
  rfl

end Cert.KernelIdeal.Val
end
-- ==== Proof.KArr0.lean ====
/-
  Region 0 from blocks to the whole array.

  The grid has 20 points; point t stages rows 5000 t … 5000 t + 4999 of x (all 64 columns), the whole weight matrix and
  the whole bias vector, and writes back rows 5000 t … 5000 t + 4999 of the output. So entry (r, p) of what point t writes
  back is entry (5000 t + r, p) of ONE function of the three arrays — elu (x · W + b), row by row —, and since every row
  v lies in the block of point v / 5000, the output array ends holding that function everywhere.
-/
import proofs.«106685_j23562190586026_2_alg».proof.Proof.K0Pay

noncomputable section
open scoped BigOperators
namespace Cert.KernelIdeal.Val
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The block indices at point t, decided over the 20 points: the x window and the output window are at block (t, 0),
    the weight and bias windows at their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- If row r of the x block is row v of the array x, and the weight and bias blocks are the weight and bias arrays, then
    entry (r, p) of what the body stores is entry (v, p) of elu (x · W + b). -/
theorem point0 (A0 : S100000x64.Idx → EReal) (A1 : S64x64.Idx → EReal) (A2 : S64.Idx → EReal)
    (x0 : Vec Ideal S5000x64 .f32) (x1 : Vec Ideal S64x64 .f32) (x2 : Vec Ideal S64 .f32) (v : Fin 100000) (r : Fin 5000) (p : Fin 64)
    (h0 : ∀ f : Fin 64, x0 (ix2 r f) = A0 (ix2 v f)) (h1 : ∀ (f p : Fin 64), x1 (ix2 f p) = A1 (ix2 f p)) (h2 : ∀ p : Fin 64, x2 (ix1 p) = A2 (ix1 p)) :
    Gen.out0_3 (F := Ideal) x0 x1 x2 (ix2 r p) = Cert.Spec.xpArr A0 A1 A2 (ix2 v p) := by
  rw [out0_3_apply, Cert.Spec.xpArr_apply]
  simp only [h0, h1, h2]

/-- What point t writes back is block t of elu (x · W + b): an element of a block sits in its array, on each axis, at
    block index × block size + its coordinate in the block. -/
theorem flushed0_eq (c : Dev nD) (t : Fin cfg0.N) :
    (Gen.dat0 (F := Ideal) V c).flushed 3 t
      = ((cfg0.win 3).blk t).view.read (Elt Ideal) (Cert.Spec.xpArr (V c main_arg0 : S100000x64.Idx → EReal) (V c main_arg3 : S64x64.Idx → EReal) (V c main_arg4 : S64.Idx → EReal)) := by
  show (cfg0.win 3).cut (grid0.coords t) ((Gen.dat0 V c).after 3 t) = _
  rw [Gen.after0_3]
  obtain ⟨e00, e01, e10, e11, e20, e30, e31⟩ := idx_facts0 t
  have ht : t.val < 20 := lt_of_lt_of_eq t.isLt Gen.N_0
  have key : ∀ y : S5000x64.Idx, Gen.out0_3 (F := Ideal) (Gen.iblk0 V c 0 t) (Gen.iblk0 V c 1 t) (Gen.iblk0 V c 2 t) y
      = Cert.Spec.xpArr (V c main_arg0 : S100000x64.Idx → EReal) (V c main_arg3 : S64x64.Idx → EReal) (V c main_arg4 : S64.Idx → EReal) (((cfg0.win 3).blk t).view.emb y) := by
    intro y
    obtain ⟨r, p, rfl⟩ : ∃ (r : Fin 5000) (p : Fin 64), y = ix2 r p := ⟨y 0, y 1, eq_ix2 y⟩
    have hemb : ((cfg0.win 3).blk t).view.emb (ix2 r p) = (ix2 (⟨5000 * t.val + r.val, by omega⟩ : Fin 100000) p : S100000x64.Idx) := by
      funext a; apply Fin.ext
      match a with
      | ⟨0, _⟩ => show win0_3.index t (0 : Fin 2) * 5000 + 1 * r.val = 5000 * t.val + r.val; rw [e30]; omega
      | ⟨1, _⟩ => show win0_3.index t (1 : Fin 2) * 64 + 1 * p.val = p.val; rw [e31]; omega
    rw [hemb]
    refine point0 _ _ _ _ _ _ _ r p (fun f => ?_) (fun f q => ?_) (fun q => ?_)
    · show V c main_arg0 (((cfg0.win 0).blk t).view.emb (ix2 r f)) = V c main_arg0 _
      refine congrArg (V c main_arg0) ?_
      funext a; apply Fin.ext
      match a with
      | ⟨0, _⟩ => show win0_0.index t (0 : Fin 2) * 5000 + 1 * r.val = 5000 * t.val + r.val; rw [e00]; omega
      | ⟨1, _⟩ => show win0_0.index t (1 : Fin 2) * 64 + 1 * f.val = f.val; rw [e01]; omega
    · show V c main_arg3 (((cfg0.win 1).blk t).view.emb (ix2 f q)) = V c main_arg3 _
      refine congrArg (V c main_arg3) ?_
      funext a; apply Fin.ext
      match a with
      | ⟨0, _⟩ => show win0_1.index t (0 : Fin 2) * 64 + 1 * f.val = f.val; rw [e10]; omega
      | ⟨1, _⟩ => show win0_1.index t (1 : Fin 2) * 64 + 1 * q.val = q.val; rw [e11]; omega
    · show V c main_arg4 (((cfg0.win 2).blk t).view.emb (ix1 q)) = V c main_arg4 _
      refine congrArg (V c main_arg4) ?_
      funext a; apply Fin.ext
      match a with
      | ⟨0, _⟩ => show win0_2.index t (0 : Fin 1) * 64 + 1 * q.val = q.val; rw [e20]; omega
  funext y
  exact key y

/-- An index of the output array is in point t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- Row v of the output lies in the block of point v / 5000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 20 := Gen.N_0
  let t : Fin cfg0.N := ⟨(i 0).val / 5000, by show (i 0).val / 5000 < grid0.N; omega⟩
  obtain ⟨-, -, -, -, -, e30, e31⟩ := idx_facts0 t
  have e30' : win0_3.index t (0 : Fin 2) = (i 0).val / 5000 := e30
  refine ⟨t, Gen.flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array of region 0 after its 20 points: elu (x · W + b) of the arrays the region found. -/
theorem arr0_eq (c : Dev nD) :
    (Gen.dat0 (F := Ideal) V c).arrAt 3 cfg0.N
      = Cert.Spec.xpArr (V c main_arg0 : S100000x64.Idx → EReal) (V c main_arg3 : S64x64.Idx → EReal) (V c main_arg4 : S64.Idx → EReal) :=
  (Gen.dat0 (F := Ideal) V c).arrAt_eq_of_cover 3 _ (fun t _ => flushed0_eq V c t) cover0

end Cert.KernelIdeal.Val
end
-- ==== Proof.KArr1.lean ====
/-
  Region 1 from blocks to the whole array, given the body's value at an entry.

  The grid has 100 points; point t stages rows 1000 t … 1000 t + 999 of the features, of the neighbours' features and of
  the squared distances, and all of the seven weight and bias arrays (the same arrays at every point), and writes back rows
  1000 t … 1000 t + 999 of the output. The body works row by row: entry (r, q) of the block it stores is a function of row
  r of the three row-blocked inputs and of the seven whole arrays (the hypothesis `Pay1`). So entry (r, q) of what point t
  writes back is entry (1000 t + r, q) of ONE function of the ten arrays, and since every row v lies in the block of point
  v / 1000, the output array ends holding that function everywhere.
-/
import proofs.«106685_j23562190586026_2_alg».proof.Proof.Gen.KernelIdeal.Frame
import proofs.«106685_j23562190586026_2_alg».proof.Proof.Spec
import Idealize.ShloMosaic.Lib.ValueIdx
import Idealize.ShloMosaic.Lib.Pipeline.Value

noncomputable section
open scoped BigOperators
namespace Cert.KernelIdeal.Val
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The body of region 1 at an entry, as the hypothesis this module works under: entry (r, q) of the block the body
    stores is the row function of row r of the three row-blocked inputs and of the seven whole arrays. -/
abbrev Pay1 : Prop := ∀ (x0 : Vec Ideal S1000x64 .f32) (x1 : Vec Ideal S1000x16x64 .f32) (x2 : Vec Ideal S1000x16 .f32)
    (x3 : Vec Ideal S16x64x128 .f32) (x4 : Vec Ideal S16x128 .f32) (x5 : Vec Ideal S128 .f32) (x6 : Vec Ideal S128x128 .f32)
    (x7 : Vec Ideal S128 .f32) (x8 : Vec Ideal S128x64 .f32) (x9 : Vec Ideal S64 .f32) (r : Fin 1000) (q : Fin 64),
      Gen.out1_10 (F := Ideal) x0 x1 x2 x3 x4 x5 x6 x7 x8 x9 (ix2 r q)
        = Cert.Spec.outRow (fun p : Fin 64 => x0 (ix2 r p)) (fun (k : Fin 16) (p : Fin 64) => x1 (ix3 r k p)) (fun k : Fin 16 => x2 (ix2 r k))
          (fun (k : Fin 16) (p : Fin 64) (c : Fin 128) => x3 (ix3 k p c)) (fun (k : Fin 16) (c : Fin 128) => x4 (ix2 k c)) (fun c : Fin 128 => x5 (ix1 c))
          (fun (i : Fin 128) (c : Fin 128) => x6 (ix2 i c)) (fun c : Fin 128 => x7 (ix1 c))
          (fun (i : Fin 128) (q : Fin 64) => x8 (ix2 i q)) (fun q : Fin 64 => x9 (ix1 q)) q

/-- The block indices at point t, decided over the 100 points: the three row-blocked inputs and the output are at block
    (t, 0, …), every other window at its one block. -/
theorem idx_facts1 : ∀ t : Fin cfg1.N, win1_0.index t (0 : Fin 2) = t.val
    ∧ win1_0.index t (1 : Fin 2) = 0
    ∧ win1_1.index t (0 : Fin 3) = t.val
    ∧ win1_1.index t (1 : Fin 3) = 0
    ∧ win1_1.index t (2 : Fin 3) = 0
    ∧ win1_2.index t (0 : Fin 2) = t.val
    ∧ win1_2.index t (1 : Fin 2) = 0
    ∧ win1_3.index t (0 : Fin 3) = 0
    ∧ win1_3.index t (1 : Fin 3) = 0
    ∧ win1_3.index t (2 : Fin 3) = 0
    ∧ win1_4.index t (0 : Fin 2) = 0
    ∧ win1_4.index t (1 : Fin 2) = 0
    ∧ win1_5.index t (0 : Fin 1) = 0
    ∧ win1_6.index t (0 : Fin 2) = 0
    ∧ win1_6.index t (1 : Fin 2) = 0
    ∧ win1_7.index t (0 : Fin 1) = 0
    ∧ win1_8.index t (0 : Fin 2) = 0
    ∧ win1_8.index t (1 : Fin 2) = 0
    ∧ win1_9.index t (0 : Fin 1) = 0
    ∧ win1_10.index t (0 : Fin 2) = t.val
    ∧ win1_10.index t (1 : Fin 2) = 0 :=
  (by decide +kernel : ∀ t : Fin grid1.N, _)

/-- If row r of each row-blocked input block is row v of its array, and the other seven blocks are their arrays, then
    entry (r, q) of what the body stores is entry (v, q) of the row function applied over the whole arrays. -/
theorem point1 (hpay : Pay1) (A0 : S100000x64.Idx → EReal) (A1 : S100000x16x64.Idx → EReal) (A2 : S100000x16.Idx → EReal) (A3 : S16x64x128.Idx → EReal) (A4 : S16x128.Idx → EReal) (A5 : S128.Idx → EReal) (A6 : S128x128.Idx → EReal) (A7 : S128.Idx → EReal) (A8 : S128x64.Idx → EReal) (A9 : S64.Idx → EReal)
    (x0 : Vec Ideal S1000x64 .f32) (x1 : Vec Ideal S1000x16x64 .f32) (x2 : Vec Ideal S1000x16 .f32) (x3 : Vec Ideal S16x64x128 .f32) (x4 : Vec Ideal S16x128 .f32) (x5 : Vec Ideal S128 .f32) (x6 : Vec Ideal S128x128 .f32) (x7 : Vec Ideal S128 .f32) (x8 : Vec Ideal S128x64 .f32) (x9 : Vec Ideal S64 .f32)
    (v : Fin 100000) (r : Fin 1000) (q : Fin 64)
    (h0 : ∀ p : Fin 64, x0 (ix2 r p) = A0 (ix2 v p))
    (h1 : ∀ (k : Fin 16) (p : Fin 64), x1 (ix3 r k p) = A1 (ix3 v k p))
    (h2 : ∀ k : Fin 16, x2 (ix2 r k) = A2 (ix2 v k))
    (h3 : ∀ (k : Fin 16) (p : Fin 64) (d : Fin 128), x3 (ix3 k p d) = A3 (ix3 k p d))
    (h4 : ∀ (k : Fin 16) (d : Fin 128), x4 (ix2 k d) = A4 (ix2 k d))
    (h5 : ∀ d : Fin 128, x5 (ix1 d) = A5 (ix1 d))
    (h6 : ∀ (i d : Fin 128), x6 (ix2 i d) = A6 (ix2 i d))
    (h7 : ∀ d : Fin 128, x7 (ix1 d) = A7 (ix1 d))
    (h8 : ∀ (i : Fin 128) (p : Fin 64), x8 (ix2 i p) = A8 (ix2 i p))
    (h9 : ∀ p : Fin 64, x9 (ix1 p) = A9 (ix1 p)) :
    Gen.out1_10 (F := Ideal) x0 x1 x2 x3 x4 x5 x6 x7 x8 x9 (ix2 r q) = Cert.Spec.outArr A0 A1 A2 A3 A4 A5 A6 A7 A8 A9 (ix2 v q) := by
  rw [hpay, Cert.Spec.outArr_apply]
  simp only [h0, h1, h2, h3, h4, h5, h6, h7, h8, h9]

/-- What point t writes back is block t of the row function over the whole arrays: an element of a block sits in its
    array, on each axis, at block index × block size + its coordinate in the block. -/
theorem flushed1_eq (hpay : Pay1) (c : Dev nD) (t : Fin cfg1.N) :
    (Gen.dat1 (F := Ideal) V c).flushed 10 t
      = ((cfg1.win 10).blk t).view.read (Elt Ideal) (Cert.Spec.outArr (V c main_v0 : S100000x64.Idx → EReal) (V c main_v7 : S100000x16x64.Idx → EReal) (V c main_arg2 : S100000x16.Idx → EReal)
          (V c main_v9 : S16x64x128.Idx → EReal) (V c main_v11 : S16x128.Idx → EReal) (V c main_arg6 : S128.Idx → EReal)
          (V c main_arg7 : S128x128.Idx → EReal) (V c main_arg8 : S128.Idx → EReal) (V c main_arg9 : S128x64.Idx → EReal) (V c main_arg10 : S64.Idx → EReal)) := by
  show (cfg1.win 10).cut (grid1.coords t) ((Gen.dat1 V c).after 10 t) = _
  rw [Gen.after1_10]
  obtain ⟨e0_0, e0_1, e1_0, e1_1, e1_2, e2_0, e2_1, e3_0, e3_1, e3_2, e4_0, e4_1, e5_0, e6_0, e6_1, e7_0, e8_0, e8_1, e9_0, e10_0, e10_1⟩ := idx_facts1 t
  have ht : t.val < 100 := lt_of_lt_of_eq t.isLt Gen.N_1
  have key : ∀ y : S1000x64.Idx, Gen.out1_10 (F := Ideal) (Gen.iblk1 V c 0 t) (Gen.iblk1 V c 1 t) (Gen.iblk1 V c 2 t) (Gen.iblk1 V c 3 t) (Gen.iblk1 V c 4 t) (Gen.iblk1 V c 5 t) (Gen.iblk1 V c 6 t) (Gen.iblk1 V c 7 t) (Gen.iblk1 V c 8 t) (Gen.iblk1 V c 9 t) y
      = Cert.Spec.outArr (V c main_v0 : S100000x64.Idx → EReal) (V c main_v7 : S100000x16x64.Idx → EReal) (V c main_arg2 : S100000x16.Idx → EReal)
          (V c main_v9 : S16x64x128.Idx → EReal) (V c main_v11 : S16x128.Idx → EReal) (V c main_arg6 : S128.Idx → EReal)
          (V c main_arg7 : S128x128.Idx → EReal) (V c main_arg8 : S128.Idx → EReal) (V c main_arg9 : S128x64.Idx → EReal) (V c main_arg10 : S64.Idx → EReal) (((cfg1.win 10).blk t).view.emb y) := by
    intro y
    obtain ⟨r, q, rfl⟩ : ∃ (r : Fin 1000) (q : Fin 64), y = ix2 r q := ⟨y 0, y 1, eq_ix2 y⟩
    have hemb : ((cfg1.win 10).blk t).view.emb (ix2 r q) = (ix2 (⟨1000 * t.val + r.val, by omega⟩ : Fin 100000) q : S100000x64.Idx) := by
      funext a; apply Fin.ext
      match a with
      | ⟨0, _⟩ => show win1_10.index t (0 : Fin 2) * 1000 + 1 * r.val = 1000 * t.val + r.val; rw [e10_0]; omega
      | ⟨1, _⟩ => show win1_10.index t (1 : Fin 2) * 64 + 1 * q.val = q.val; rw [e10_1]; omega
    rw [hemb]
    refine point1 hpay _ _ _ _ _ _ _ _ _ _ _ _ _ _ _ _ _ _ _ _ _ r q (fun p => ?_) (fun k p => ?_) (fun k => ?_) (fun k p d => ?_) (fun k d => ?_) (fun d => ?_) (fun i d => ?_) (fun d => ?_) (fun i p => ?_) (fun p => ?_)
    · show V c main_v0 (((cfg1.win 0).blk t).view.emb (ix2 r p)) = V c main_v0 _
      refine congrArg (V c main_v0) ?_
      funext a; apply Fin.ext
      match a with
      | ⟨0, _⟩ => show win1_0.index t (0 : Fin 2) * 1000 + 1 * r.val = 1000 * t.val + r.val; rw [e0_0]; omega
      | ⟨1, _⟩ => show win1_0.index t (1 : Fin 2) * 64 + 1 * p.val = p.val; rw [e0_1]; omega
    · show V c main_v7 (((cfg1.win 1).blk t).view.emb (ix3 r k p)) = V c main_v7 _
      refine congrArg (V c main_v7) ?_
      funext a; apply Fin.ext
      match a with
      | ⟨0, _⟩ => show win1_1.index t (0 : Fin 3) * 1000 + 1 * r.val = 1000 * t.val + r.val; rw [e1_0]; omega
      | ⟨1, _⟩ => show win1_1.index t (1 : Fin 3) * 16 + 1 * k.val = k.val; rw [e1_1]; omega
      | ⟨2, _⟩ => show win1_1.index t (2 : Fin 3) * 64 + 1 * p.val = p.val; rw [e1_2]; omega
    · show V c main_arg2 (((cfg1.win 2).blk t).view.emb (ix2 r k)) = V c main_arg2 _
      refine congrArg (V c main_arg2) ?_
      funext a; apply Fin.ext
      match a with
      | ⟨0, _⟩ => show win1_2.index t (0 : Fin 2) * 1000 + 1 * r.val = 1000 * t.val + r.val; rw [e2_0]; omega
      | ⟨1, _⟩ => show win1_2.index t (1 : Fin 2) * 16 + 1 * k.val = k.val; rw [e2_1]; omega
    · show V c main_v9 (((cfg1.win 3).blk t).view.emb (ix3 k p d)) = V c main_v9 _
      refine congrArg (V c main_v9) ?_
      funext a; apply Fin.ext
      match a with
      | ⟨0, _⟩ => show win1_3.index t (0 : Fin 3) * 16 + 1 * k.val = k.val; rw [e3_0]; omega
      | ⟨1, _⟩ => show win1_3.index t (1 : Fin 3) * 64 + 1 * p.val = p.val; rw [e3_1]; omega
      | ⟨2, _⟩ => show win1_3.index t (2 : Fin 3) * 128 + 1 * d.val = d.val; rw [e3_2]; omega
    · show V c main_v11 (((cfg1.win 4).blk t).view.emb (ix2 k d)) = V c main_v11 _
      refine congrArg (V c main_v11) ?_
      funext a; apply Fin.ext
      match a with
      | ⟨0, _⟩ => show win1_4.index t (0 : Fin 2) * 16 + 1 * k.val = k.val; rw [e4_0]; omega
      | ⟨1, _⟩ => show win1_4.index t (1 : Fin 2) * 128 + 1 * d.val = d.val; rw [e4_1]; omega
    · show V c main_arg6 (((cfg1.win 5).blk t).view.emb (ix1 d)) = V c main_arg6 _
      refine congrArg (V c main_arg6) ?_
      funext a; apply Fin.ext
      match a with
      | ⟨0, _⟩ => show win1_5.index t (0 : Fin 1) * 128 + 1 * d.val = d.val; rw [e5_0]; omega
    · show V c main_arg7 (((cfg1.win 6).blk t).view.emb (ix2 i d)) = V c main_arg7 _
      refine congrArg (V c main_arg7) ?_
      funext a; apply Fin.ext
      match a with
      | ⟨0, _⟩ => show win1_6.index t (0 : Fin 2) * 128 + 1 * i.val = i.val; rw [e6_0]; omega
      | ⟨1, _⟩ => show win1_6.index t (1 : Fin 2) * 128 + 1 * d.val = d.val; rw [e6_1]; omega
    · show V c main_arg8 (((cfg1.win 7).blk t).view.emb (ix1 d)) = V c main_arg8 _
      refine congrArg (V c main_arg8) ?_
      funext a; apply Fin.ext
      match a with
      | ⟨0, _⟩ => show win1_7.index t (0 : Fin 1) * 128 + 1 * d.val = d.val; rw [e7_0]; omega
    · show V c main_arg9 (((cfg1.win 8).blk t).view.emb (ix2 i p)) = V c main_arg9 _
      refine congrArg (V c main_arg9) ?_
      funext a; apply Fin.ext
      match a with
      | ⟨0, _⟩ => show win1_8.index t (0 : Fin 2) * 128 + 1 * i.val = i.val; rw [e8_0]; omega
      | ⟨1, _⟩ => show win1_8.index t (1 : Fin 2) * 64 + 1 * p.val = p.val; rw [e8_1]; omega
    · show V c main_arg10 (((cfg1.win 9).blk t).view.emb (ix1 p)) = V c main_arg10 _
      refine congrArg (V c main_arg10) ?_
      funext a; apply Fin.ext
      match a with
      | ⟨0, _⟩ => show win1_9.index t (0 : Fin 1) * 64 + 1 * p.val = p.val; rw [e9_0]; omega
  funext y
  exact key y

/-- An index of the output array is in point t's block iff each coordinate is in the block's range on its axis. -/
theorem mem_blk1 (t : Fin cfg1.N) (i : S100000x64.Idx) :
    i ∈ ((cfg1.win 10).blk t).view.set ↔ ∀ a : Fin 2, win1_10.index t a * S1000x64.size a ≤ (i a).val ∧ (i a).val < win1_10.index t a * S1000x64.size a + S1000x64.size a := by
  show i ∈ ((View.whole main_v12).slice (win1_10.rect t)).set ↔ _
  rw [View.set_slice_whole, Rect.mem_set_unit]
  exact Iff.rfl

/-- Row v of the output lies in the block of point v / 1000. -/
theorem cover1 (i : S100000x64.Idx) : ∃ t : Fin cfg1.N, (cfg1.win 10).flush t = true ∧ i ∈ ((cfg1.win 10).blk t).view.set := by
  have hi0 : (i 0).val < 100000 := (i 0).isLt
  have hi1 : (i 1).val < 64 := (i 1).isLt
  have hN : grid1.N = 100 := Gen.N_1
  let t : Fin cfg1.N := ⟨(i 0).val / 1000, by show (i 0).val / 1000 < grid1.N; omega⟩
  obtain ⟨-, -, -, -, -, -, -, -, -, -, -, -, -, -, -, -, -, -, -, e10_0, e10_1⟩ := idx_facts1 t
  have e10_0' : win1_10.index t (0 : Fin 2) = (i 0).val / 1000 := e10_0
  refine ⟨t, Gen.flush1_10 t, ?_⟩
  rw [mem_blk1]
  intro a
  match a with
  | ⟨0, _⟩ => show win1_10.index t (0 : Fin 2) * 1000 ≤ (i 0).val ∧ (i 0).val < win1_10.index t (0 : Fin 2) * 1000 + 1000; omega
  | ⟨1, _⟩ => show win1_10.index t (1 : Fin 2) * 64 ≤ (i 1).val ∧ (i 1).val < win1_10.index t (1 : Fin 2) * 64 + 64; omega

/-- The output array of region 1 after its 100 points: the row function of the arrays the region found, row by row —
    given the body's value at an entry. -/
theorem arr1_eq_of (hpay : ∀ (x0 : Vec Ideal S1000x64 .f32) (x1 : Vec Ideal S1000x16x64 .f32) (x2 : Vec Ideal S1000x16 .f32)
    (x3 : Vec Ideal S16x64x128 .f32) (x4 : Vec Ideal S16x128 .f32) (x5 : Vec Ideal S128 .f32) (x6 : Vec Ideal S128x128 .f32)
    (x7 : Vec Ideal S128 .f32) (x8 : Vec Ideal S128x64 .f32) (x9 : Vec Ideal S64 .f32) (r : Fin 1000) (q : Fin 64),
      Gen.out1_10 (F := Ideal) x0 x1 x2 x3 x4 x5 x6 x7 x8 x9 (ix2 r q)
        = Cert.Spec.outRow (fun p : Fin 64 => x0 (ix2 r p)) (fun (k : Fin 16) (p : Fin 64) => x1 (ix3 r k p)) (fun k : Fin 16 => x2 (ix2 r k))
          (fun (k : Fin 16) (p : Fin 64) (c : Fin 128) => x3 (ix3 k p c)) (fun (k : Fin 16) (c : Fin 128) => x4 (ix2 k c)) (fun c : Fin 128 => x5 (ix1 c))
          (fun (i : Fin 128) (c : Fin 128) => x6 (ix2 i c)) (fun c : Fin 128 => x7 (ix1 c))
          (fun (i : Fin 128) (q : Fin 64) => x8 (ix2 i q)) (fun q : Fin 64 => x9 (ix1 q)) q) (c : Dev nD) :
    (Gen.dat1 (F := Ideal) V c).arrAt 10 cfg1.N
      = Cert.Spec.outArr (V c main_v0 : S100000x64.Idx → EReal) (V c main_v7 : S100000x16x64.Idx → EReal) (V c main_arg2 : S100000x16.Idx → EReal)
          (V c main_v9 : S16x64x128.Idx → EReal) (V c main_v11 : S16x128.Idx → EReal) (V c main_arg6 : S128.Idx → EReal)
          (V c main_arg7 : S128x128.Idx → EReal) (V c main_arg8 : S128.Idx → EReal) (V c main_arg9 : S128x64.Idx → EReal) (V c main_arg10 : S64.Idx → EReal) :=
  (Gen.dat1 (F := Ideal) V c).arrAt_eq_of_cover 10 _ (fun t _ => flushed1_eq V hpay c t) cover1

end Cert.KernelIdeal.Val
end
-- ==== Proof.K1Shape.lean ====
/-
  The second kernel's body result, with its first stage named.

  The body's one store writes  softmax (three dense layers (…))  of the block's rows.  The running sum of the first
  dense layer — 16 segments, each adding a 64-term product sum and then one squared-distance product — is spread over
  several pieces of the body; `accTerm` names that running sum at the place where the sixteenth product sum has been
  added and the sixteenth squared-distance product has not.  `out1_10_eq` restates the body result over that name.
-/
import proofs.«106685_j23562190586026_2_alg».proof.Proof.Gen.KernelIdeal.Frame

noncomputable section

namespace Cert.KernelIdeal.Val

open Idealize.ShloMosaic Idealize.SL.Sem Cert.KernelIdeal Cert.KernelIdeal.Gen

variable {F : FTy → Type} [FloatOps F]

/-- The first dense layer's running sum over a block's rows after segment 15's product sum, before its
    squared-distance product: from the blocks of the features, the neighbours' features, the squared distances and the
    two weight arrays. -/
def accTerm (x0 : Vec F S1000x64 .f32) (x1 : Vec F S1000x16x64 .f32) (x2 : Vec F S1000x16 .f32) (x3 : Vec F S16x64x128 .f32)
    (x4 : Vec F S16x128 .f32) : FVec F S1000x128 .f32 :=
  k1_pay18 (k1_pay2 (View.ld x0 r1_0)) (View.ld x2 r1_1) (k1_pay15 (k1_pay2 (View.ld x0 r1_0)) (View.ld x2 r1_1) (k1_pay14 (k1_pay2 (View.ld x0 r1_0)) (View.ld x2 r1_1) (k1_pay11 (k1_pay2 (View.ld x0 r1_0)) (View.ld x2 r1_1) (k1_pay8 (k1_pay2 (View.ld x0 r1_0)) (View.ld x2 r1_1) (k1_pay6 (k1_pay2 (View.ld x0 r1_0)) (View.ld x2 r1_1) (k1_pay3 (View.ld x0 r1_0) (View.ld x2 r1_1) (View.ld x1 r1_2) (View.ld x3 r1_3) (View.ld x4 r1_4) (View.ld x1 r1_5) (View.ld x3 r1_6)) (k1_pay4 (View.ld x2 r1_1)) (k1_pay5 (View.ld x4 r1_7)) (View.ld x1 r1_8) (View.ld x3 r1_9) (View.ld x4 r1_10) (View.ld x1 r1_11) (View.ld x3 r1_12) (View.ld x4 r1_13)) (k1_pay7 (k1_pay2 (View.ld x0 r1_0)) (View.ld x1 r1_14)) (View.ld x3 r1_15) (View.ld x4 r1_16) (View.ld x1 r1_17) (View.ld x3 r1_18) (View.ld x4 r1_19)) (k1_pay9 (View.ld x3 r1_21)) (k1_pay10 (k1_pay2 (View.ld x0 r1_0)) (View.ld x1 r1_20)) (constant S1000x128 .f32 0x00000000#32) (View.ld x4 r1_22) (View.ld x1 r1_23) (View.ld x3 r1_24) (View.ld x4 r1_25) (View.ld x1 r1_26) (View.ld x3 r1_27)) (k1_pay12 (View.ld x2 r1_1)) (k1_pay13 (View.ld x4 r1_28)) (View.ld x1 r1_29) (View.ld x3 r1_30) (View.ld x4 r1_31) (View.ld x1 r1_32) (View.ld x3 r1_33) (View.ld x4 r1_34)) (View.ld x1 r1_35) (View.ld x3 r1_36) (View.ld x4 r1_37) (View.ld x1 r1_38) (View.ld x3 r1_39) (View.ld x4 r1_40)) (k1_pay16 (k1_pay2 (View.ld x0 r1_0)) (View.ld x1 r1_41)) (k1_pay17 (View.ld x3 r1_42)) (View.ld x4 r1_43) (View.ld x1 r1_44) (View.ld x3 r1_45) (View.ld x4 r1_46) (View.ld x1 r1_47) (View.ld x3 r1_48)

/-- The body result over that name: the rest of the body (the last squared-distance product, the bias, the two later
    layers, the softmax) applied to it. -/
theorem out1_10_eq (x0 : Vec F S1000x64 .f32) (x1 : Vec F S1000x16x64 .f32) (x2 : Vec F S1000x16 .f32) (x3 : Vec F S16x64x128 .f32)
    (x4 : Vec F S16x128 .f32) (x5 : Vec F S128 .f32) (x6 : Vec F S128x128 .f32) (x7 : Vec F S128 .f32) (x8 : Vec F S128x64 .f32)
    (x9 : Vec F S64 .f32) :
    out1_10 x0 x1 x2 x3 x4 x5 x6 x7 x8 x9
      = View.canon [⟨r1_0, k1_pay1
          (k1_pay20 (accTerm x0 x1 x2 x3 x4) (k1_pay19 (View.ld x2 r1_1)) (View.ld x4 r1_49) (View.ld x5 r1_50) (View.ld x6 r1_51) (View.ld x7 r1_50) (View.ld x8 r1_52) (View.ld x9 r1_53))
          (k1_pay21 (accTerm x0 x1 x2 x3 x4) (k1_pay19 (View.ld x2 r1_1)) (View.ld x4 r1_49) (View.ld x5 r1_50) (View.ld x6 r1_51) (View.ld x7 r1_50) (View.ld x8 r1_52) (View.ld x9 r1_53))⟩] := rfl

end Cert.KernelIdeal.Val

end
-- ==== Proof.K1AccLaws.lean ====
/-
  The two updates of the first dense layer's running sum, each read at an index, and a loaded slab read at an index.

  A segment's product sum: the block's features minus one neighbour's features, against that neighbour's weight slab,
  both passed through a change of float format (the identity on the extended reals), multiplied as matrices onto a zero
  accumulator.  At (r, c) it is  Σ_p (v1 (r, p) − l (r, 0, p)) · w (0, p, c).
  A segment's squared-distance product: column o of the squared distances spread along the 128 columns, times the
  neighbour's weight row spread along the rows.  At (r, c) it is  v2 (r, o) · w4 (0, c).
  A slab loaded through a unit-stride rectangle reads the array at the rectangle's offset plus the index.
-/
import proofs.«106685_j23562190586026_2_alg».proof.Proof.Gen.KernelIdeal.Frame
import proofs.«106685_j23562190586026_2_alg».proof.Proof.Spec
import proofs.«106685_j23562190586026_2_alg».proof.Proof.K1Shape
import Idealize.ShloMosaic.Lib.ValueIdx
import Idealize.ShloMosaic.Lib.Pipeline.Value
import Idealize.ShloMosaic.Lib.ValueLayout
import Idealize.ShloMosaic.PureOps.Ideal.Laws

noncomputable section
open scoped BigOperators
namespace Cert.KernelIdeal.Val
open Idealize.ShloMosaic Idealize.ShloMosaic.TcCoe Idealize.ShloMosaic.ValueIdx Idealize.SL.Sem Cert.KernelIdeal Cert.KernelIdeal.Gen

/-! ## The two updates as functions of the vectors they read -/

section AnyInstance
variable {F : FTy → Type} [FloatOps F]

/-- A segment's product sum over a block's rows: (features − neighbour's features) · weight slab. -/
def dT (v1 : FVec F S1000x64 .f32) (l : Vec F S1000x1x64 .f32) (w : Vec F S1x64x128 .f32) : FVec F S1000x128 .f32 :=
  matmul dot_S1000x64_S64x128_S1000x128_1_0_0_1_n_n none
    (truncf .bf16 (subf v1 (shapeCast S1000x64 l shapeCasts_S1000x1x64_S1000x64)) bitsLt_bf16_f32)
    (truncf .bf16 (shapeCast S64x128 w shapeCasts_S1x64x128_S64x128) bitsLt_bf16_f32)
    (constant S1000x128 .f32 0x00000000#32)

/-- A segment's squared-distance product over a block's rows: column `o` of the squared distances times the weight row. -/
def eT (o : Nat) (h : S1000x16.Slices ![0, o] S1000x1) (v2 : Vec F S1000x16 .f32) (w4 : Vec F S1x128 .f32) : FVec F S1000x128 .f32 :=
  mulf (broadcastTo S1000x128 (extractStridedSlice S1000x1 ![0, o] v2 h) broadcasts_S1000x1_S1000x128)
    (broadcastTo S1000x128 (shapeCast S1x128 (shapeCast S128 w4 shapeCasts_S1x128_S128) shapeCasts_S128_S1x128) broadcasts_S1x128_S1000x128)

end AnyInstance

/-! ## At an index, on the extended reals -/

/-- The product sum at (r, c): the contraction over the 64 features. -/
theorem dT_apply (v1 : FVec Ideal S1000x64 .f32) (l : Vec Ideal S1000x1x64 .f32) (w : Vec Ideal S1x64x128 .f32)
    (r : Fin 1000) (c : Fin 128) :
    dT v1 l w (ix2 r c) = ∑ p : Fin 64, (v1 (ix2 r p) - l (ix3 r 0 p)) * w (ix3 0 p c) := by
  unfold dT
  refine (Ideal.matmul_constant_zero_apply dot_S1000x64_S64x128_S1000x128_1_0_0_1_n_n none _ _ (ix2 r c)).trans ?_
  rw [← Equiv.sum_comp (contrEquiv1 dot_S1000x64_S64x128_S1000x128_1_0_0_1_n_n 64 rfl rfl).symm]
  refine Finset.sum_congr rfl fun p _ => ?_
  have cp := contrEquiv1_symm_val dot_S1000x64_S64x128_S1000x128_1_0_0_1_n_n 64 rfl rfl p
  have hl : dot_S1000x64_S64x128_S1000x128_1_0_0_1_n_n.lhsIdx (ix2 r c) ((contrEquiv1 _ 64 rfl rfl).symm p) = ix2 r p := by
    funext ax; apply Fin.ext
    match ax with
    | ⟨0, _⟩ => simp [DotDims.lhsIdx, dot_S1000x64_S64x128_S1000x128_1_0_0_1_n_n]; rfl
    | ⟨1, _⟩ => simp [DotDims.lhsIdx, dot_S1000x64_S64x128_S1000x128_1_0_0_1_n_n]; exact cp
  have hr : dot_S1000x64_S64x128_S1000x128_1_0_0_1_n_n.rhsIdx (ix2 r c) ((contrEquiv1 _ 64 rfl rfl).symm p) = ix2 p c := by
    funext ax; apply Fin.ext
    match ax with
    | ⟨0, _⟩ => simp [DotDims.rhsIdx, dot_S1000x64_S64x128_S1000x128_1_0_0_1_n_n]; exact cp
    | ⟨1, _⟩ => simp [DotDims.rhsIdx, dot_S1000x64_S64x128_S1000x128_1_0_0_1_n_n]; rfl
  rw [hl, hr]
  have e1 : shapeCast S1000x64 l shapeCasts_S1000x1x64_S1000x64 (ix2 r p) = l (ix3 r 0 p) :=
    shapeCast_apply l _ (ix2 r p) (ix3 r 0 p) (by
      rw [Shape.rowMajor_val_three, Shape.rowMajor_val_two]
      show (r.val * 1 + 0) * 64 + p.val = r.val * 64 + p.val
      omega)
  have e2 : shapeCast S64x128 w shapeCasts_S1x64x128_S64x128 (ix2 p c) = w (ix3 0 p c) :=
    shapeCast_1ab_ab_apply w _ p c
  show (v1 (ix2 r p) - shapeCast S1000x64 l shapeCasts_S1000x1x64_S1000x64 (ix2 r p))
      * shapeCast S64x128 w shapeCasts_S1x64x128_S64x128 (ix2 p c) = _
  rw [e1, e2]

/-- The squared-distance product at (r, c). -/
theorem eT_apply (o : Nat) (h : S1000x16.Slices ![0, o] S1000x1) (v2 : Vec Ideal S1000x16 .f32) (w4 : Vec Ideal S1x128 .f32)
    (k : Fin 16) (hk : k.val = o) (r : Fin 1000) (c : Fin 128) :
    eT o h v2 w4 (ix2 r c) = v2 (ix2 r k) * w4 (ix2 0 c) := by
  unfold eT
  have e1 : broadcastTo S1000x128 (extractStridedSlice S1000x1 ![0, o] v2 h) broadcasts_S1000x1_S1000x128 (ix2 r c)
      = v2 (ix2 r k) := by
    refine (broadcastTo_apply _ broadcasts_S1000x1_S1000x128 (ix2 r c) (ix2 r (0 : Fin 1)) fun ax => ?_).trans ?_
    · match ax with
      | ⟨0, _⟩ => rfl
      | ⟨1, _⟩ => rfl
    · exact slice2_axis1_apply o v2 h r (0 : Fin 1) k (by rw [hk]; rfl)
  have e2 : broadcastTo S1000x128 (shapeCast S1x128 (shapeCast S128 w4 shapeCasts_S1x128_S128) shapeCasts_S128_S1x128)
      broadcasts_S1x128_S1000x128 (ix2 r c) = w4 (ix2 0 c) := by
    rw [shapeCast_shapeCast]
    exact broadcastTo_1b_ab_apply w4 _ r c
  show broadcastTo S1000x128 (extractStridedSlice S1000x1 ![0, o] v2 h) broadcasts_S1000x1_S1000x128 (ix2 r c)
      * broadcastTo S1000x128 (shapeCast S1x128 (shapeCast S128 w4 shapeCasts_S1x128_S128) shapeCasts_S128_S1x128)
          broadcasts_S1x128_S1000x128 (ix2 r c) = _
  rw [e1, e2]

/-! ## Loaded slabs at an index -/

/-- Neighbour `k`'s features of the block, loaded as a [1000, 1, 64] slab, at (r, 0, p). -/
theorem ld_nbr_apply (x1 : Vec Ideal S1000x16x64 .f32) (o : Nat)
    (inb : ∀ a, (![0, o, 0] : Fin 3 → Nat) a + S1000x1x64.size a ≤ S1000x16x64.size a)
    (k : Fin 16) (hk : k.val = o) (r : Fin 1000) (p : Fin 64) :
    View.ld x1 (Rect.unit (s := S1000x16x64) ![0, o, 0] S1000x1x64.size inb) (ix3 r 0 p) = x1 (ix3 r k p) := by
  show x1 _ = x1 _
  refine congrArg x1 (funext fun ax => Fin.ext ?_)
  match ax with
  | ⟨0, _⟩ => show 0 + 1 * r.val = r.val; omega
  | ⟨1, _⟩ => show o + 1 * 0 = k.val; omega
  | ⟨2, _⟩ => show 0 + 1 * p.val = p.val; omega

/-- Neighbour `k`'s weight slab, loaded as [1, 64, 128], at (0, p, c). -/
theorem ld_slab_apply (x3 : Vec Ideal S16x64x128 .f32) (o : Nat)
    (inb : ∀ a, (![o, 0, 0] : Fin 3 → Nat) a + S1x64x128.size a ≤ S16x64x128.size a)
    (k : Fin 16) (hk : k.val = o) (p : Fin 64) (c : Fin 128) :
    View.ld x3 (Rect.unit (s := S16x64x128) ![o, 0, 0] S1x64x128.size inb) (ix3 0 p c) = x3 (ix3 k p c) := by
  show x3 _ = x3 _
  refine congrArg x3 (funext fun ax => Fin.ext ?_)
  match ax with
  | ⟨0, _⟩ => show o + 1 * 0 = k.val; omega
  | ⟨1, _⟩ => show 0 + 1 * p.val = p.val; omega
  | ⟨2, _⟩ => show 0 + 1 * c.val = c.val; omega

/-- Neighbour `k`'s squared-distance weight row, loaded as [1, 128], at (0, c). -/
theorem ld_row_apply (x4 : Vec Ideal S16x128 .f32) (o : Nat)
    (inb : ∀ a, (![o, 0] : Fin 2 → Nat) a + S1x128.size a ≤ S16x128.size a)
    (k : Fin 16) (hk : k.val = o) (c : Fin 128) :
    View.ld x4 (Rect.unit (s := S16x128) ![o, 0] S1x128.size inb) (ix2 0 c) = x4 (ix2 k c) := by
  show x4 _ = x4 _
  refine congrArg x4 (funext fun ax => Fin.ext ?_)
  match ax with
  | ⟨0, _⟩ => show o + 1 * 0 = k.val; omega
  | ⟨1, _⟩ => show 0 + 1 * c.val = c.val; omega

/-- The block's features, loaded whole and cast to their own shape, are the block. -/
theorem pay2_ld (x0 : Vec Ideal S1000x64 .f32) : k1_pay2 (View.ld x0 r1_0) = x0 := by
  unfold k1_pay2
  rw [shapeCast_self]
  exact View.ld_unit_zero (S := S1000x64) (funext fun a => by match a with | ⟨0, _⟩ => rfl | ⟨1, _⟩ => rfl) _ x0

/-- The block's squared distances, loaded whole, are the block. -/
theorem ld_dist (x2 : Vec Ideal S1000x16 .f32) : View.ld x2 r1_1 = x2 :=
  View.ld_unit_zero (S := S1000x16) (funext fun a => by match a with | ⟨0, _⟩ => rfl | ⟨1, _⟩ => rfl) _ x2

/-! ## The two updates read off the arrays: one segment of the specification each -/

/-- Segment `k`'s product sum, from the loaded slabs, is the specification's `segD` of the block's row. -/
theorem dT_ld (x0 : Vec Ideal S1000x64 .f32) (x1 : Vec Ideal S1000x16x64 .f32) (x3 : Vec Ideal S16x64x128 .f32) (o : Nat)
    (inb1 : ∀ a, (![0, o, 0] : Fin 3 → Nat) a + S1000x1x64.size a ≤ S1000x16x64.size a)
    (inb3 : ∀ a, (![o, 0, 0] : Fin 3 → Nat) a + S1x64x128.size a ≤ S16x64x128.size a)
    (k : Fin 16) (hk : k.val = o) (r : Fin 1000) (c : Fin 128) :
    dT (k1_pay2 (View.ld x0 r1_0)) (View.ld x1 (Rect.unit (s := S1000x16x64) ![0, o, 0] S1000x1x64.size inb1))
        (View.ld x3 (Rect.unit (s := S16x64x128) ![o, 0, 0] S1x64x128.size inb3)) (ix2 r c)
      = Cert.Spec.segD (fun p : Fin 64 => x0 (ix2 r p)) (fun (k : Fin 16) (p : Fin 64) => x1 (ix3 r k p))
          (fun (k : Fin 16) (p : Fin 64) (c : Fin 128) => x3 (ix3 k p c)) k c := by
  rw [dT_apply, pay2_ld]
  unfold Cert.Spec.segD
  refine Finset.sum_congr rfl fun p _ => ?_
  rw [ld_nbr_apply x1 o inb1 k hk r p, ld_slab_apply x3 o inb3 k hk p c]

/-- Segment `k`'s squared-distance product, from the loaded slabs, is the specification's `segE` of the block's row. -/
theorem eT_ld (x2 : Vec Ideal S1000x16 .f32) (x4 : Vec Ideal S16x128 .f32) (o : Nat) (h : S1000x16.Slices ![0, o] S1000x1)
    (inb4 : ∀ a, (![o, 0] : Fin 2 → Nat) a + S1x128.size a ≤ S16x128.size a)
    (k : Fin 16) (hk : k.val = o) (r : Fin 1000) (c : Fin 128) :
    eT o h (View.ld x2 r1_1) (View.ld x4 (Rect.unit (s := S16x128) ![o, 0] S1x128.size inb4)) (ix2 r c)
      = Cert.Spec.segE (fun k : Fin 16 => x2 (ix2 r k)) (fun (k : Fin 16) (c : Fin 128) => x4 (ix2 k c)) k c := by
  rw [eT_apply o h _ _ k hk r c, ld_dist, ld_row_apply x4 o inb4 k hk c]
  rfl

end Cert.KernelIdeal.Val

end
-- ==== Proof.K1AccPieces.lean ====
/-
  The pieces of the first dense layer's running sum, each as the running sum it is handed plus its own updates.

  The sixteen segments' updates — a product sum, then a squared-distance product — are spread over seven pieces of the
  body, cut in the middle of a segment in places; a factor, a difference or a cast weight slab computed by a small side
  piece and handed on is put back where it is used, so that every update reads as one of the two update functions.
  Each equation is by unfolding.
-/
import proofs.«106685_j23562190586026_2_alg».proof.Proof.Gen.KernelIdeal.Frame
import proofs.«106685_j23562190586026_2_alg».proof.Proof.Spec
import proofs.«106685_j23562190586026_2_alg».proof.Proof.K1Shape
import proofs.«106685_j23562190586026_2_alg».proof.Proof.K1AccLaws
import Idealize.ShloMosaic.Lib.ValueIdx
import Idealize.ShloMosaic.Lib.Pipeline.Value
import Idealize.ShloMosaic.Lib.ValueLayout
import Idealize.ShloMosaic.PureOps.Ideal.Laws

noncomputable section
open scoped BigOperators
namespace Cert.KernelIdeal.Val
open Idealize.ShloMosaic Idealize.ShloMosaic.TcCoe Idealize.ShloMosaic.ValueIdx Idealize.SL.Sem Cert.KernelIdeal Cert.KernelIdeal.Gen

variable {F : FTy → Type} [FloatOps F]

/-- Segments 0 and 1 up to segment 1's product sum, from the zero splat. -/
theorem pay3_eq (v0 : Vec F S1000x64 .f32) (v2 : Vec F S1000x16 .f32) (l0 : Vec F S1000x1x64 .f32) (w0 : Vec F S1x64x128 .f32)
    (e0 : Vec F S1x128 .f32) (l1 : Vec F S1000x1x64 .f32) (w1 : Vec F S1x64x128 .f32) :
    k1_pay3 v0 v2 l0 w0 e0 l1 w1
      = addf (addf (addf (broadcast S1000x128 (Scalar.ofBits .f32 0x00000000#32 : F .f32)) (dT (k1_pay2 v0) l0 w0))
          (eT 0 slices_S1000x16_o0_0_S1000x1 v2 e0)) (dT (k1_pay2 v0) l1 w1) := rfl

/-- Segment 1's squared-distance product (its two factors made by side pieces), then segments 2 and 3. -/
theorem pay6_eq (v1 : FVec F S1000x64 .f32) (v2 : Vec F S1000x16 .f32) (a : FVec F S1000x128 .f32) (e1 : Vec F S1x128 .f32)
    (l2 : Vec F S1000x1x64 .f32) (w2 : Vec F S1x64x128 .f32) (e2 : Vec F S1x128 .f32)
    (l3 : Vec F S1000x1x64 .f32) (w3 : Vec F S1x64x128 .f32) (e3 : Vec F S1x128 .f32) :
    k1_pay6 v1 v2 a (k1_pay4 v2) (k1_pay5 e1) l2 w2 e2 l3 w3 e3
      = addf (addf (addf (addf (addf a (eT 1 slices_S1000x16_o0_1_S1000x1 v2 e1)) (dT v1 l2 w2)) (eT 2 slices_S1000x16_o0_2_S1000x1 v2 e2)) (dT v1 l3 w3))
          (eT 3 slices_S1000x16_o0_3_S1000x1 v2 e3) := rfl

/-- Segments 4 and 5 (segment 4's difference made by a side piece). -/
theorem pay8_eq (v1 : FVec F S1000x64 .f32) (v2 : Vec F S1000x16 .f32) (a : FVec F S1000x128 .f32)
    (l4 : Vec F S1000x1x64 .f32) (w4 : Vec F S1x64x128 .f32) (e4 : Vec F S1x128 .f32)
    (l5 : Vec F S1000x1x64 .f32) (w5 : Vec F S1x64x128 .f32) (e5 : Vec F S1x128 .f32) :
    k1_pay8 v1 v2 a (k1_pay7 v1 l4) w4 e4 l5 w5 e5
      = addf (addf (addf (addf a (dT v1 l4 w4)) (eT 4 slices_S1000x16_o0_4_S1000x1 v2 e4)) (dT v1 l5 w5)) (eT 5 slices_S1000x16_o0_5_S1000x1 v2 e5) := rfl

/-- Segments 6 and 7 and segment 8's product sum (segment 6's two matrix factors made by side pieces). -/
theorem pay11_eq (v1 : FVec F S1000x64 .f32) (v2 : Vec F S1000x16 .f32) (a : FVec F S1000x128 .f32)
    (l6 : Vec F S1000x1x64 .f32) (w6 : Vec F S1x64x128 .f32) (e6 : Vec F S1x128 .f32)
    (l7 : Vec F S1000x1x64 .f32) (w7 : Vec F S1x64x128 .f32) (e7 : Vec F S1x128 .f32)
    (l8 : Vec F S1000x1x64 .f32) (w8 : Vec F S1x64x128 .f32) :
    k1_pay11 v1 v2 a (k1_pay9 w6) (k1_pay10 v1 l6) (constant S1000x128 .f32 0x00000000#32) e6 l7 w7 e7 l8 w8
      = addf (addf (addf (addf (addf a (dT v1 l6 w6)) (eT 6 slices_S1000x16_o0_6_S1000x1 v2 e6)) (dT v1 l7 w7)) (eT 7 slices_S1000x16_o0_7_S1000x1 v2 e7))
          (dT v1 l8 w8) := rfl

/-- Segment 8's squared-distance product (its column and weight row made by side pieces), then segments 9 and 10. -/
theorem pay14_eq (v1 : FVec F S1000x64 .f32) (v2 : Vec F S1000x16 .f32) (a : FVec F S1000x128 .f32) (e8 : Vec F S1x128 .f32)
    (l9 : Vec F S1000x1x64 .f32) (w9 : Vec F S1x64x128 .f32) (e9 : Vec F S1x128 .f32)
    (l10 : Vec F S1000x1x64 .f32) (w10 : Vec F S1x64x128 .f32) (e10 : Vec F S1x128 .f32) :
    k1_pay14 v1 v2 a (k1_pay12 v2) (k1_pay13 e8) l9 w9 e9 l10 w10 e10
      = addf (addf (addf (addf (addf a (eT 8 slices_S1000x16_o0_8_S1000x1 v2 e8)) (dT v1 l9 w9)) (eT 9 slices_S1000x16_o0_9_S1000x1 v2 e9)) (dT v1 l10 w10))
          (eT 10 slices_S1000x16_o0_10_S1000x1 v2 e10) := rfl

/-- Segments 11 and 12. -/
theorem pay15_eq (v1 : FVec F S1000x64 .f32) (v2 : Vec F S1000x16 .f32) (a : FVec F S1000x128 .f32)
    (l11 : Vec F S1000x1x64 .f32) (w11 : Vec F S1x64x128 .f32) (e11 : Vec F S1x128 .f32)
    (l12 : Vec F S1000x1x64 .f32) (w12 : Vec F S1x64x128 .f32) (e12 : Vec F S1x128 .f32) :
    k1_pay15 v1 v2 a l11 w11 e11 l12 w12 e12
      = addf (addf (addf (addf a (dT v1 l11 w11)) (eT 11 slices_S1000x16_o0_11_S1000x1 v2 e11)) (dT v1 l12 w12)) (eT 12 slices_S1000x16_o0_12_S1000x1 v2 e12) := rfl

/-- Segments 13 and 14 and segment 15's product sum (segment 13's difference and cast weight slab made by side pieces). -/
theorem pay18_eq (v1 : FVec F S1000x64 .f32) (v2 : Vec F S1000x16 .f32) (a : FVec F S1000x128 .f32)
    (l13 : Vec F S1000x1x64 .f32) (w13 : Vec F S1x64x128 .f32) (e13 : Vec F S1x128 .f32)
    (l14 : Vec F S1000x1x64 .f32) (w14 : Vec F S1x64x128 .f32) (e14 : Vec F S1x128 .f32)
    (l15 : Vec F S1000x1x64 .f32) (w15 : Vec F S1x64x128 .f32) :
    k1_pay18 v1 v2 a (k1_pay16 v1 l13) (k1_pay17 w13) e13 l14 w14 e14 l15 w15
      = addf (addf (addf (addf (addf a (dT v1 l13 w13)) (eT 13 slices_S1000x16_o0_13_S1000x1 v2 e13)) (dT v1 l14 w14)) (eT 14 slices_S1000x16_o0_14_S1000x1 v2 e14))
          (dT v1 l15 w15) := rfl

end Cert.KernelIdeal.Val

end
-- ==== Proof.K1Acc.lean ====
/-
  The first dense layer's running sum of the kernel, at an index, as the specification's segments.

  The body adds, from a zero splat, segment 0's product sum, segment 0's squared-distance product, segment 1's product
  sum, … one term at a time, up to segment 15's product sum.  Each term read at (r, c) is a segment of the specification
  for row r (the two update laws and the loaded slabs read at an index); the one-term-at-a-time sum is the sum over the
  first fifteen segments of (product sum + squared-distance product) plus the sixteenth product sum, by associativity
  of + and 0 + a = a alone.
-/
import proofs.«106685_j23562190586026_2_alg».proof.Proof.Gen.KernelIdeal.Frame
import proofs.«106685_j23562190586026_2_alg».proof.Proof.Spec
import proofs.«106685_j23562190586026_2_alg».proof.Proof.K1Shape
import proofs.«106685_j23562190586026_2_alg».proof.Proof.K1AccLaws
import proofs.«106685_j23562190586026_2_alg».proof.Proof.K1AccPieces
import Idealize.ShloMosaic.Lib.ValueIdx
import Idealize.ShloMosaic.Lib.Pipeline.Value
import Idealize.ShloMosaic.Lib.ValueLayout
import Idealize.ShloMosaic.PureOps.Ideal.Laws

noncomputable section
open scoped BigOperators
namespace Cert.KernelIdeal.Val
open Idealize.ShloMosaic Idealize.ShloMosaic.TcCoe Idealize.ShloMosaic.ValueIdx Idealize.SL.Sem Cert.KernelIdeal Cert.KernelIdeal.Gen

/-- Thirty-one terms added one at a time from zero, alternately from two families, are the sum over the first fifteen
    pairs plus the sixteenth first term: only the grouping of + changes. -/
theorem nested16 {M : Type*} [AddCommMonoid M] (d e : Fin 16 → M) :
    (((((((((((((((((((((((((((((((0 : M) + d 0) + e 0) + d 1) + e 1) + d 2) + e 2) + d 3) + e 3) + d 4)
      + e 4) + d 5) + e 5) + d 6) + e 6) + d 7) + e 7) + d 8) + e 8) + d 9) + e 9) + d 10) + e 10) + d 11)
      + e 11) + d 12) + e 12) + d 13) + e 13) + d 14) + e 14) + d 15
      = (∑ k : Fin 15, (d k.castSucc + e k.castSucc)) + d (Fin.last 15) := by
  simp only [Fin.sum_univ_castSucc, Fin.sum_univ_zero, add_assoc]
  rfl

/-- The zero splat the running sum starts from is 0. -/
theorem zero_splat_apply (j : S1000x128.Idx) :
    broadcast S1000x128 (Scalar.ofBits .f32 0x00000000#32 : Ideal .f32) j = 0 := Ideal.ofBits_zero_f32

/-- The running sum after segment 15's product sum, at (r, c): the first fifteen segments whole, and the sixteenth's
    product sum, of the specification for the block's row r. -/
theorem accTerm_apply (x0 : Vec Ideal S1000x64 .f32) (x1 : Vec Ideal S1000x16x64 .f32) (x2 : Vec Ideal S1000x16 .f32)
    (x3 : Vec Ideal S16x64x128 .f32) (x4 : Vec Ideal S16x128 .f32) (r : Fin 1000) (c : Fin 128) :
    accTerm (F := Ideal) x0 x1 x2 x3 x4 (ix2 r c)
      = (∑ k : Fin 15,
            (Cert.Spec.segD (fun p : Fin 64 => x0 (ix2 r p)) (fun (k : Fin 16) (p : Fin 64) => x1 (ix3 r k p))
                (fun (k : Fin 16) (p : Fin 64) (c : Fin 128) => x3 (ix3 k p c)) k.castSucc c
              + Cert.Spec.segE (fun k : Fin 16 => x2 (ix2 r k)) (fun (k : Fin 16) (c : Fin 128) => x4 (ix2 k c)) k.castSucc c))
        + Cert.Spec.segD (fun p : Fin 64 => x0 (ix2 r p)) (fun (k : Fin 16) (p : Fin 64) => x1 (ix3 r k p))
            (fun (k : Fin 16) (p : Fin 64) (c : Fin 128) => x3 (ix3 k p c)) (Fin.last 15) c := by
  unfold accTerm
  rw [pay18_eq, pay15_eq, pay14_eq, pay11_eq, pay8_eq, pay6_eq, pay3_eq]
  simp only [addf_apply]
  rw [zero_splat_apply,
    dT_ld x0 x1 x3 0 inb_S1000x16x64_S1000x1x64_0_0_0 inb_S16x64x128_S1x64x128_0_0_0 0 rfl r c,
    dT_ld x0 x1 x3 1 inb_S1000x16x64_S1000x1x64_0_1_0 inb_S16x64x128_S1x64x128_1_0_0 1 rfl r c,
    dT_ld x0 x1 x3 2 inb_S1000x16x64_S1000x1x64_0_2_0 inb_S16x64x128_S1x64x128_2_0_0 2 rfl r c,
    dT_ld x0 x1 x3 3 inb_S1000x16x64_S1000x1x64_0_3_0 inb_S16x64x128_S1x64x128_3_0_0 3 rfl r c,
    dT_ld x0 x1 x3 4 inb_S1000x16x64_S1000x1x64_0_4_0 inb_S16x64x128_S1x64x128_4_0_0 4 rfl r c,
    dT_ld x0 x1 x3 5 inb_S1000x16x64_S1000x1x64_0_5_0 inb_S16x64x128_S1x64x128_5_0_0 5 rfl r c,
    dT_ld x0 x1 x3 6 inb_S1000x16x64_S1000x1x64_0_6_0 inb_S16x64x128_S1x64x128_6_0_0 6 rfl r c,
    dT_ld x0 x1 x3 7 inb_S1000x16x64_S1000x1x64_0_7_0 inb_S16x64x128_S1x64x128_7_0_0 7 rfl r c,
    dT_ld x0 x1 x3 8 inb_S1000x16x64_S1000x1x64_0_8_0 inb_S16x64x128_S1x64x128_8_0_0 8 rfl r c,
    dT_ld x0 x1 x3 9 inb_S1000x16x64_S1000x1x64_0_9_0 inb_S16x64x128_S1x64x128_9_0_0 9 rfl r c,
    dT_ld x0 x1 x3 10 inb_S1000x16x64_S1000x1x64_0_10_0 inb_S16x64x128_S1x64x128_10_0_0 10 rfl r c,
    dT_ld x0 x1 x3 11 inb_S1000x16x64_S1000x1x64_0_11_0 inb_S16x64x128_S1x64x128_11_0_0 11 rfl r c,
    dT_ld x0 x1 x3 12 inb_S1000x16x64_S1000x1x64_0_12_0 inb_S16x64x128_S1x64x128_12_0_0 12 rfl r c,
    dT_ld x0 x1 x3 13 inb_S1000x16x64_S1000x1x64_0_13_0 inb_S16x64x128_S1x64x128_13_0_0 13 rfl r c,
    dT_ld x0 x1 x3 14 inb_S1000x16x64_S1000x1x64_0_14_0 inb_S16x64x128_S1x64x128_14_0_0 14 rfl r c,
    dT_ld x0 x1 x3 15 inb_S1000x16x64_S1000x1x64_0_15_0 inb_S16x64x128_S1x64x128_15_0_0 15 rfl r c,
    eT_ld x2 x4 0 slices_S1000x16_o0_0_S1000x1 inb_S16x128_S1x128_0_0 0 rfl r c,
    eT_ld x2 x4 1 slices_S1000x16_o0_1_S1000x1 inb_S16x128_S1x128_1_0 1 rfl r c,
    eT_ld x2 x4 2 slices_S1000x16_o0_2_S1000x1 inb_S16x128_S1x128_2_0 2 rfl r c,
    eT_ld x2 x4 3 slices_S1000x16_o0_3_S1000x1 inb_S16x128_S1x128_3_0 3 rfl r c,
    eT_ld x2 x4 4 slices_S1000x16_o0_4_S1000x1 inb_S16x128_S1x128_4_0 4 rfl r c,
    eT_ld x2 x4 5 slices_S1000x16_o0_5_S1000x1 inb_S16x128_S1x128_5_0 5 rfl r c,
    eT_ld x2 x4 6 slices_S1000x16_o0_6_S1000x1 inb_S16x128_S1x128_6_0 6 rfl r c,
    eT_ld x2 x4 7 slices_S1000x16_o0_7_S1000x1 inb_S16x128_S1x128_7_0 7 rfl r c,
    eT_ld x2 x4 8 slices_S1000x16_o0_8_S1000x1 inb_S16x128_S1x128_8_0 8 rfl r c,
    eT_ld x2 x4 9 slices_S1000x16_o0_9_S1000x1 inb_S16x128_S1x128_9_0 9 rfl r c,
    eT_ld x2 x4 10 slices_S1000x16_o0_10_S1000x1 inb_S16x128_S1x128_10_0 10 rfl r c,
    eT_ld x2 x4 11 slices_S1000x16_o0_11_S1000x1 inb_S16x128_S1x128_11_0 11 rfl r c,
    eT_ld x2 x4 12 slices_S1000x16_o0_12_S1000x1 inb_S16x128_S1x128_12_0 12 rfl r c,
    eT_ld x2 x4 13 slices_S1000x16_o0_13_S1000x1 inb_S16x128_S1x128_13_0 13 rfl r c,
    eT_ld x2 x4 14 slices_S1000x16_o0_14_S1000x1 inb_S16x128_S1x128_14_0 14 rfl r c]
  exact nested16
    (fun k => Cert.Spec.segD (fun p : Fin 64 => x0 (ix2 r p)) (fun (k : Fin 16) (p : Fin 64) => x1 (ix3 r k p))
      (fun (k : Fin 16) (p : Fin 64) (c : Fin 128) => x3 (ix3 k p c)) k c)
    (fun k => Cert.Spec.segE (fun k : Fin 16 => x2 (ix2 r k)) (fun (k : Fin 16) (c : Fin 128) => x4 (ix2 k c)) k c)

end Cert.KernelIdeal.Val

end
-- ==== Proof.K1TailLayout.lean ====
/-
  The tail's changes of layout and its two reductions, read at one entry.

  A row of 64 logits is read as 4 heads × 16 neighbours: position (h, k) of the [a, 4, 16] array is position
  16 h + k of the [a, 64] array, and back, position q is (q / 16, q % 16).  A per-head value [a, 4], given a unit
  third axis and laid over the 16 neighbours, reads at (r, h, k) its entry (r, h).  Over the last axis of an
  [a, 4, 16] array, the maximum from −∞ is the largest of the head's 16 entries, and the sum is their sum.
-/
import proofs.«106685_j23562190586026_2_alg».proof.Proof.LibEluDense
import proofs.«106685_j23562190586026_2_alg».proof.Proof.Spec

noncomputable section
open scoped BigOperators
namespace Cert.KernelIdeal.Val
open Idealize.ShloMosaic Idealize.ShloMosaic.ValueIdx

variable {α : Type}

/-! ## [a, 64] and [a, 4, 16] -/

/-- An [a, 64] array read as [a, 4, 16]: entry (r, h, k) is entry (r, 16 h + k). -/
theorem heads_apply {a : ℕ} (x : (⟨2, ![a, 64]⟩ : Shape).Idx → α)
    (h : (⟨2, ![a, 64]⟩ : Shape).ShapeCasts ⟨3, ![a, 4, 16]⟩) (r : Fin a) (hd : Fin 4) (k : Fin 16) :
    shapeCast ⟨3, ![a, 4, 16]⟩ x h (ix3 r hd k) = x (ix2 r (Cert.Spec.flat hd k)) :=
  shapeCast_apply x h _ _ (by
    rw [Shape.rowMajor_val_three, Shape.rowMajor_val_two]
    show r.val * 64 + (16 * hd.val + k.val) = (r.val * 4 + hd.val) * 16 + k.val
    omega)

/-- An [a, 4, 16] array laid flat as [a, 64]: entry (r, q) is entry (r, q / 16, q % 16). -/
theorem flat_apply {a : ℕ} (x : (⟨3, ![a, 4, 16]⟩ : Shape).Idx → α)
    (h : (⟨3, ![a, 4, 16]⟩ : Shape).ShapeCasts ⟨2, ![a, 64]⟩) (r : Fin a) (q : Fin 64) :
    shapeCast ⟨2, ![a, 64]⟩ x h (ix2 r q)
      = x (ix3 r (⟨q.val / 16, by omega⟩ : Fin 4) (⟨q.val % 16, by omega⟩ : Fin 16)) :=
  shapeCast_apply x h _ _ (by
    rw [Shape.rowMajor_val_three, Shape.rowMajor_val_two]
    show (r.val * 4 + q.val / 16) * 16 + q.val % 16 = r.val * 64 + q.val
    omega)

/-! ## A per-head value laid over the neighbours -/

/-- An [a, b] array given a unit third axis reads, at (r, c, u), its entry (r, c). -/
theorem unitLast_apply {a b : ℕ} (x : (⟨2, ![a, b]⟩ : Shape).Idx → α)
    (h : (⟨2, ![a, b]⟩ : Shape).ShapeCasts ⟨3, ![a, b, 1]⟩) (r : Fin a) (c : Fin b) (u : Fin 1) :
    shapeCast ⟨3, ![a, b, 1]⟩ x h (ix3 r c u) = x (ix2 r c) :=
  shapeCast_apply x h _ _ (by
    have hu : u.val = 0 := by omega
    rw [Shape.rowMajor_val_three, Shape.rowMajor_val_two]
    show r.val * b + c.val = (r.val * b + c.val) * 1 + u.val
    omega)

/-- An [a, b, 1] array laid over a third axis of extent c reads, at (p, q, k), its entry (p, q, 0). -/
theorem overLast_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Both steps: a per-head value [a, b] laid over a third axis reads, at (p, q, k), its entry (p, q). -/
theorem perHead_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (overLast_apply _ h2 p q k).trans (unitLast_apply x h1 p q 0)

/-! ## The two reductions over the 16 neighbours -/

/-- The index over (r, h) with neighbour k put on the last axis is (r, h, k). -/
theorem lift_last {a : ℕ} (h : Shape.Reduces ⟨3, ![a, 4, 16]⟩ [2] ⟨2, ![a, 4]⟩) (r : Fin a) (hd : Fin 4) (k : Fin 16) :
    h.lift (ix2 r hd) k = ix3 r hd k := by
  funext c; apply Fin.ext
  match c with
  | ⟨0, _⟩ => rfl
  | ⟨1, _⟩ => rfl
  | ⟨2, _⟩ => rfl

/-- The maximum over the last axis, from −∞: the largest of the head's 16 entries. -/
theorem maxLast_apply {a : ℕ} (src : FVec Ideal ⟨3, ![a, 4, 16]⟩ .f32) (h : Shape.Reduces ⟨3, ![a, 4, 16]⟩ [2] ⟨2, ![a, 4]⟩)
    (hφ : FKind.Formats .f32) (hacc : (0xFF800000#32 : BitVec 32) = FKind.maximumf.neutral .f32 hφ) (r : Fin a) (hd : Fin 4) :
    multiReduction .maximumf [2] ⟨2, ![a, 4]⟩ src 0xFF800000#32 h hφ hacc (ix2 r hd)
      = Cert.Spec.rowMax (fun k : Fin 16 => src (ix3 r hd k)) := by
  refine (Ideal.multiReduction_maximumf_single src 0xFF800000#32 h hφ hacc (ix2 r hd)).trans ?_
  show (Finset.univ : Finset (Fin 16)).fold max (Ideal.ofBits .f32 0xFF800000#32) (src ∘ h.lift (ix2 r hd)) = _
  rw [negInf_f32]
  unfold Cert.Spec.rowMax
  congr 1
  funext k
  exact congrArg src (lift_last h r hd k)

/-- The sum over the last axis: the sum of the head's 16 entries. -/
theorem sumLast_apply {a : ℕ} (src : FVec Ideal ⟨3, ![a, 4, 16]⟩ .f32) (h : Shape.Reduces ⟨3, ![a, 4, 16]⟩ [2] ⟨2, ![a, 4]⟩)
    (hφ : FKind.Formats .f32) (hacc : (0x00000000#32 : BitVec 32) = FKind.add.neutral .f32 hφ) (r : Fin a) (hd : Fin 4) :
    multiReduction .add [2] ⟨2, ![a, 4]⟩ src 0x00000000#32 h hφ hacc (ix2 r hd)
      = ∑ k : Fin 16, src (ix3 r hd k) := by
  refine (Ideal.multiReduction_add_single src 0x00000000#32 h hφ hacc (ix2 r hd)).trans ?_
  show ∑ k : Fin 16, src (h.lift (ix2 r hd) k) = _
  exact Finset.sum_congr rfl fun k _ => congrArg src (lift_last h r hd k)

end Cert.KernelIdeal.Val

end
-- ==== Proof.K1TailLogit.lean ====
/-
  The kernel's three dense layers after the first layer's running sum, read at one entry.

  From the running sum  acc  of a block's rows: the first hidden row is  acc + ds₁₅ · wd₁₅ + b0,  then ELU, a dense
  layer 128 → 128, ELU, a dense layer 128 → 64, and the 64 logits of a row are read as 4 heads × 16 neighbours.  Every
  product is taken into a zero matrix and the changes of float format are the identity, so each layer at an entry is
  `dense` of the previous row.
-/
import proofs.«106685_j23562190586026_2_alg».proof.Proof.Gen.KernelIdeal.Frame
import proofs.«106685_j23562190586026_2_alg».proof.Proof.Spec
import proofs.«106685_j23562190586026_2_alg».proof.Proof.K1TailLayout
import Idealize.ShloMosaic.Lib.ValueIdx
import Idealize.ShloMosaic.Lib.Pipeline.Value

noncomputable section
open scoped BigOperators
namespace Cert.KernelIdeal.Val
open Idealize.ShloMosaic Idealize.ShloMosaic.TcCoe Idealize.ShloMosaic.ValueIdx Idealize.SL.Sem Cert.KernelIdeal Cert.KernelIdeal.Gen

/-! ## One dense layer at an entry -/

/-- Entry (r, c) of  X · W + b  (the product accumulated into zero, the bias laid over the rows; the operands' change
    of format is the identity):  `dense` of row r of X against W and b, at c. -/
theorem dense_apply {m k n : Nat}
    (w : DotDims.WF ⟨2, ![m, k]⟩ ⟨2, ![k, n]⟩ ⟨2, ![m, n]⟩ [1] [0] [0] [1] [] [])
    (X : FVec Ideal ⟨2, ![m, k]⟩ .f32) (W : FVec Ideal ⟨2, ![k, n]⟩ .f32) (b : FVec Ideal ⟨1, ![n]⟩ .f32)
    (hb : FTy.bf16.bits < FTy.f32.bits)
    (h1 : (⟨1, ![n]⟩ : Shape).ShapeCasts ⟨2, ![1, n]⟩) (h2 : (⟨2, ![1, n]⟩ : Shape).Broadcasts ⟨2, ![m, n]⟩)
    (r : Fin m) (c : Fin n) :
    addf (matmul (⟨[1], [0], [0], [1], [], [], w⟩ : DotDims ⟨2, ![m, k]⟩ ⟨2, ![k, n]⟩ ⟨2, ![m, n]⟩) none
          (truncf .bf16 X hb) (truncf .bf16 W hb) (constant (F := Ideal) ⟨2, ![m, n]⟩ .f32 0x00000000#32))
        (broadcastTo ⟨2, ![m, n]⟩ (shapeCast ⟨2, ![1, n]⟩ b h1) h2) (ix2 r c)
      = Cert.Spec.dense (fun j : Fin k => X (ix2 r j)) (fun (j : Fin k) (c : Fin n) => W (ix2 j c)) (fun c : Fin n => b (ix1 c)) c := by
  show matmul _ none (truncf .bf16 X hb) (truncf .bf16 W hb) (constant (F := Ideal) ⟨2, ![m, n]⟩ .f32 0x00000000#32) (ix2 r c)
      + broadcastTo ⟨2, ![m, n]⟩ (shapeCast ⟨2, ![1, n]⟩ b h1) h2 (ix2 r c) = _
  rw [matmul_zero_apply, rowOver_apply]
  rfl

/-! ## The three layers -/

/-- The 64 logits of row r, read as 4 heads × 16 neighbours: entry (r, h, k) is logit 16 h + k of the two later
    layers on the first hidden row  (running sum + last squared-distance product) + bias. -/
theorem pay20_apply (a : FVec Ideal S1000x128 .f32) (v268 : FVec Ideal S1000x1 .f32) (v269 : Vec Ideal S1x128 .f32)
    (l5 : Vec Ideal S128 .f32) (l6 : Vec Ideal S128x128 .f32) (l7 : Vec Ideal S128 .f32) (l8 : Vec Ideal S128x64 .f32)
    (l9 : Vec Ideal S64 .f32) (r : Fin 1000) (hd : Fin 4) (k : Fin 16) :
    k1_pay20 (F := Ideal) a v268 v269 l5 l6 l7 l8 l9 (ix3 r hd k)
      = Cert.Spec.logitOf
          (fun i : Fin 128 => (a (ix2 r i) + v268 (ix2 r (0 : Fin 1)) * v269 (ix2 (0 : Fin 1) i)) + l5 (ix1 i))
          (fun (i : Fin 128) (c : Fin 128) => l6 (ix2 i c)) (fun c : Fin 128 => l7 (ix1 c))
          (fun (i : Fin 128) (q : Fin 64) => l8 (ix2 i q)) (fun q : Fin 64 => l9 (ix1 q)) (Cert.Spec.flat hd k) := by
  unfold k1_pay20
  -- the third layer, at position 16 h + k
  refine (heads_apply _ _ r hd k).trans ?_
  refine (dense_apply _ _ _ _ _ _ _ r (Cert.Spec.flat hd k)).trans ?_
  unfold Cert.Spec.logitOf
  refine congrArg (fun x => Cert.Spec.dense x (fun (i : Fin 128) (q : Fin 64) => l8 (ix2 i q)) (fun q : Fin 64 => l9 (ix1 q))
    (Cert.Spec.flat hd k)) (funext fun j => ?_)
  -- the second layer and its activation, at j
  refine (elu_apply _ (ix2 r j)).trans (congrArg Cert.Spec.elu ?_)
  refine (dense_apply _ _ _ _ _ _ _ r j).trans ?_
  refine congrArg (fun x => Cert.Spec.dense x (fun (i : Fin 128) (c : Fin 128) => l6 (ix2 i c)) (fun c : Fin 128 => l7 (ix1 c)) j)
    (funext fun i => ?_)
  -- the first hidden row and its activation, at i
  refine (elu_apply _ (ix2 r i)).trans (congrArg Cert.Spec.elu ?_)
  refine (addf_apply _ _ _).trans ?_
  refine congrArg₂ (· + ·) ((addf_apply _ _ _).trans (congrArg₂ (· + ·) rfl ((mulf_apply _ _ _).trans
    (congrArg₂ (· * ·) (colOver_apply _ _ r i) (rowOver2_apply _ _ _ _ r i))))) (rowOver_apply _ _ _ r i)

end Cert.KernelIdeal.Val

end
-- ==== Proof.K1Tail.lean ====
/-
  The tail of the second kernel's body at one entry: the softmax over each head's 16 logits.

  With  z  the 64 logits of row r (the three layers on the first hidden row  acc + ds₁₅ · wd₁₅ + b0),  the body takes,
  for each head h, the largest  M  of  z (16 h + k), k < 16,  from −∞, and writes at position q = 16 h + k
      exp (z q − M) / Σ_k' exp (z (16 h + k') − M):
  `smFlat z q`.
-/
import proofs.«106685_j23562190586026_2_alg».proof.Proof.Gen.KernelIdeal.Frame
import proofs.«106685_j23562190586026_2_alg».proof.Proof.Spec
import proofs.«106685_j23562190586026_2_alg».proof.Proof.K1Shape
import proofs.«106685_j23562190586026_2_alg».proof.Proof.K1TailLogit
import Idealize.ShloMosaic.Lib.ValueIdx
import Idealize.ShloMosaic.Lib.Pipeline.Value

noncomputable section
open scoped BigOperators
namespace Cert.KernelIdeal.Val
open Idealize.ShloMosaic Idealize.ShloMosaic.TcCoe Idealize.ShloMosaic.ValueIdx Idealize.SL.Sem Cert.KernelIdeal Cert.KernelIdeal.Gen

/-- The exponential over a vector, read at an index. -/
theorem exp_apply {s : Shape} {φ : FTy} (x : FVec Ideal s φ) (i : s.Idx) : exp x i = Ideal.exp (x i) := rfl

/-- Each head's maximum: entry (r, h) is the largest of the head's 16 logits, from −∞. -/
theorem pay21_apply (a : FVec Ideal S1000x128 .f32) (v268 : FVec Ideal S1000x1 .f32) (v269 : Vec Ideal S1x128 .f32)
    (l5 : Vec Ideal S128 .f32) (l6 : Vec Ideal S128x128 .f32) (l7 : Vec Ideal S128 .f32) (l8 : Vec Ideal S128x64 .f32)
    (l9 : Vec Ideal S64 .f32) (r : Fin 1000) (hd : Fin 4) :
    k1_pay21 (F := Ideal) a v268 v269 l5 l6 l7 l8 l9 (ix2 r hd)
      = Cert.Spec.rowMax (fun k : Fin 16 => k1_pay20 (F := Ideal) a v268 v269 l5 l6 l7 l8 l9 (ix3 r hd k)) := by
  unfold k1_pay21
  exact maxLast_apply _ _ _ _ r hd

/-- The normalisation, for any logits `z` [1000, 4, 16] and any per-head shift `M` [1000, 4]: position q = 16 h + k of
    row r is  exp (z (r, h, k) − M (r, h)) / Σ_k' exp (z (r, h, k') − M (r, h)). -/
theorem pay1_apply (z : FVec Ideal S1000x4x16 .f32) (M : FVec Ideal S1000x4 .f32) (r : Fin 1000) (q : Fin 64) :
    k1_pay1 (F := Ideal) z M (ix2 r q)
      = Ideal.div
          (Ideal.exp (z (ix3 r (⟨q.val / 16, by omega⟩ : Fin 4) (⟨q.val % 16, by omega⟩ : Fin 16))
            - M (ix2 r (⟨q.val / 16, by omega⟩ : Fin 4))))
          (∑ k' : Fin 16, Ideal.exp (z (ix3 r (⟨q.val / 16, by omega⟩ : Fin 4) k') - M (ix2 r (⟨q.val / 16, by omega⟩ : Fin 4)))) := by
  unfold k1_pay1
  refine (flat_apply _ _ r q).trans ?_
  refine (divf_apply _ _ _).trans ?_
  refine congrArg₂ Ideal.div ?_ ?_
  · exact (exp_apply _ _).trans (congrArg Ideal.exp ((subf_apply _ _ _).trans
      (congrArg₂ (· - ·) rfl (perHead_apply _ _ _ r _ _))))
  · refine (perHead_apply _ _ _ r _ _).trans ?_
    refine (sumLast_apply _ _ _ _ r _).trans ?_
    exact Finset.sum_congr rfl fun k' _ => (exp_apply _ _).trans (congrArg Ideal.exp ((subf_apply _ _ _).trans
      (congrArg₂ (· - ·) rfl (perHead_apply _ _ _ r _ k'))))

/-- The tail at entry (r, q): the head-by-head softmax of the logits of the first hidden row
    (running sum + last squared-distance product) + bias. -/
theorem tail_apply (a : FVec Ideal S1000x128 .f32) (v268 : FVec Ideal S1000x1 .f32) (v269 : Vec Ideal S1x128 .f32)
    (l5 : Vec Ideal S128 .f32) (l6 : Vec Ideal S128x128 .f32) (l7 : Vec Ideal S128 .f32) (l8 : Vec Ideal S128x64 .f32)
    (l9 : Vec Ideal S64 .f32) (r : Fin 1000) (q : Fin 64) :
    k1_pay1 (F := Ideal) (k1_pay20 a v268 v269 l5 l6 l7 l8 l9) (k1_pay21 a v268 v269 l5 l6 l7 l8 l9) (ix2 r q)
      = Cert.Spec.smFlat (Cert.Spec.logitOf
          (fun i : Fin 128 => (a (ix2 r i) + v268 (ix2 r (0 : Fin 1)) * v269 (ix2 (0 : Fin 1) i)) + l5 (ix1 i))
          (fun (i : Fin 128) (c : Fin 128) => l6 (ix2 i c)) (fun c : Fin 128 => l7 (ix1 c))
          (fun (i : Fin 128) (q : Fin 64) => l8 (ix2 i q)) (fun q : Fin 64 => l9 (ix1 q))) q := by
  refine (pay1_apply _ _ r q).trans ?_
  have hz : ∀ k : Fin 16, k1_pay20 (F := Ideal) a v268 v269 l5 l6 l7 l8 l9 (ix3 r (⟨q.val / 16, by omega⟩ : Fin 4) k)
      = Cert.Spec.logitOf
          (fun i : Fin 128 => (a (ix2 r i) + v268 (ix2 r (0 : Fin 1)) * v269 (ix2 (0 : Fin 1) i)) + l5 (ix1 i))
          (fun (i : Fin 128) (c : Fin 128) => l6 (ix2 i c)) (fun c : Fin 128 => l7 (ix1 c))
          (fun (i : Fin 128) (q : Fin 64) => l8 (ix2 i q)) (fun q : Fin 64 => l9 (ix1 q))
          (Cert.Spec.flat (⟨q.val / 16, by omega⟩ : Fin 4) k) :=
    fun k => pay20_apply a v268 v269 l5 l6 l7 l8 l9 r _ k
  have hm := (pay21_apply a v268 v269 l5 l6 l7 l8 l9 r (⟨q.val / 16, by omega⟩ : Fin 4)).trans
    (congrArg Cert.Spec.rowMax (funext hz))
  rw [hm]
  simp only [hz]
  rfl

end Cert.KernelIdeal.Val

end
-- ==== Proof.K1Pay.lean ====
/-
  The second kernel's body result at one entry, given the first layer's running sum at an entry.

  The body's one store writes the whole block, so the block after the body is its payload.  The payload is the tail
  (last squared-distance product, bias, the two later layers, the softmax) of the running sum; the running sum at
  (r, c) is, by hypothesis, segments 0 … 14 in full and segment 15's product sum; the tail adds segment 15's
  squared-distance product — column 15 of the squared distances against row 15 of their weights — and the bias.
  Putting the sixteenth segment into the sum (`Fin.sum_univ_castSucc`) reorders + only.
-/
import proofs.«106685_j23562190586026_2_alg».proof.Proof.Gen.KernelIdeal.Frame
import proofs.«106685_j23562190586026_2_alg».proof.Proof.Spec
import proofs.«106685_j23562190586026_2_alg».proof.Proof.K1Shape
import proofs.«106685_j23562190586026_2_alg».proof.Proof.K1Tail
import Idealize.ShloMosaic.Lib.ValueIdx
import Idealize.ShloMosaic.Lib.Pipeline.Value

noncomputable section
open scoped BigOperators
namespace Cert.KernelIdeal.Val
open Idealize.ShloMosaic Idealize.ShloMosaic.TcCoe Idealize.ShloMosaic.ValueIdx Idealize.SL.Sem Cert.KernelIdeal Cert.KernelIdeal.Gen

/-- All-zero offsets at rank 2 and rank 1. -/
theorem zeroOff2 : (![0, 0] : Fin 2 → Nat) = fun _ => 0 := funext fun a => by fin_cases a <;> rfl
theorem zeroOff1 : (![0] : Fin 1 → Nat) = fun _ => 0 := funext fun a => by fin_cases a; rfl

/-- Column 15 of the block of squared distances, at row r. -/
theorem pay19_apply (x2 : Vec Ideal S1000x16 .f32) (r : Fin 1000) :
    k1_pay19 (F := Ideal) x2 (ix2 r (0 : Fin 1)) = x2 (ix2 r (15 : Fin 16)) := by
  unfold k1_pay19
  exact lastCol_apply x2 _ r

/-- Row 15 of the squared distances' weights, loaded as one row, at column i. -/
theorem ld_row15_apply (x4 : Vec Ideal S16x128 .f32) (i : Fin 128) :
    View.ld x4 r1_49 (ix2 (0 : Fin 1) i) = x4 (ix2 (15 : Fin 16) i) := by
  refine congrArg x4 (funext fun a => Fin.ext ?_)
  match a with
  | ⟨0, _⟩ => rfl
  | ⟨1, _⟩ => show 0 + 1 * i.val = i.val; omega

theorem out1_10_apply_of_acc (hacc : ∀ (x0 : Vec Ideal S1000x64 .f32) (x1 : Vec Ideal S1000x16x64 .f32) (x2 : Vec Ideal S1000x16 .f32)
        (x3 : Vec Ideal S16x64x128 .f32) (x4 : Vec Ideal S16x128 .f32) (r : Fin 1000) (c : Fin 128),
      accTerm (F := Ideal) x0 x1 x2 x3 x4 (ix2 r c)
        = (∑ k : Fin 15,
              (Cert.Spec.segD (fun p : Fin 64 => x0 (ix2 r p)) (fun (k : Fin 16) (p : Fin 64) => x1 (ix3 r k p))
                  (fun (k : Fin 16) (p : Fin 64) (c : Fin 128) => x3 (ix3 k p c)) k.castSucc c
                + Cert.Spec.segE (fun k : Fin 16 => x2 (ix2 r k)) (fun (k : Fin 16) (c : Fin 128) => x4 (ix2 k c)) k.castSucc c))
          + Cert.Spec.segD (fun p : Fin 64 => x0 (ix2 r p)) (fun (k : Fin 16) (p : Fin 64) => x1 (ix3 r k p))
              (fun (k : Fin 16) (p : Fin 64) (c : Fin 128) => x3 (ix3 k p c)) (Fin.last 15) c)
    (x0 : Vec Ideal S1000x64 .f32) (x1 : Vec Ideal S1000x16x64 .f32) (x2 : Vec Ideal S1000x16 .f32)
    (x3 : Vec Ideal S16x64x128 .f32) (x4 : Vec Ideal S16x128 .f32) (x5 : Vec Ideal S128 .f32) (x6 : Vec Ideal S128x128 .f32)
    (x7 : Vec Ideal S128 .f32) (x8 : Vec Ideal S128x64 .f32) (x9 : Vec Ideal S64 .f32) (r : Fin 1000) (q : Fin 64) :
    Gen.out1_10 (F := Ideal) x0 x1 x2 x3 x4 x5 x6 x7 x8 x9 (ix2 r q)
      = Cert.Spec.outRow (fun p : Fin 64 => x0 (ix2 r p)) (fun (k : Fin 16) (p : Fin 64) => x1 (ix3 r k p)) (fun k : Fin 16 => x2 (ix2 r k))
          (fun (k : Fin 16) (p : Fin 64) (c : Fin 128) => x3 (ix3 k p c)) (fun (k : Fin 16) (c : Fin 128) => x4 (ix2 k c)) (fun c : Fin 128 => x5 (ix1 c))
          (fun (i : Fin 128) (c : Fin 128) => x6 (ix2 i c)) (fun c : Fin 128 => x7 (ix1 c))
          (fun (i : Fin 128) (q : Fin 64) => x8 (ix2 i q)) (fun q : Fin 64 => x9 (ix1 q)) q := by
  -- one store of the whole block: the block is the payload; the whole-array loads read the arrays
  rw [out1_10_eq, View.canon_unit_zero zeroOff2]
  simp only [View.ld_unit_zero (S := S128) zeroOff1, View.ld_unit_zero (S := S128x128) zeroOff2,
    View.ld_unit_zero (S := S128x64) zeroOff2, View.ld_unit_zero (S := S64) zeroOff1,
    View.ld_unit_zero (S := S1000x16) zeroOff2]
  refine (tail_apply _ _ _ _ _ _ _ _ r q).trans ?_
  rw [Cert.Spec.outRow_eq]
  -- the two first hidden rows agree entry by entry
  refine congrArg (fun A => Cert.Spec.smFlat (Cert.Spec.logitOf A (fun (i : Fin 128) (c : Fin 128) => x6 (ix2 i c))
    (fun c : Fin 128 => x7 (ix1 c)) (fun (i : Fin 128) (q : Fin 64) => x8 (ix2 i q)) (fun q : Fin 64 => x9 (ix1 q))) q)
    (funext fun i => ?_)
  rw [hacc, pay19_apply, ld_row15_apply, Cert.Spec.hid0_eq]
  refine congrArg (· + x5 (ix1 i)) ?_
  -- segments 0 … 14, segment 15's product sum, then its squared-distance product: the sum of all 16 segments
  rw [Fin.sum_univ_castSucc (n := 15)]
  exact add_assoc _ _ _

end Cert.KernelIdeal.Val

end
-- ==== Proof.RStages.lean ====
/-
  The reference, stage by stage, as functions of whole arrays on the extended reals.

  xpR   : x · W_pre, the bias row added, then elu  (select (y > 0) y (1 · expm1 (select (y > 0) 0 y))).
  gmR   : the rows of xp at max(nidx, 0) — negative indices wrapped by the row count, an out-of-range row the
          quiet NaN — and then zero wherever nidx < 0.
  hid0R : for each of the 16 neighbours the difference row xp − g k with the squared distance appended, the 16
          segments of 65 laid side by side as one row of 1040, times W0, the bias added, then elu.
  hid1R : times W1, the bias added, then elu.
  logitR: times W2, the bias added.
  smR   : the row of 64 read as 4 groups of 16; each group shifted by its maximum, exponentiated and divided by
          the sum of its exponentials.
  refOut: their composition.
-/
import proofs.«106685_j23562190586026_2_alg».proof.ReferenceIdeal
import proofs.«106685_j23562190586026_2_alg».proof.Proof.Gen.ReferenceIdeal
import proofs.«106685_j23562190586026_2_alg».proof.Proof.Spec
import Idealize.ShloMosaic.Lib.ValueIdx

noncomputable section
open scoped BigOperators
namespace Cert.ReferenceIdeal.RefValue
open Idealize.ShloMosaic Idealize.ShloMosaic.ValueIdx Idealize.SL.Sem Cert.ReferenceIdeal Cert.ReferenceIdeal.Gen

/-- main_v0 … main_v4: the dot_general of x and W_pre, the bias row broadcast and added, jax's elu. -/
def xpR (x : FVec Ideal S100000x64 .f32) (wpre : FVec Ideal S64x64 .f32) (bpre : FVec Ideal S64 .f32) : FVec Ideal S100000x64 .f32 :=
  select (cmpf .ogt (addf (Host.dotGeneral (F := Ideal) dot_S100000x64_S64x64_S100000x64_1_0_0_1_n_n none x wpre) (broadcastInDim S100000x64 ![0, 1] bcast_S1x64_S100000x64_0_1 (broadcastInDim S1x64 ![1] bcast_S64_S1x64_1 bpre))) (broadcastInDim S100000x64 ![] bcast_S_S100000x64 (constant (F := Ideal) S_ .f32 0x00000000#32))) (addf (Host.dotGeneral (F := Ideal) dot_S100000x64_S64x64_S100000x64_1_0_0_1_n_n none x wpre) (broadcastInDim S100000x64 ![0, 1] bcast_S1x64_S100000x64_0_1 (broadcastInDim S1x64 ![1] bcast_S64_S1x64_1 bpre))) (mulf (broadcastInDim S100000x64 ![] bcast_S_S100000x64 (constant (F := Ideal) S_ .f32 0x3F800000#32)) (Host.expm1 (F := Ideal) (select (cmpf .ogt (addf (Host.dotGeneral (F := Ideal) dot_S100000x64_S64x64_S100000x64_1_0_0_1_n_n none x wpre) (broadcastInDim S100000x64 ![0, 1] bcast_S1x64_S100000x64_0_1 (broadcastInDim S1x64 ![1] bcast_S64_S1x64_1 bpre))) (broadcastInDim S100000x64 ![] bcast_S_S100000x64 (constant (F := Ideal) S_ .f32 0x00000000#32))) (broadcastInDim S100000x64 ![] bcast_S_S100000x64 (id (constant (F := Ideal) S_ .f32 0x00000000#32))) (addf (Host.dotGeneral (F := Ideal) dot_S100000x64_S64x64_S100000x64_1_0_0_1_n_n none x wpre) (broadcastInDim S100000x64 ![0, 1] bcast_S1x64_S100000x64_0_1 (broadcastInDim S1x64 ![1] bcast_S64_S1x64_1 bpre))))))

/-- main_c … main_v11: the maximum of nidx and 0, jnp.take of xp's rows at it (all of @_take), the mask nidx ≥ 0, the select against 0 (@_where_2). -/
def gmR (xp : FVec Ideal S100000x64 .f32) (nidx : IVec S100000x16 32) : FVec Ideal S100000x16x64 .f32 :=
  select (broadcastInDim S100000x16x64 ![0, 1, 2] bcast_S100000x16x1_S100000x16x64_0_1_2 (cmpi .sge (broadcastInDim S100000x16x1 ![0, 1] bcast_S100000x16_S100000x16x1_0_1 nidx) (broadcastInDim S100000x16x1 ![] bcast_S_S100000x16x1 (constantI S_ 32 0#32)))) (select (broadcastInDim S100000x16x64 ![0, 1] bcast_S100000x16_S100000x16x64_0_1 (Host.reduce IntOp.andi (andi (cmpi .sge (broadcastInDim S100000x16x1 ![0, 1] bcast_S100000x16_S100000x16x1_0_1 (select (cmpi .slt (maxsi nidx (broadcastInDim S100000x16 ![] bcast_S_S100000x16 (constantI S_ 32 0#32))) (broadcastInDim S100000x16 ![] bcast_S_S100000x16 (constantI S_ 32 0#32))) (addi (maxsi nidx (broadcastInDim S100000x16 ![] bcast_S_S100000x16 (constantI S_ 32 0#32))) (broadcastInDim S100000x16 ![] bcast_S_S100000x16 (constantI S_ 32 100000#32))) (maxsi nidx (broadcastInDim S100000x16 ![] bcast_S_S100000x16 (constantI S_ 32 0#32))))) (broadcastInDim S100000x16x1 ![] bcast_S_S100000x16x1 (constantI S_ 32 0#32))) (cmpi .sle (broadcastInDim S100000x16x1 ![0, 1] bcast_S100000x16_S100000x16x1_0_1 (select (cmpi .slt (maxsi nidx (broadcastInDim S100000x16 ![] bcast_S_S100000x16 (constantI S_ 32 0#32))) (broadcastInDim S100000x16 ![] bcast_S_S100000x16 (constantI S_ 32 0#32))) (addi (maxsi nidx (broadcastInDim S100000x16 ![] bcast_S_S100000x16 (constantI S_ 32 0#32))) (broadcastInDim S100000x16 ![] bcast_S_S100000x16 (constantI S_ 32 100000#32))) (maxsi nidx (broadcastInDim S100000x16 ![] bcast_S_S100000x16 (constantI S_ 32 0#32))))) (broadcastInDim S100000x16x1 ![0, 1, 2] bcast_S1x1x1_S100000x16x1_0_1_2 (broadcastInDim S1x1x1 ![2] bcast_S1_S1x1x1_2 (constantI S1 32 99999#32))))) (constantI S_ 1 1#1) reducesTo_S100000x16x1_S100000x16_d2 h_S_)) (Host.gather gather_S100000x64_S100000x16x1_S100000x16x64_2_0_n_n_0_2_164 xp (broadcastInDim S100000x16x1 ![0, 1] bcast_S100000x16_S100000x16x1_0_1 (select (cmpi .slt (maxsi nidx (broadcastInDim S100000x16 ![] bcast_S_S100000x16 (constantI S_ 32 0#32))) (broadcastInDim S100000x16 ![] bcast_S_S100000x16 (constantI S_ 32 0#32))) (addi (maxsi nidx (broadcastInDim S100000x16 ![] bcast_S_S100000x16 (constantI S_ 32 0#32))) (broadcastInDim S100000x16 ![] bcast_S_S100000x16 (constantI S_ 32 100000#32))) (maxsi nidx (broadcastInDim S100000x16 ![] bcast_S_S100000x16 (constantI S_ 32 0#32)))))) (broadcastInDim S100000x16x64 ![] bcast_S_S100000x16x64 (constant (F := Ideal) S_ .f32 0x7FC00000#32))) (broadcastInDim S100000x16x64 ![] bcast_S_S100000x16x64 (id (constant (F := Ideal) S_ .f32 0x00000000#32)))

/-- main_v12 … main_v22: xp broadcast over the 16 neighbours minus g, distsq appended (concatenate), the reshape to [100000, 1040], the dot_general with W0, the bias, jax's elu (@elu_3) — the elu INCLUDED. -/
def hid0R (xp : FVec Ideal S100000x64 .f32) (g : FVec Ideal S100000x16x64 .f32) (ds : FVec Ideal S100000x16 .f32)
    (w0 : FVec Ideal S1040x128 .f32) (b0 : FVec Ideal S128 .f32) : FVec Ideal S100000x128 .f32 :=
  select (cmpf .ogt (addf (Host.dotGeneral (F := Ideal) dot_S100000x1040_S1040x128_S100000x128_1_0_0_1_n_n none (shapeCast S100000x1040 (concatenate S100000x16x65 2 [⟨S100000x16x64, (subf (broadcastInDim S100000x16x64 ![0, 1, 2] bcast_S100000x1x64_S100000x16x64_0_1_2 (broadcastInDim S100000x1x64 ![0, 2] bcast_S100000x64_S100000x1x64_0_2 xp)) g)⟩, ⟨S100000x16x1, (broadcastInDim S100000x16x1 ![0, 1] bcast_S100000x16_S100000x16x1_0_1 ds)⟩] concatenates_S100000x16x64_S100000x16x1_S100000x16x65_d2) shapeCasts_S100000x16x65_S100000x1040) w0) (broadcastInDim S100000x128 ![0, 1] bcast_S1x128_S100000x128_0_1 (broadcastInDim S1x128 ![1] bcast_S128_S1x128_1 b0))) (broadcastInDim S100000x128 ![] bcast_S_S100000x128 (constant (F := Ideal) S_ .f32 0x00000000#32))) (addf (Host.dotGeneral (F := Ideal) dot_S100000x1040_S1040x128_S100000x128_1_0_0_1_n_n none (shapeCast S100000x1040 (concatenate S100000x16x65 2 [⟨S100000x16x64, (subf (broadcastInDim S100000x16x64 ![0, 1, 2] bcast_S100000x1x64_S100000x16x64_0_1_2 (broadcastInDim S100000x1x64 ![0, 2] bcast_S100000x64_S100000x1x64_0_2 xp)) g)⟩, ⟨S100000x16x1, (broadcastInDim S100000x16x1 ![0, 1] bcast_S100000x16_S100000x16x1_0_1 ds)⟩] concatenates_S100000x16x64_S100000x16x1_S100000x16x65_d2) shapeCasts_S100000x16x65_S100000x1040) w0) (broadcastInDim S100000x128 ![0, 1] bcast_S1x128_S100000x128_0_1 (broadcastInDim S1x128 ![1] bcast_S128_S1x128_1 b0))) (mulf (broadcastInDim S100000x128 ![] bcast_S_S100000x128 (constant (F := Ideal) S_ .f32 0x3F800000#32)) (Host.expm1 (F := Ideal) (select (cmpf .ogt (addf (Host.dotGeneral (F := Ideal) dot_S100000x1040_S1040x128_S100000x128_1_0_0_1_n_n none (shapeCast S100000x1040 (concatenate S100000x16x65 2 [⟨S100000x16x64, (subf (broadcastInDim S100000x16x64 ![0, 1, 2] bcast_S100000x1x64_S100000x16x64_0_1_2 (broadcastInDim S100000x1x64 ![0, 2] bcast_S100000x64_S100000x1x64_0_2 xp)) g)⟩, ⟨S100000x16x1, (broadcastInDim S100000x16x1 ![0, 1] bcast_S100000x16_S100000x16x1_0_1 ds)⟩] concatenates_S100000x16x64_S100000x16x1_S100000x16x65_d2) shapeCasts_S100000x16x65_S100000x1040) w0) (broadcastInDim S100000x128 ![0, 1] bcast_S1x128_S100000x128_0_1 (broadcastInDim S1x128 ![1] bcast_S128_S1x128_1 b0))) (broadcastInDim S100000x128 ![] bcast_S_S100000x128 (constant (F := Ideal) S_ .f32 0x00000000#32))) (broadcastInDim S100000x128 ![] bcast_S_S100000x128 (id (constant (F := Ideal) S_ .f32 0x00000000#32))) (addf (Host.dotGeneral (F := Ideal) dot_S100000x1040_S1040x128_S100000x128_1_0_0_1_n_n none (shapeCast S100000x1040 (concatenate S100000x16x65 2 [⟨S100000x16x64, (subf (broadcastInDim S100000x16x64 ![0, 1, 2] bcast_S100000x1x64_S100000x16x64_0_1_2 (broadcastInDim S100000x1x64 ![0, 2] bcast_S100000x64_S100000x1x64_0_2 xp)) g)⟩, ⟨S100000x16x1, (broadcastInDim S100000x16x1 ![0, 1] bcast_S100000x16_S100000x16x1_0_1 ds)⟩] concatenates_S100000x16x64_S100000x16x1_S100000x16x65_d2) shapeCasts_S100000x16x65_S100000x1040) w0) (broadcastInDim S100000x128 ![0, 1] bcast_S1x128_S100000x128_0_1 (broadcastInDim S1x128 ![1] bcast_S128_S1x128_1 b0))))))

/-- main_v23 … main_v27: the dot_general with W1, the bias, jax's elu — the elu INCLUDED. -/
def hid1R (h : FVec Ideal S100000x128 .f32) (w1 : FVec Ideal S128x128 .f32) (b1 : FVec Ideal S128 .f32) : FVec Ideal S100000x128 .f32 :=
  select (cmpf .ogt (addf (Host.dotGeneral (F := Ideal) dot_S100000x128_S128x128_S100000x128_1_0_0_1_n_n none h w1) (broadcastInDim S100000x128 ![0, 1] bcast_S1x128_S100000x128_0_1 (broadcastInDim S1x128 ![1] bcast_S128_S1x128_1 b1))) (broadcastInDim S100000x128 ![] bcast_S_S100000x128 (constant (F := Ideal) S_ .f32 0x00000000#32))) (addf (Host.dotGeneral (F := Ideal) dot_S100000x128_S128x128_S100000x128_1_0_0_1_n_n none h w1) (broadcastInDim S100000x128 ![0, 1] bcast_S1x128_S100000x128_0_1 (broadcastInDim S1x128 ![1] bcast_S128_S1x128_1 b1))) (mulf (broadcastInDim S100000x128 ![] bcast_S_S100000x128 (constant (F := Ideal) S_ .f32 0x3F800000#32)) (Host.expm1 (F := Ideal) (select (cmpf .ogt (addf (Host.dotGeneral (F := Ideal) dot_S100000x128_S128x128_S100000x128_1_0_0_1_n_n none h w1) (broadcastInDim S100000x128 ![0, 1] bcast_S1x128_S100000x128_0_1 (broadcastInDim S1x128 ![1] bcast_S128_S1x128_1 b1))) (broadcastInDim S100000x128 ![] bcast_S_S100000x128 (constant (F := Ideal) S_ .f32 0x00000000#32))) (broadcastInDim S100000x128 ![] bcast_S_S100000x128 (id (constant (F := Ideal) S_ .f32 0x00000000#32))) (addf (Host.dotGeneral (F := Ideal) dot_S100000x128_S128x128_S100000x128_1_0_0_1_n_n none h w1) (broadcastInDim S100000x128 ![0, 1] bcast_S1x128_S100000x128_0_1 (broadcastInDim S1x128 ![1] bcast_S128_S1x128_1 b1))))))

/-- main_v28 … main_v31: the dot_general with W2 and the bias. -/
def logitR (h : FVec Ideal S100000x128 .f32) (w2 : FVec Ideal S128x64 .f32) (b2 : FVec Ideal S64 .f32) : FVec Ideal S100000x64 .f32 :=
  (addf (Host.dotGeneral (F := Ideal) dot_S100000x128_S128x64_S100000x64_1_0_0_1_n_n none h w2) (broadcastInDim S100000x64 ![0, 1] bcast_S1x64_S100000x64_0_1 (broadcastInDim S1x64 ![1] bcast_S64_S1x64_1 b2)))

/-- main_v32 … main_v43: the reshape to [100000, 4, 16], the max over the last axis (and its maximum with −∞), the shifted exponentials, their sum, the quotient. -/
def smR (z : FVec Ideal S100000x64 .f32) : FVec Ideal S100000x4x16 .f32 :=
  Host.divf (Host.exp (F := Ideal) (subf (shapeCast S100000x4x16 z shapeCasts_S100000x64_S100000x4x16) (broadcastInDim S100000x4x16 ![0, 1, 2] bcast_S100000x4x1_S100000x4x16_0_1_2 (broadcastInDim S100000x4x1 ![0, 1] bcast_S100000x4_S100000x4x1_0_1 (maximumf (broadcastInDim S100000x4 ![] bcast_S_S100000x4 (constant (F := Ideal) S_ .f32 0xFF800000#32)) (Host.reduce FloatOps.maximumf (shapeCast S100000x4x16 z shapeCasts_S100000x64_S100000x4x16) (constant (F := Ideal) S_ .f32 0xFF800000#32) reducesTo_S100000x4x16_S100000x4_d2 h_S_)))))) (broadcastInDim S100000x4x16 ![0, 1, 2] bcast_S100000x4x1_S100000x4x16_0_1_2 (broadcastInDim S100000x4x1 ![0, 1] bcast_S100000x4_S100000x4x1_0_1 (Host.reduceAdd (Host.exp (F := Ideal) (subf (shapeCast S100000x4x16 z shapeCasts_S100000x64_S100000x4x16) (broadcastInDim S100000x4x16 ![0, 1, 2] bcast_S100000x4x1_S100000x4x16_0_1_2 (broadcastInDim S100000x4x1 ![0, 1] bcast_S100000x4_S100000x4x1_0_1 (maximumf (broadcastInDim S100000x4 ![] bcast_S_S100000x4 (constant (F := Ideal) S_ .f32 0xFF800000#32)) (Host.reduce FloatOps.maximumf (shapeCast S100000x4x16 z shapeCasts_S100000x64_S100000x4x16) (constant (F := Ideal) S_ .f32 0xFF800000#32) reducesTo_S100000x4x16_S100000x4_d2 h_S_)))))) (constant (F := Ideal) S_ .f32 0x00000000#32) reducesTo_S100000x4x16_S100000x4_d2 h_S_)))

/-- The reference's result as one function of its eleven arguments. -/
def refOut (x : FVec Ideal S100000x64 .f32) (nidx : IVec S100000x16 32) (ds : FVec Ideal S100000x16 .f32) (wpre : FVec Ideal S64x64 .f32)
    (bpre : FVec Ideal S64 .f32) (w0 : FVec Ideal S1040x128 .f32) (b0 : FVec Ideal S128 .f32) (w1 : FVec Ideal S128x128 .f32)
    (b1 : FVec Ideal S128 .f32) (w2 : FVec Ideal S128x64 .f32) (b2 : FVec Ideal S64 .f32) : FVec Ideal S100000x4x16 .f32 :=
  smR (logitR (hid1R (hid0R (xpR x wpre bpre) (gmR (xpR x wpre bpre) nidx) ds w0 b0) w1 b1) w2 b2)

end Cert.ReferenceIdeal.RefValue

end
-- ==== Proof.GatherMask.lean ====
/-
  The neighbours' feature rows are one function in the two programs.

  Both take the rows of xp at max(nidx, 0) — a negative index wrapped by the row count, an index out of range read as
  the not-a-number word — and put zero wherever nidx is negative, by the same operations in the same order over the same
  shapes.  They differ in one place: the test "nidx ≥ 0" is made on the [rows, 16] array and then given its unit axis and
  repeated over the 64 features, or made after the unit axis is added.  A broadcast only re-reads its operand, so both
  give the bit of "nidx(v, k) ≥ 0" at every (v, k, p).
-/
import proofs.«106685_j23562190586026_2_alg».proof.Proof.KHostDefs
import proofs.«106685_j23562190586026_2_alg».proof.Proof.RStages
import Idealize.ShloMosaic.Lib.ValueIdx

noncomputable section
namespace Cert.KernelIdeal.Val
open Idealize.ShloMosaic Idealize.ShloMosaic.ValueIdx Cert.KernelIdeal

/-- "nidx ≥ 0" compared before the two broadcasts, or between them: the same bit at every index. -/
theorem mask_eq (nidx : IVec S100000x16 32) (h0 : S_.BroadcastsInDim S100000x16 ![]) (h0' : S_.BroadcastsInDim S100000x16x1 ![])
    (h1 : S100000x16.BroadcastsInDim S100000x16x1 ![0, 1]) (h2 : S100000x16x1.BroadcastsInDim S100000x16x64 ![0, 1, 2]) :
    broadcastInDim S100000x16x64 ![0, 1, 2] h2
        (broadcastInDim S100000x16x1 ![0, 1] h1 (cmpi .sge nidx (broadcastInDim S100000x16 ![] h0 (constantI S_ 32 0#32))))
      = broadcastInDim S100000x16x64 ![0, 1, 2] h2
          (cmpi .sge (broadcastInDim S100000x16x1 ![0, 1] h1 nidx) (broadcastInDim S100000x16x1 ![] h0' (constantI S_ 32 0#32))) :=
  funext fun _ => rfl

/-- A select of equal conditions between equal operands. -/
theorem select_congr {s : Shape} {α : Type} {m m' : IVec s 1} {a a' b b' : s.Idx → α} (hm : m = m') (ha : a = a') (hb : b = b') :
    select m a b = select m' a' b' := by rw [hm, ha, hb]

attribute [local irreducible] Host.reduce Host.gather in
theorem gmK_eq_gmR (xp : FVec Ideal Cert.KernelIdeal.S100000x64 .f32) (nidx : IVec Cert.KernelIdeal.S100000x16 32) :
    gmK xp nidx = Cert.ReferenceIdeal.RefValue.gmR xp nidx := by
  unfold gmK Cert.ReferenceIdeal.RefValue.gmR
  exact select_congr (mask_eq nidx _ _ _ _) rfl rfl

end Cert.KernelIdeal.Val

end
-- ==== Proof.KValue.lean ====
/-
  The kernel's result as one function of its arguments.

  Reading the program's segments back from the result buffer: the final reshape of the second region's output; that
  output, block by block, the specification's rows of the arrays the region finds; those arrays — the first region's
  output (the pre-dense layer of `x`), the neighbours' rows gathered from it, the re-laid first-layer weights, and the
  arguments themselves.  So the result is  softmax (three dense layers) , entry (v, h, k), of the arguments.
-/
import proofs.«106685_j23562190586026_2_alg».proof.Proof.KRun
import proofs.«106685_j23562190586026_2_alg».proof.Proof.KHost
import proofs.«106685_j23562190586026_2_alg».proof.Proof.KLayout
import proofs.«106685_j23562190586026_2_alg».proof.Proof.KArr0
import proofs.«106685_j23562190586026_2_alg».proof.Proof.KArr1
import proofs.«106685_j23562190586026_2_alg».proof.Proof.K1Acc
import proofs.«106685_j23562190586026_2_alg».proof.Proof.K1Pay
import proofs.«106685_j23562190586026_2_alg».proof.Proof.GatherMask

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result on core `c`, from the launch memory's argument arrays. -/
def resultOf (c : Dev nD) : S100000x4x16.Idx → EReal :=
  Cert.Spec.outArr3 (Cert.Spec.xpArr (m ((c : Thread nD τ).loc main_arg0) : S100000x64.Idx → EReal) (m ((c : Thread nD τ).loc main_arg3) : S64x64.Idx → EReal) (m ((c : Thread nD τ).loc main_arg4) : S64.Idx → EReal))
    (Cert.ReferenceIdeal.RefValue.gmR (Cert.Spec.xpArr (m ((c : Thread nD τ).loc main_arg0) : S100000x64.Idx → EReal) (m ((c : Thread nD τ).loc main_arg3) : S64x64.Idx → EReal) (m ((c : Thread nD τ).loc main_arg4) : S64.Idx → EReal)) (m ((c : Thread nD τ).loc main_arg1) : S100000x16.Idx → BitVec 32))
    (m ((c : Thread nD τ).loc main_arg2) : S100000x16.Idx → EReal) (Cert.Spec.wfArr (m ((c : Thread nD τ).loc main_arg5) : S1040x128.Idx → EReal)) (Cert.Spec.wdArr (m ((c : Thread nD τ).loc main_arg5) : S1040x128.Idx → EReal))
    (m ((c : Thread nD τ).loc main_arg6) : S128.Idx → EReal) (m ((c : Thread nD τ).loc main_arg7) : S128x128.Idx → EReal) (m ((c : Thread nD τ).loc main_arg8) : S128.Idx → EReal) (m ((c : Thread nD τ).loc main_arg9) : S128x64.Idx → EReal) (m ((c : Thread nD τ).loc main_arg10) : S64.Idx → EReal)

/-- The first region's output when the second is entered: the pre-dense layer of `x`. -/
theorem entry_xp (c : Dev nD) : (V6 m ρ c main_v0 : S100000x64.Idx → EReal) = (Cert.Spec.xpArr (m ((c : Thread nD τ).loc main_arg0) : S100000x64.Idx → EReal) (m ((c : Thread nD τ).loc main_arg3) : S64x64.Idx → EReal) (m ((c : Thread nD τ).loc main_arg4) : S64.Idx → EReal)) :=
  (W6_main_v0 m ρ c).trans ((W1_main_v0 m ρ c).trans (arr0_eq (V0 m ρ) c))

/-- The neighbours' rows when the second region is entered. -/
theorem entry_g (c : Dev nD) :
    (V6 m ρ c main_v7 : S100000x16x64.Idx → EReal) = gmK (Cert.Spec.xpArr (m ((c : Thread nD τ).loc main_arg0) : S100000x64.Idx → EReal) (m ((c : Thread nD τ).loc main_arg3) : S64x64.Idx → EReal) (m ((c : Thread nD τ).loc main_arg4) : S64.Idx → EReal)) (m ((c : Thread nD τ).loc main_arg1) : S100000x16.Idx → BitVec 32) := by
  refine (W6_v7 m ρ c).trans ?_
  rw [(W1_main_v0 m ρ c).trans (arr0_eq (V0 m ρ) c), W1_main_arg1 m ρ c]

theorem entry_wf (c : Dev nD) : (V6 m ρ c main_v9 : S16x64x128.Idx → EReal) = wfK (m ((c : Thread nD τ).loc main_arg5) : S1040x128.Idx → EReal) := by
  refine (W6_v9 m ρ c).trans ?_
  rw [W1_main_arg5 m ρ c]

theorem entry_wd (c : Dev nD) : (V6 m ρ c main_v11 : S16x128.Idx → EReal) = wdK (m ((c : Thread nD τ).loc main_arg5) : S1040x128.Idx → EReal) := by
  refine (W6_v11 m ρ c).trans ?_
  rw [W1_main_arg5 m ρ c]

theorem entry_arg2 (c : Dev nD) : V6 m ρ c main_arg2 = m ((c : Thread nD τ).loc main_arg2) :=
  (W6_main_arg2 m ρ c).trans (W1_main_arg2 m ρ c)
theorem entry_arg6 (c : Dev nD) : V6 m ρ c main_arg6 = m ((c : Thread nD τ).loc main_arg6) :=
  (W6_main_arg6 m ρ c).trans (W1_main_arg6 m ρ c)
theorem entry_arg7 (c : Dev nD) : V6 m ρ c main_arg7 = m ((c : Thread nD τ).loc main_arg7) :=
  (W6_main_arg7 m ρ c).trans (W1_main_arg7 m ρ c)
theorem entry_arg8 (c : Dev nD) : V6 m ρ c main_arg8 = m ((c : Thread nD τ).loc main_arg8) :=
  (W6_main_arg8 m ρ c).trans (W1_main_arg8 m ρ c)
theorem entry_arg9 (c : Dev nD) : V6 m ρ c main_arg9 = m ((c : Thread nD τ).loc main_arg9) :=
  (W6_main_arg9 m ρ c).trans (W1_main_arg9 m ρ c)
theorem entry_arg10 (c : Dev nD) : V6 m ρ c main_arg10 = m ((c : Thread nD τ).loc main_arg10) :=
  (W6_main_arg10 m ρ c).trans (W1_main_arg10 m ρ c)

/-- The result buffer's final contents. -/
theorem W8_result (c : Dev nD) : (W8 m ρ c (Proc.devRef .tc main_v13) : S100000x4x16.Idx → EReal) = resultOf m c := by
  rw [W8_main_v13, W7_main_v12, arr1_eq_of (V6 m ρ) (out1_10_apply_of_acc accTerm_apply) c, entry_xp m ρ c, entry_g m ρ c,
    entry_wf m ρ c, entry_wd m ρ c, entry_arg2 m ρ c, entry_arg6 m ρ c, entry_arg7 m ρ c, entry_arg8 m ρ c, entry_arg9 m ρ c,
    entry_arg10 m ρ c, gmK_eq_gmR, wfK_eq, wdK_eq]
  exact relay_eq _ _ _ _ _ _ _ _ _ _

/-- Every weakly fair execution of the kernel's program terminates without a fault, its result buffer at `resultOf`
    and its arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c => ⟨(h c).1.trans (W8_result m ρ c), (h c).2⟩) (run_result m ρ)

end Cert.KernelIdeal.Val

end
-- ==== Proof.RRun.lean ====
/-
  The reference as a straight line of host operations.

  @main with its calls unfolded is 117 operations in order: x · W_pre, the bias row broadcast and added, elu (a
  comparison with zero twice, the inner select of zero below the threshold, expm1, the product with one, the outer
  select); the clamp of the neighbour indices at zero, the row gather (indices below zero wrapped by the row count,
  the in-range test, the gather, the select against the quiet NaN), the mask of the original indices and the select
  against zero; the difference rows with the squared distance appended, laid flat as rows of 1040; three dense
  layers with elu after the first two; the row of 64 read as 4 groups of 16, each shifted by its maximum,
  exponentiated and divided by its sum. Every operation writes a buffer of its own, so each buffer ends at the
  fold of the operations over the launch contents.
-/
import proofs.«106685_j23562190586026_2_alg».proof.ReferenceIdeal
import proofs.«106685_j23562190586026_2_alg».proof.Proof.Gen.ReferenceIdeal
import Idealize.ShloMosaic.Lib.StableHlo.Run
import Idealize.ShloMosaic.Lib.Pipeline.Regions

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call replaced by its callee's operations at that call's buffers. -/
abbrev ops : List (HloOp τ sig (Elt F)) :=
  [ StableHlo.binary main_arg0 main_arg3 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
    StableHlo.nullary main_call0_cst (constant S_ .f32 0x00000000#32),
    StableHlo.unary main_call0_cst main_call0_v0 (broadcastInDim S100000x64 ![] bcast_S_S100000x64 : (⟨S_, .f32⟩ : BufTy).Contents (Elt F) → (⟨S100000x64, .f32⟩ : BufTy).Contents (Elt F)),
    StableHlo.binary main_v3 main_call0_v0 main_call0_v1 (cmpf .ogt : (⟨S100000x64, .f32⟩ : BufTy).Contents (Elt F) → (⟨S100000x64, .f32⟩ : BufTy).Contents (Elt F) → (⟨S100000x64, .i1⟩ : BufTy).Contents (Elt F)),
    StableHlo.nullary main_call0_cst_0 (constant S_ .f32 0x00000000#32),
    StableHlo.unary main_call0_cst_0 main_call0_v2 (broadcastInDim S100000x64 ![] bcast_S_S100000x64 : (⟨S_, .f32⟩ : BufTy).Contents (Elt F) → (⟨S100000x64, .f32⟩ : BufTy).Contents (Elt F)),
    StableHlo.binary main_v3 main_call0_v2 main_call0_v3 (cmpf .ogt : (⟨S100000x64, .f32⟩ : BufTy).Contents (Elt F) → (⟨S100000x64, .f32⟩ : BufTy).Contents (Elt F) → (⟨S100000x64, .i1⟩ : BufTy).Contents (Elt F)),
    StableHlo.nullary main_call0_cst_1 (constant S_ .f32 0x00000000#32),
    StableHlo.unary main_call0_cst_1 main_call0_call0_v0 (id : (⟨S_, .f32⟩ : BufTy).Contents (Elt F) → (⟨S_, .f32⟩ : BufTy).Contents (Elt F)),
    StableHlo.unary main_call0_call0_v0 main_call0_call0_v1 (broadcastInDim S100000x64 ![] bcast_S_S100000x64 : (⟨S_, .f32⟩ : BufTy).Contents (Elt F) → (⟨S100000x64, .f32⟩ : BufTy).Contents (Elt F)),
    StableHlo.ternary main_call0_v3 main_call0_call0_v1 main_v3 main_call0_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.unary main_call0_v4 main_call0_v5 (Host.expm1 : (⟨S100000x64, .f32⟩ : BufTy).Contents (Elt F) → (⟨S100000x64, .f32⟩ : BufTy).Contents (Elt F)),
    StableHlo.nullary main_call0_cst_2 (constant S_ .f32 0x3F800000#32),
    StableHlo.unary main_call0_cst_2 main_call0_v6 (broadcastInDim S100000x64 ![] bcast_S_S100000x64 : (⟨S_, .f32⟩ : BufTy).Contents (Elt F) → (⟨S100000x64, .f32⟩ : BufTy).Contents (Elt F)),
    StableHlo.binary main_call0_v6 main_call0_v5 main_call0_v7 (mulf : (⟨S100000x64, .f32⟩ : BufTy).Contents (Elt F) → (⟨S100000x64, .f32⟩ : BufTy).Contents (Elt F) → (⟨S100000x64, .f32⟩ : BufTy).Contents (Elt F)),
    StableHlo.ternary main_call0_v1 main_v3 main_call0_v7 main_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.nullary main_c (constantI S_ 32 0#32),
    StableHlo.unary main_c main_v5 (broadcastInDim S100000x16 ![] bcast_S_S100000x16 : (⟨S_, .i32⟩ : BufTy).Contents (Elt F) → (⟨S100000x16, .i32⟩ : BufTy).Contents (Elt F)),
    StableHlo.binary main_arg1 main_v5 main_v6 (maxsi : (⟨S100000x16, .i32⟩ : BufTy).Contents (Elt F) → (⟨S100000x16, .i32⟩ : BufTy).Contents (Elt F) → (⟨S100000x16, .i32⟩ : BufTy).Contents (Elt F)),
    StableHlo.nullary main_call1_c (constantI S_ 32 0#32),
    StableHlo.unary main_call1_c main_call1_v0 (broadcastInDim S100000x16 ![] bcast_S_S100000x16 : (⟨S_, .i32⟩ : BufTy).Contents (Elt F) → (⟨S100000x16, .i32⟩ : BufTy).Contents (Elt F)),
    StableHlo.binary main_v6 main_call1_v0 main_call1_v1 (cmpi .slt : (⟨S100000x16, .i32⟩ : BufTy).Contents (Elt F) → (⟨S100000x16, .i32⟩ : BufTy).Contents (Elt F) → (⟨S100000x16, .i1⟩ : BufTy).Contents (Elt F)),
    StableHlo.nullary main_call1_c_0 (constantI S_ 32 100000#32),
    StableHlo.unary main_call1_c_0 main_call1_v2 (broadcastInDim S100000x16 ![] bcast_S_S100000x16 : (⟨S_, .i32⟩ : BufTy).Contents (Elt F) → (⟨S100000x16, .i32⟩ : BufTy).Contents (Elt F)),
    StableHlo.binary main_v6 main_call1_v2 main_call1_v3 (addi : (⟨S100000x16, .i32⟩ : BufTy).Contents (Elt F) → (⟨S100000x16, .i32⟩ : BufTy).Contents (Elt F) → (⟨S100000x16, .i32⟩ : BufTy).Contents (Elt F)),
    StableHlo.ternary main_call1_v1 main_call1_v3 main_v6 main_call1_v4 (select : (⟨S100000x16, .i1⟩ : BufTy).Contents (Elt F) → (⟨S100000x16, .i32⟩ : BufTy).Contents (Elt F) → (⟨S100000x16, .i32⟩ : BufTy).Contents (Elt F) → (⟨S100000x16, .i32⟩ : BufTy).Contents (Elt F)),
    StableHlo.unary main_call1_v4 main_call1_v5 (broadcastInDim S100000x16x1 ![0, 1] bcast_S100000x16_S100000x16x1_0_1 : (⟨S100000x16, .i32⟩ : BufTy).Contents (Elt F) → (⟨S100000x16x1, .i32⟩ : BufTy).Contents (Elt F)),
    StableHlo.nullary main_call1_c_1 (constantI S1 32 99999#32),
    StableHlo.nullary main_call1_c_2 (constantI S_ 32 0#32),
    StableHlo.unary main_call1_c_2 main_call1_v6 (broadcastInDim S100000x16x1 ![] bcast_S_S100000x16x1 : (⟨S_, .i32⟩ : BufTy).Contents (Elt F) → (⟨S100000x16x1, .i32⟩ : BufTy).Contents (Elt F)),
    StableHlo.binary main_call1_v5 main_call1_v6 main_call1_v7 (cmpi .sge : (⟨S100000x16x1, .i32⟩ : BufTy).Contents (Elt F) → (⟨S100000x16x1, .i32⟩ : BufTy).Contents (Elt F) → (⟨S100000x16x1, .i1⟩ : BufTy).Contents (Elt F)),
    StableHlo.unary main_call1_c_1 main_call1_v8 (broadcastInDim S1x1x1 ![2] bcast_S1_S1x1x1_2 : (⟨S1, .i32⟩ : BufTy).Contents (Elt F) → (⟨S1x1x1, .i32⟩ : BufTy).Contents (Elt F)),
    StableHlo.unary main_call1_v8 main_call1_v9 (broadcastInDim S100000x16x1 ![0, 1, 2] bcast_S1x1x1_S100000x16x1_0_1_2 : (⟨S1x1x1, .i32⟩ : BufTy).Contents (Elt F) → (⟨S100000x16x1, .i32⟩ : BufTy).Contents (Elt F)),
    StableHlo.binary main_call1_v5 main_call1_v9 main_call1_v10 (cmpi .sle : (⟨S100000x16x1, .i32⟩ : BufTy).Contents (Elt F) → (⟨S100000x16x1, .i32⟩ : BufTy).Contents (Elt F) → (⟨S100000x16x1, .i1⟩ : BufTy).Contents (Elt F)),
    StableHlo.binary main_call1_v7 main_call1_v10 main_call1_v11 (andi : (⟨S100000x16x1, .i1⟩ : BufTy).Contents (Elt F) → (⟨S100000x16x1, .i1⟩ : BufTy).Contents (Elt F) → (⟨S100000x16x1, .i1⟩ : BufTy).Contents (Elt F)),
    StableHlo.nullary main_call1_c_3 (constantI S_ 1 1#1),
    StableHlo.binary main_call1_v11 main_call1_c_3 main_call1_v12 ((fun x v => Host.reduce IntOp.andi x v reducesTo_S100000x16x1_S100000x16_d2 h_S_) : (⟨S100000x16x1, .i1⟩ : BufTy).Contents (Elt F) → (⟨S_, .i1⟩ : BufTy).Contents (Elt F) → (⟨S100000x16, .i1⟩ : BufTy).Contents (Elt F)),
    StableHlo.binary main_v4 main_call1_v5 main_call1_v13 ((fun x i => Host.gather gather_S100000x64_S100000x16x1_S100000x16x64_2_0_n_n_0_2_164 x i) : (⟨S100000x64, .f32⟩ : BufTy).Contents (Elt F) → (⟨S100000x16x1, .i32⟩ : BufTy).Contents (Elt F) → (⟨S100000x16x64, .f32⟩ : BufTy).Contents (Elt F)),
    StableHlo.unary main_call1_v12 main_call1_v14 (broadcastInDim S100000x16x64 ![0, 1] bcast_S100000x16_S100000x16x64_0_1 : (⟨S100000x16, .i1⟩ : BufTy).Contents (Elt F) → (⟨S100000x16x64, .i1⟩ : BufTy).Contents (Elt F)),
    StableHlo.nullary main_call1_cst (constant S_ .f32 0x7FC00000#32),
    StableHlo.unary main_call1_cst main_call1_v15 (broadcastInDim S100000x16x64 ![] bcast_S_S100000x16x64 : (⟨S_, .f32⟩ : BufTy).Contents (Elt F) → (⟨S100000x16x64, .f32⟩ : BufTy).Contents (Elt F)),
    StableHlo.ternary main_call1_v14 main_call1_v13 main_call1_v15 main_v7 (select : (⟨S100000x16x64, .i1⟩ : BufTy).Contents (Elt F) → (⟨S100000x16x64, .f32⟩ : BufTy).Contents (Elt F) → (⟨S100000x16x64, .f32⟩ : BufTy).Contents (Elt F) → (⟨S100000x16x64, .f32⟩ : BufTy).Contents (Elt F)),
    StableHlo.unary main_arg1 main_v8 (broadcastInDim S100000x16x1 ![0, 1] bcast_S100000x16_S100000x16x1_0_1 : (⟨S100000x16, .i32⟩ : BufTy).Contents (Elt F) → (⟨S100000x16x1, .i32⟩ : BufTy).Contents (Elt F)),
    StableHlo.nullary main_c_0 (constantI S_ 32 0#32),
    StableHlo.unary main_c_0 main_v9 (broadcastInDim S100000x16x1 ![] bcast_S_S100000x16x1 : (⟨S_, .i32⟩ : BufTy).Contents (Elt F) → (⟨S100000x16x1, .i32⟩ : BufTy).Contents (Elt F)),
    StableHlo.binary main_v8 main_v9 main_v10 (cmpi .sge : (⟨S100000x16x1, .i32⟩ : BufTy).Contents (Elt F) → (⟨S100000x16x1, .i32⟩ : BufTy).Contents (Elt F) → (⟨S100000x16x1, .i1⟩ : BufTy).Contents (Elt F)),
    StableHlo.nullary main_cst (constant S_ .f32 0x00000000#32),
    StableHlo.unary main_cst main_call2_v0 (id : (⟨S_, .f32⟩ : BufTy).Contents (Elt F) → (⟨S_, .f32⟩ : BufTy).Contents (Elt F)),
    StableHlo.unary main_v10 main_call2_v1 (broadcastInDim S100000x16x64 ![0, 1, 2] bcast_S100000x16x1_S100000x16x64_0_1_2 : (⟨S100000x16x1, .i1⟩ : BufTy).Contents (Elt F) → (⟨S100000x16x64, .i1⟩ : BufTy).Contents (Elt F)),
    StableHlo.unary main_call2_v0 main_call2_v2 (broadcastInDim S100000x16x64 ![] bcast_S_S100000x16x64 : (⟨S_, .f32⟩ : BufTy).Contents (Elt F) → (⟨S100000x16x64, .f32⟩ : BufTy).Contents (Elt F)),
    StableHlo.ternary main_call2_v1 main_v7 main_call2_v2 main_v11 (select : (⟨S100000x16x64, .i1⟩ : BufTy).Contents (Elt F) → (⟨S100000x16x64, .f32⟩ : BufTy).Contents (Elt F) → (⟨S100000x16x64, .f32⟩ : BufTy).Contents (Elt F) → (⟨S100000x16x64, .f32⟩ : BufTy).Contents (Elt F)),
    StableHlo.unary main_v4 main_v12 (broadcastInDim S100000x1x64 ![0, 2] bcast_S100000x64_S100000x1x64_0_2 : (⟨S100000x64, .f32⟩ : BufTy).Contents (Elt F) → (⟨S100000x1x64, .f32⟩ : BufTy).Contents (Elt F)),
    StableHlo.unary main_v12 main_v13 (broadcastInDim S100000x16x64 ![0, 1, 2] bcast_S100000x1x64_S100000x16x64_0_1_2 : (⟨S100000x1x64, .f32⟩ : BufTy).Contents (Elt F) → (⟨S100000x16x64, .f32⟩ : BufTy).Contents (Elt F)),
    StableHlo.binary main_v13 main_v11 main_v14 (subf : (⟨S100000x16x64, .f32⟩ : BufTy).Contents (Elt F) → (⟨S100000x16x64, .f32⟩ : BufTy).Contents (Elt F) → (⟨S100000x16x64, .f32⟩ : BufTy).Contents (Elt F)),
    StableHlo.unary main_arg2 main_v15 (broadcastInDim S100000x16x1 ![0, 1] bcast_S100000x16_S100000x16x1_0_1 : (⟨S100000x16, .f32⟩ : BufTy).Contents (Elt F) → (⟨S100000x16x1, .f32⟩ : BufTy).Contents (Elt F)),
    StableHlo.binary main_v14 main_v15 main_v16 ((fun a b => concatenate S100000x16x65 2 [⟨S100000x16x64, a⟩, ⟨S100000x16x1, b⟩] concatenates_S100000x16x64_S100000x16x1_S100000x16x65_d2) : (⟨S100000x16x64, .f32⟩ : BufTy).Contents (Elt F) → (⟨S100000x16x1, .f32⟩ : BufTy).Contents (Elt F) → (⟨S100000x16x65, .f32⟩ : BufTy).Contents (Elt F)),
    StableHlo.reshape main_v16 main_v17 rfl shapeCasts_S100000x16x65_S100000x1040,
    StableHlo.binary main_v17 main_arg5 main_v18 ((fun l r => Host.dotGeneral dot_S100000x1040_S1040x128_S100000x128_1_0_0_1_n_n none l r) : (⟨S100000x1040, .f32⟩ : BufTy).Contents (Elt F) → (⟨S1040x128, .f32⟩ : BufTy).Contents (Elt F) → (⟨S100000x128, .f32⟩ : BufTy).Contents (Elt F)),
    StableHlo.unary main_arg6 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)),
    StableHlo.nullary main_call3_cst (constant S_ .f32 0x00000000#32),
    StableHlo.unary main_call3_cst main_call3_v0 (broadcastInDim S100000x128 ![] bcast_S_S100000x128 : (⟨S_, .f32⟩ : BufTy).Contents (Elt F) → (⟨S100000x128, .f32⟩ : BufTy).Contents (Elt F)),
    StableHlo.binary main_v21 main_call3_v0 main_call3_v1 (cmpf .ogt : (⟨S100000x128, .f32⟩ : BufTy).Contents (Elt F) → (⟨S100000x128, .f32⟩ : BufTy).Contents (Elt F) → (⟨S100000x128, .i1⟩ : BufTy).Contents (Elt F)),
    StableHlo.nullary main_call3_cst_0 (constant S_ .f32 0x00000000#32),
    StableHlo.unary main_call3_cst_0 main_call3_v2 (broadcastInDim S100000x128 ![] bcast_S_S100000x128 : (⟨S_, .f32⟩ : BufTy).Contents (Elt F) → (⟨S100000x128, .f32⟩ : BufTy).Contents (Elt F)),
    StableHlo.binary main_v21 main_call3_v2 main_call3_v3 (cmpf .ogt : (⟨S100000x128, .f32⟩ : BufTy).Contents (Elt F) → (⟨S100000x128, .f32⟩ : BufTy).Contents (Elt F) → (⟨S100000x128, .i1⟩ : BufTy).Contents (Elt F)),
    StableHlo.nullary main_call3_cst_1 (constant S_ .f32 0x00000000#32),
    StableHlo.unary main_call3_cst_1 main_call3_call0_v0 (id : (⟨S_, .f32⟩ : BufTy).Contents (Elt F) → (⟨S_, .f32⟩ : BufTy).Contents (Elt F)),
    StableHlo.unary main_call3_call0_v0 main_call3_call0_v1 (broadcastInDim S100000x128 ![] bcast_S_S100000x128 : (⟨S_, .f32⟩ : BufTy).Contents (Elt F) → (⟨S100000x128, .f32⟩ : BufTy).Contents (Elt F)),
    StableHlo.ternary main_call3_v3 main_call3_call0_v1 main_v21 main_call3_v4 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.unary main_call3_v4 main_call3_v5 (Host.expm1 : (⟨S100000x128, .f32⟩ : BufTy).Contents (Elt F) → (⟨S100000x128, .f32⟩ : BufTy).Contents (Elt F)),
    StableHlo.nullary main_call3_cst_2 (constant S_ .f32 0x3F800000#32),
    StableHlo.unary main_call3_cst_2 main_call3_v6 (broadcastInDim S100000x128 ![] bcast_S_S100000x128 : (⟨S_, .f32⟩ : BufTy).Contents (Elt F) → (⟨S100000x128, .f32⟩ : BufTy).Contents (Elt F)),
    StableHlo.binary main_call3_v6 main_call3_v5 main_call3_v7 (mulf : (⟨S100000x128, .f32⟩ : BufTy).Contents (Elt F) → (⟨S100000x128, .f32⟩ : BufTy).Contents (Elt F) → (⟨S100000x128, .f32⟩ : BufTy).Contents (Elt F)),
    StableHlo.ternary main_call3_v1 main_v21 main_call3_v7 main_v22 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.binary main_v22 main_arg7 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.nullary main_call4_cst (constant S_ .f32 0x00000000#32),
    StableHlo.unary main_call4_cst main_call4_v0 (broadcastInDim S100000x128 ![] bcast_S_S100000x128 : (⟨S_, .f32⟩ : BufTy).Contents (Elt F) → (⟨S100000x128, .f32⟩ : BufTy).Contents (Elt F)),
    StableHlo.binary main_v26 main_call4_v0 main_call4_v1 (cmpf .ogt : (⟨S100000x128, .f32⟩ : BufTy).Contents (Elt F) → (⟨S100000x128, .f32⟩ : BufTy).Contents (Elt F) → (⟨S100000x128, .i1⟩ : BufTy).Contents (Elt F)),
    StableHlo.nullary main_call4_cst_0 (constant S_ .f32 0x00000000#32),
    StableHlo.unary main_call4_cst_0 main_call4_v2 (broadcastInDim S100000x128 ![] bcast_S_S100000x128 : (⟨S_, .f32⟩ : BufTy).Contents (Elt F) → (⟨S100000x128, .f32⟩ : BufTy).Contents (Elt F)),
    StableHlo.binary main_v26 main_call4_v2 main_call4_v3 (cmpf .ogt : (⟨S100000x128, .f32⟩ : BufTy).Contents (Elt F) → (⟨S100000x128, .f32⟩ : BufTy).Contents (Elt F) → (⟨S100000x128, .i1⟩ : BufTy).Contents (Elt F)),
    StableHlo.nullary main_call4_cst_1 (constant S_ .f32 0x00000000#32),
    StableHlo.unary main_call4_cst_1 main_call4_call0_v0 (id : (⟨S_, .f32⟩ : BufTy).Contents (Elt F) → (⟨S_, .f32⟩ : BufTy).Contents (Elt F)),
    StableHlo.unary main_call4_call0_v0 main_call4_call0_v1 (broadcastInDim S100000x128 ![] bcast_S_S100000x128 : (⟨S_, .f32⟩ : BufTy).Contents (Elt F) → (⟨S100000x128, .f32⟩ : BufTy).Contents (Elt F)),
    StableHlo.ternary main_call4_v3 main_call4_call0_v1 main_v26 main_call4_v4 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.unary main_call4_v4 main_call4_v5 (Host.expm1 : (⟨S100000x128, .f32⟩ : BufTy).Contents (Elt F) → (⟨S100000x128, .f32⟩ : BufTy).Contents (Elt F)),
    StableHlo.nullary main_call4_cst_2 (constant S_ .f32 0x3F800000#32),
    StableHlo.unary main_call4_cst_2 main_call4_v6 (broadcastInDim S100000x128 ![] bcast_S_S100000x128 : (⟨S_, .f32⟩ : BufTy).Contents (Elt F) → (⟨S100000x128, .f32⟩ : BufTy).Contents (Elt F)),
    StableHlo.binary main_call4_v6 main_call4_v5 main_call4_v7 (mulf : (⟨S100000x128, .f32⟩ : BufTy).Contents (Elt F) → (⟨S100000x128, .f32⟩ : BufTy).Contents (Elt F) → (⟨S100000x128, .f32⟩ : BufTy).Contents (Elt F)),
    StableHlo.ternary main_call4_v1 main_v26 main_call4_v7 main_v27 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.binary main_v27 main_arg9 main_v28 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v28 main_v30 main_v31 (addf : (⟨S100000x64, .f32⟩ : BufTy).Contents (Elt F) → (⟨S100000x64, .f32⟩ : BufTy).Contents (Elt F) → (⟨S100000x64, .f32⟩ : BufTy).Contents (Elt F)),
    StableHlo.reshape main_v31 main_v32 rfl shapeCasts_S100000x64_S100000x4x16,
    StableHlo.nullary main_cst_1 (constant S_ .f32 0xFF800000#32),
    StableHlo.binary main_v32 main_cst_1 main_v33 ((fun x v => Host.reduce FloatOps.maximumf x v reducesTo_S100000x4x16_S100000x4_d2 h_S_) : (⟨S100000x4x16, .f32⟩ : BufTy).Contents (Elt F) → (⟨S_, .f32⟩ : BufTy).Contents (Elt F) → (⟨S100000x4, .f32⟩ : BufTy).Contents (Elt F)),
    StableHlo.nullary main_cst_2 (constant S_ .f32 0xFF800000#32),
    StableHlo.unary main_cst_2 main_v34 (broadcastInDim S100000x4 ![] bcast_S_S100000x4 : (⟨S_, .f32⟩ : BufTy).Contents (Elt F) → (⟨S100000x4, .f32⟩ : BufTy).Contents (Elt F)),
    StableHlo.binary main_v34 main_v33 main_v35 (maximumf : (⟨S100000x4, .f32⟩ : BufTy).Contents (Elt F) → (⟨S100000x4, .f32⟩ : BufTy).Contents (Elt F) → (⟨S100000x4, .f32⟩ : BufTy).Contents (Elt F)),
    StableHlo.unary main_v35 main_v36 (broadcastInDim S100000x4x1 ![0, 1] bcast_S100000x4_S100000x4x1_0_1 : (⟨S100000x4, .f32⟩ : BufTy).Contents (Elt F) → (⟨S100000x4x1, .f32⟩ : BufTy).Contents (Elt F)),
    StableHlo.unary main_v36 main_v37 (broadcastInDim S100000x4x16 ![0, 1, 2] bcast_S100000x4x1_S100000x4x16_0_1_2 : (⟨S100000x4x1, .f32⟩ : BufTy).Contents (Elt F) → (⟨S100000x4x16, .f32⟩ : BufTy).Contents (Elt F)),
    StableHlo.binary main_v32 main_v37 main_v38 (subf : (⟨S100000x4x16, .f32⟩ : BufTy).Contents (Elt F) → (⟨S100000x4x16, .f32⟩ : BufTy).Contents (Elt F) → (⟨S100000x4x16, .f32⟩ : BufTy).Contents (Elt F)),
    StableHlo.unary main_v38 main_v39 (Host.exp : (⟨S100000x4x16, .f32⟩ : BufTy).Contents (Elt F) → (⟨S100000x4x16, .f32⟩ : BufTy).Contents (Elt F)),
    StableHlo.nullary main_cst_3 (constant S_ .f32 0x00000000#32),
    StableHlo.binary main_v39 main_cst_3 main_v40 ((fun x v => Host.reduceAdd x v reducesTo_S100000x4x16_S100000x4_d2 h_S_) : (⟨S100000x4x16, .f32⟩ : BufTy).Contents (Elt F) → (⟨S_, .f32⟩ : BufTy).Contents (Elt F) → (⟨S100000x4, .f32⟩ : BufTy).Contents (Elt F)),
    StableHlo.unary main_v40 main_v41 (broadcastInDim S100000x4x1 ![0, 1] bcast_S100000x4_S100000x4x1_0_1 : (⟨S100000x4, .f32⟩ : BufTy).Contents (Elt F) → (⟨S100000x4x1, .f32⟩ : BufTy).Contents (Elt F)),
    StableHlo.unary main_v41 main_v42 (broadcastInDim S100000x4x16 ![0, 1, 2] bcast_S100000x4x1_S100000x4x16_0_1_2 : (⟨S100000x4x1, .f32⟩ : BufTy).Contents (Elt F) → (⟨S100000x4x16, .f32⟩ : BufTy).Contents (Elt F)),
    StableHlo.binary main_v39 main_v42 main_v43 (Host.divf : (⟨S100000x4x16, .f32⟩ : BufTy).Contents (Elt F) → (⟨S100000x4x16, .f32⟩ : BufTy).Contents (Elt F) → (⟨S100000x4x16, .f32⟩ : BufTy).Contents (Elt F)) ]

/-- @main is that straight line: the callees' bodies unfolded at their calls and sequencing re-associated, each
    operation over a call's typed buffers is the same operation at the buffers themselves (the transport of contents
    along a typed buffer's type equation is the identity). Both sides compute to one chain of steps. -/
theorem main_eq (c : Dev nD) : main (F := F) c = seq ops := by chain_rfl

theorem scopedRefs_eq : (Finset.univ.filter fun b : Ref sig .tc => b.isScoped) = ∅ := by decide +kernel
theorem scopedSems_eq : (Finset.univ.filter fun sm : SemLoc sig => sm.isScoped .tc) = ∅ := by decide +kernel

set_option maxRecDepth 4096 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., nullary_bufs_sub .., unary_bufs_sub ..,
    binary_bufs_sub .., nullary_bufs_sub .., unary_bufs_sub .., unary_bufs_sub .., unary_bufs_sub .., ternary_bufs_sub ..,
    unary_bufs_sub .., unary_bufs_sub .., binary_bufs_sub .., unary_bufs_sub .., binary_bufs_sub .., reshape_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..,
    reshape_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub ..⟩

set_option maxRecDepth 8192 in
set_option maxHeartbeats 1600000 in
/-- From any memory with zero counters every weakly fair execution of @main terminates, and every buffer ends at
    the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ

end Cert.ReferenceIdeal.RefValue

end
-- ==== Proof.RStretch.lean ====
/-
  The reference's line of 117 operations cut into six stretches, one per stage: x · W_pre + b_pre under elu; the
  neighbours' rows gathered and masked; the first dense layer on the 16 segments of 65 under elu; the second under
  elu; the third; the softmax over each group of 16. The fold of a stretch, read at the buffer its last operation
  writes, is the stage's function of the contents the stretch starts from at the buffers it reads; read at a buffer
  the stretch does not write it is what was there. The fold of the whole line is the folds of the stretches one
  after the other.
-/
import proofs.«106685_j23562190586026_2_alg».proof.Proof.RRun
import proofs.«106685_j23562190586026_2_alg».proof.Proof.RStages

noncomputable section

namespace Cert.ReferenceIdeal.RefValue

open Cert.ReferenceIdeal Cert.ReferenceIdeal.Gen Idealize.ShloMosaic Idealize.ShloMosaic.TcCoe Idealize.SL.Sem Idealize.ShloMosaic.StableHlo

section Stretches

variable {F : FTy → Type} [FloatOps F]

/-- Operations 1–19 of the line. -/
def opsA : List (HloOp τ sig (Elt F)) :=
  [ StableHlo.binary main_arg0 main_arg3 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
    StableHlo.nullary main_call0_cst (constant S_ .f32 0x00000000#32),
    StableHlo.unary main_call0_cst main_call0_v0 (broadcastInDim S100000x64 ![] bcast_S_S100000x64 : (⟨S_, .f32⟩ : BufTy).Contents (Elt F) → (⟨S100000x64, .f32⟩ : BufTy).Contents (Elt F)),
    StableHlo.binary main_v3 main_call0_v0 main_call0_v1 (cmpf .ogt : (⟨S100000x64, .f32⟩ : BufTy).Contents (Elt F) → (⟨S100000x64, .f32⟩ : BufTy).Contents (Elt F) → (⟨S100000x64, .i1⟩ : BufTy).Contents (Elt F)),
    StableHlo.nullary main_call0_cst_0 (constant S_ .f32 0x00000000#32),
    StableHlo.unary main_call0_cst_0 main_call0_v2 (broadcastInDim S100000x64 ![] bcast_S_S100000x64 : (⟨S_, .f32⟩ : BufTy).Contents (Elt F) → (⟨S100000x64, .f32⟩ : BufTy).Contents (Elt F)),
    StableHlo.binary main_v3 main_call0_v2 main_call0_v3 (cmpf .ogt : (⟨S100000x64, .f32⟩ : BufTy).Contents (Elt F) → (⟨S100000x64, .f32⟩ : BufTy).Contents (Elt F) → (⟨S100000x64, .i1⟩ : BufTy).Contents (Elt F)),
    StableHlo.nullary main_call0_cst_1 (constant S_ .f32 0x00000000#32),
    StableHlo.unary main_call0_cst_1 main_call0_call0_v0 (id : (⟨S_, .f32⟩ : BufTy).Contents (Elt F) → (⟨S_, .f32⟩ : BufTy).Contents (Elt F)),
    StableHlo.unary main_call0_call0_v0 main_call0_call0_v1 (broadcastInDim S100000x64 ![] bcast_S_S100000x64 : (⟨S_, .f32⟩ : BufTy).Contents (Elt F) → (⟨S100000x64, .f32⟩ : BufTy).Contents (Elt F)),
    StableHlo.ternary main_call0_v3 main_call0_call0_v1 main_v3 main_call0_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.unary main_call0_v4 main_call0_v5 (Host.expm1 : (⟨S100000x64, .f32⟩ : BufTy).Contents (Elt F) → (⟨S100000x64, .f32⟩ : BufTy).Contents (Elt F)),
    StableHlo.nullary main_call0_cst_2 (constant S_ .f32 0x3F800000#32),
    StableHlo.unary main_call0_cst_2 main_call0_v6 (broadcastInDim S100000x64 ![] bcast_S_S100000x64 : (⟨S_, .f32⟩ : BufTy).Contents (Elt F) → (⟨S100000x64, .f32⟩ : BufTy).Contents (Elt F)),
    StableHlo.binary main_call0_v6 main_call0_v5 main_call0_v7 (mulf : (⟨S100000x64, .f32⟩ : BufTy).Contents (Elt F) → (⟨S100000x64, .f32⟩ : BufTy).Contents (Elt F) → (⟨S100000x64, .f32⟩ : BufTy).Contents (Elt F)),
    StableHlo.ternary main_call0_v1 main_v3 main_call0_v7 main_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Operations 20–54 of the line. -/
def opsB : List (HloOp τ sig (Elt F)) :=
  [ StableHlo.nullary main_c (constantI S_ 32 0#32),
    StableHlo.unary main_c main_v5 (broadcastInDim S100000x16 ![] bcast_S_S100000x16 : (⟨S_, .i32⟩ : BufTy).Contents (Elt F) → (⟨S100000x16, .i32⟩ : BufTy).Contents (Elt F)),
    StableHlo.binary main_arg1 main_v5 main_v6 (maxsi : (⟨S100000x16, .i32⟩ : BufTy).Contents (Elt F) → (⟨S100000x16, .i32⟩ : BufTy).Contents (Elt F) → (⟨S100000x16, .i32⟩ : BufTy).Contents (Elt F)),
    StableHlo.nullary main_call1_c (constantI S_ 32 0#32),
    StableHlo.unary main_call1_c main_call1_v0 (broadcastInDim S100000x16 ![] bcast_S_S100000x16 : (⟨S_, .i32⟩ : BufTy).Contents (Elt F) → (⟨S100000x16, .i32⟩ : BufTy).Contents (Elt F)),
    StableHlo.binary main_v6 main_call1_v0 main_call1_v1 (cmpi .slt : (⟨S100000x16, .i32⟩ : BufTy).Contents (Elt F) → (⟨S100000x16, .i32⟩ : BufTy).Contents (Elt F) → (⟨S100000x16, .i1⟩ : BufTy).Contents (Elt F)),
    StableHlo.nullary main_call1_c_0 (constantI S_ 32 100000#32),
    StableHlo.unary main_call1_c_0 main_call1_v2 (broadcastInDim S100000x16 ![] bcast_S_S100000x16 : (⟨S_, .i32⟩ : BufTy).Contents (Elt F) → (⟨S100000x16, .i32⟩ : BufTy).Contents (Elt F)),
    StableHlo.binary main_v6 main_call1_v2 main_call1_v3 (addi : (⟨S100000x16, .i32⟩ : BufTy).Contents (Elt F) → (⟨S100000x16, .i32⟩ : BufTy).Contents (Elt F) → (⟨S100000x16, .i32⟩ : BufTy).Contents (Elt F)),
    StableHlo.ternary main_call1_v1 main_call1_v3 main_v6 main_call1_v4 (select : (⟨S100000x16, .i1⟩ : BufTy).Contents (Elt F) → (⟨S100000x16, .i32⟩ : BufTy).Contents (Elt F) → (⟨S100000x16, .i32⟩ : BufTy).Contents (Elt F) → (⟨S100000x16, .i32⟩ : BufTy).Contents (Elt F)),
    StableHlo.unary main_call1_v4 main_call1_v5 (broadcastInDim S100000x16x1 ![0, 1] bcast_S100000x16_S100000x16x1_0_1 : (⟨S100000x16, .i32⟩ : BufTy).Contents (Elt F) → (⟨S100000x16x1, .i32⟩ : BufTy).Contents (Elt F)),
    StableHlo.nullary main_call1_c_1 (constantI S1 32 99999#32),
    StableHlo.nullary main_call1_c_2 (constantI S_ 32 0#32),
    StableHlo.unary main_call1_c_2 main_call1_v6 (broadcastInDim S100000x16x1 ![] bcast_S_S100000x16x1 : (⟨S_, .i32⟩ : BufTy).Contents (Elt F) → (⟨S100000x16x1, .i32⟩ : BufTy).Contents (Elt F)),
    StableHlo.binary main_call1_v5 main_call1_v6 main_call1_v7 (cmpi .sge : (⟨S100000x16x1, .i32⟩ : BufTy).Contents (Elt F) → (⟨S100000x16x1, .i32⟩ : BufTy).Contents (Elt F) → (⟨S100000x16x1, .i1⟩ : BufTy).Contents (Elt F)),
    StableHlo.unary main_call1_c_1 main_call1_v8 (broadcastInDim S1x1x1 ![2] bcast_S1_S1x1x1_2 : (⟨S1, .i32⟩ : BufTy).Contents (Elt F) → (⟨S1x1x1, .i32⟩ : BufTy).Contents (Elt F)),
    StableHlo.unary main_call1_v8 main_call1_v9 (broadcastInDim S100000x16x1 ![0, 1, 2] bcast_S1x1x1_S100000x16x1_0_1_2 : (⟨S1x1x1, .i32⟩ : BufTy).Contents (Elt F) → (⟨S100000x16x1, .i32⟩ : BufTy).Contents (Elt F)),
    StableHlo.binary main_call1_v5 main_call1_v9 main_call1_v10 (cmpi .sle : (⟨S100000x16x1, .i32⟩ : BufTy).Contents (Elt F) → (⟨S100000x16x1, .i32⟩ : BufTy).Contents (Elt F) → (⟨S100000x16x1, .i1⟩ : BufTy).Contents (Elt F)),
    StableHlo.binary main_call1_v7 main_call1_v10 main_call1_v11 (andi : (⟨S100000x16x1, .i1⟩ : BufTy).Contents (Elt F) → (⟨S100000x16x1, .i1⟩ : BufTy).Contents (Elt F) → (⟨S100000x16x1, .i1⟩ : BufTy).Contents (Elt F)),
    StableHlo.nullary main_call1_c_3 (constantI S_ 1 1#1),
    StableHlo.binary main_call1_v11 main_call1_c_3 main_call1_v12 ((fun x v => Host.reduce IntOp.andi x v reducesTo_S100000x16x1_S100000x16_d2 h_S_) : (⟨S100000x16x1, .i1⟩ : BufTy).Contents (Elt F) → (⟨S_, .i1⟩ : BufTy).Contents (Elt F) → (⟨S100000x16, .i1⟩ : BufTy).Contents (Elt F)),
    StableHlo.binary main_v4 main_call1_v5 main_call1_v13 ((fun x i => Host.gather gather_S100000x64_S100000x16x1_S100000x16x64_2_0_n_n_0_2_164 x i) : (⟨S100000x64, .f32⟩ : BufTy).Contents (Elt F) → (⟨S100000x16x1, .i32⟩ : BufTy).Contents (Elt F) → (⟨S100000x16x64, .f32⟩ : BufTy).Contents (Elt F)),
    StableHlo.unary main_call1_v12 main_call1_v14 (broadcastInDim S100000x16x64 ![0, 1] bcast_S100000x16_S100000x16x64_0_1 : (⟨S100000x16, .i1⟩ : BufTy).Contents (Elt F) → (⟨S100000x16x64, .i1⟩ : BufTy).Contents (Elt F)),
    StableHlo.nullary main_call1_cst (constant S_ .f32 0x7FC00000#32),
    StableHlo.unary main_call1_cst main_call1_v15 (broadcastInDim S100000x16x64 ![] bcast_S_S100000x16x64 : (⟨S_, .f32⟩ : BufTy).Contents (Elt F) → (⟨S100000x16x64, .f32⟩ : BufTy).Contents (Elt F)),
    StableHlo.ternary main_call1_v14 main_call1_v13 main_call1_v15 main_v7 (select : (⟨S100000x16x64, .i1⟩ : BufTy).Contents (Elt F) → (⟨S100000x16x64, .f32⟩ : BufTy).Contents (Elt F) → (⟨S100000x16x64, .f32⟩ : BufTy).Contents (Elt F) → (⟨S100000x16x64, .f32⟩ : BufTy).Contents (Elt F)),
    StableHlo.unary main_arg1 main_v8 (broadcastInDim S100000x16x1 ![0, 1] bcast_S100000x16_S100000x16x1_0_1 : (⟨S100000x16, .i32⟩ : BufTy).Contents (Elt F) → (⟨S100000x16x1, .i32⟩ : BufTy).Contents (Elt F)),
    StableHlo.nullary main_c_0 (constantI S_ 32 0#32),
    StableHlo.unary main_c_0 main_v9 (broadcastInDim S100000x16x1 ![] bcast_S_S100000x16x1 : (⟨S_, .i32⟩ : BufTy).Contents (Elt F) → (⟨S100000x16x1, .i32⟩ : BufTy).Contents (Elt F)),
    StableHlo.binary main_v8 main_v9 main_v10 (cmpi .sge : (⟨S100000x16x1, .i32⟩ : BufTy).Contents (Elt F) → (⟨S100000x16x1, .i32⟩ : BufTy).Contents (Elt F) → (⟨S100000x16x1, .i1⟩ : BufTy).Contents (Elt F)),
    StableHlo.nullary main_cst (constant S_ .f32 0x00000000#32),
    StableHlo.unary main_cst main_call2_v0 (id : (⟨S_, .f32⟩ : BufTy).Contents (Elt F) → (⟨S_, .f32⟩ : BufTy).Contents (Elt F)),
    StableHlo.unary main_v10 main_call2_v1 (broadcastInDim S100000x16x64 ![0, 1, 2] bcast_S100000x16x1_S100000x16x64_0_1_2 : (⟨S100000x16x1, .i1⟩ : BufTy).Contents (Elt F) → (⟨S100000x16x64, .i1⟩ : BufTy).Contents (Elt F)),
    StableHlo.unary main_call2_v0 main_call2_v2 (broadcastInDim S100000x16x64 ![] bcast_S_S100000x16x64 : (⟨S_, .f32⟩ : BufTy).Contents (Elt F) → (⟨S100000x16x64, .f32⟩ : BufTy).Contents (Elt F)),
    StableHlo.ternary main_call2_v1 main_v7 main_call2_v2 main_v11 (select : (⟨S100000x16x64, .i1⟩ : BufTy).Contents (Elt F) → (⟨S100000x16x64, .f32⟩ : BufTy).Contents (Elt F) → (⟨S100000x16x64, .f32⟩ : BufTy).Contents (Elt F) → (⟨S100000x16x64, .f32⟩ : BufTy).Contents (Elt F)) ]

/-- Operations 55–79 of the line. -/
def opsC : List (HloOp τ sig (Elt F)) :=
  [ StableHlo.unary main_v4 main_v12 (broadcastInDim S100000x1x64 ![0, 2] bcast_S100000x64_S100000x1x64_0_2 : (⟨S100000x64, .f32⟩ : BufTy).Contents (Elt F) → (⟨S100000x1x64, .f32⟩ : BufTy).Contents (Elt F)),
    StableHlo.unary main_v12 main_v13 (broadcastInDim S100000x16x64 ![0, 1, 2] bcast_S100000x1x64_S100000x16x64_0_1_2 : (⟨S100000x1x64, .f32⟩ : BufTy).Contents (Elt F) → (⟨S100000x16x64, .f32⟩ : BufTy).Contents (Elt F)),
    StableHlo.binary main_v13 main_v11 main_v14 (subf : (⟨S100000x16x64, .f32⟩ : BufTy).Contents (Elt F) → (⟨S100000x16x64, .f32⟩ : BufTy).Contents (Elt F) → (⟨S100000x16x64, .f32⟩ : BufTy).Contents (Elt F)),
    StableHlo.unary main_arg2 main_v15 (broadcastInDim S100000x16x1 ![0, 1] bcast_S100000x16_S100000x16x1_0_1 : (⟨S100000x16, .f32⟩ : BufTy).Contents (Elt F) → (⟨S100000x16x1, .f32⟩ : BufTy).Contents (Elt F)),
    StableHlo.binary main_v14 main_v15 main_v16 ((fun a b => concatenate S100000x16x65 2 [⟨S100000x16x64, a⟩, ⟨S100000x16x1, b⟩] concatenates_S100000x16x64_S100000x16x1_S100000x16x65_d2) : (⟨S100000x16x64, .f32⟩ : BufTy).Contents (Elt F) → (⟨S100000x16x1, .f32⟩ : BufTy).Contents (Elt F) → (⟨S100000x16x65, .f32⟩ : BufTy).Contents (Elt F)),
    StableHlo.reshape main_v16 main_v17 rfl shapeCasts_S100000x16x65_S100000x1040,
    StableHlo.binary main_v17 main_arg5 main_v18 ((fun l r => Host.dotGeneral dot_S100000x1040_S1040x128_S100000x128_1_0_0_1_n_n none l r) : (⟨S100000x1040, .f32⟩ : BufTy).Contents (Elt F) → (⟨S1040x128, .f32⟩ : BufTy).Contents (Elt F) → (⟨S100000x128, .f32⟩ : BufTy).Contents (Elt F)),
    StableHlo.unary main_arg6 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)),
    StableHlo.nullary main_call3_cst (constant S_ .f32 0x00000000#32),
    StableHlo.unary main_call3_cst main_call3_v0 (broadcastInDim S100000x128 ![] bcast_S_S100000x128 : (⟨S_, .f32⟩ : BufTy).Contents (Elt F) → (⟨S100000x128, .f32⟩ : BufTy).Contents (Elt F)),
    StableHlo.binary main_v21 main_call3_v0 main_call3_v1 (cmpf .ogt : (⟨S100000x128, .f32⟩ : BufTy).Contents (Elt F) → (⟨S100000x128, .f32⟩ : BufTy).Contents (Elt F) → (⟨S100000x128, .i1⟩ : BufTy).Contents (Elt F)),
    StableHlo.nullary main_call3_cst_0 (constant S_ .f32 0x00000000#32),
    StableHlo.unary main_call3_cst_0 main_call3_v2 (broadcastInDim S100000x128 ![] bcast_S_S100000x128 : (⟨S_, .f32⟩ : BufTy).Contents (Elt F) → (⟨S100000x128, .f32⟩ : BufTy).Contents (Elt F)),
    StableHlo.binary main_v21 main_call3_v2 main_call3_v3 (cmpf .ogt : (⟨S100000x128, .f32⟩ : BufTy).Contents (Elt F) → (⟨S100000x128, .f32⟩ : BufTy).Contents (Elt F) → (⟨S100000x128, .i1⟩ : BufTy).Contents (Elt F)),
    StableHlo.nullary main_call3_cst_1 (constant S_ .f32 0x00000000#32),
    StableHlo.unary main_call3_cst_1 main_call3_call0_v0 (id : (⟨S_, .f32⟩ : BufTy).Contents (Elt F) → (⟨S_, .f32⟩ : BufTy).Contents (Elt F)),
    StableHlo.unary main_call3_call0_v0 main_call3_call0_v1 (broadcastInDim S100000x128 ![] bcast_S_S100000x128 : (⟨S_, .f32⟩ : BufTy).Contents (Elt F) → (⟨S100000x128, .f32⟩ : BufTy).Contents (Elt F)),
    StableHlo.ternary main_call3_v3 main_call3_call0_v1 main_v21 main_call3_v4 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.unary main_call3_v4 main_call3_v5 (Host.expm1 : (⟨S100000x128, .f32⟩ : BufTy).Contents (Elt F) → (⟨S100000x128, .f32⟩ : BufTy).Contents (Elt F)),
    StableHlo.nullary main_call3_cst_2 (constant S_ .f32 0x3F800000#32),
    StableHlo.unary main_call3_cst_2 main_call3_v6 (broadcastInDim S100000x128 ![] bcast_S_S100000x128 : (⟨S_, .f32⟩ : BufTy).Contents (Elt F) → (⟨S100000x128, .f32⟩ : BufTy).Contents (Elt F)),
    StableHlo.binary main_call3_v6 main_call3_v5 main_call3_v7 (mulf : (⟨S100000x128, .f32⟩ : BufTy).Contents (Elt F) → (⟨S100000x128, .f32⟩ : BufTy).Contents (Elt F) → (⟨S100000x128, .f32⟩ : BufTy).Contents (Elt F)),
    StableHlo.ternary main_call3_v1 main_v21 main_call3_v7 main_v22 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- Operations 80–98 of the line. -/
def opsD : List (HloOp τ sig (Elt F)) :=
  [ StableHlo.binary main_v22 main_arg7 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.nullary main_call4_cst (constant S_ .f32 0x00000000#32),
    StableHlo.unary main_call4_cst main_call4_v0 (broadcastInDim S100000x128 ![] bcast_S_S100000x128 : (⟨S_, .f32⟩ : BufTy).Contents (Elt F) → (⟨S100000x128, .f32⟩ : BufTy).Contents (Elt F)),
    StableHlo.binary main_v26 main_call4_v0 main_call4_v1 (cmpf .ogt : (⟨S100000x128, .f32⟩ : BufTy).Contents (Elt F) → (⟨S100000x128, .f32⟩ : BufTy).Contents (Elt F) → (⟨S100000x128, .i1⟩ : BufTy).Contents (Elt F)),
    StableHlo.nullary main_call4_cst_0 (constant S_ .f32 0x00000000#32),
    StableHlo.unary main_call4_cst_0 main_call4_v2 (broadcastInDim S100000x128 ![] bcast_S_S100000x128 : (⟨S_, .f32⟩ : BufTy).Contents (Elt F) → (⟨S100000x128, .f32⟩ : BufTy).Contents (Elt F)),
    StableHlo.binary main_v26 main_call4_v2 main_call4_v3 (cmpf .ogt : (⟨S100000x128, .f32⟩ : BufTy).Contents (Elt F) → (⟨S100000x128, .f32⟩ : BufTy).Contents (Elt F) → (⟨S100000x128, .i1⟩ : BufTy).Contents (Elt F)),
    StableHlo.nullary main_call4_cst_1 (constant S_ .f32 0x00000000#32),
    StableHlo.unary main_call4_cst_1 main_call4_call0_v0 (id : (⟨S_, .f32⟩ : BufTy).Contents (Elt F) → (⟨S_, .f32⟩ : BufTy).Contents (Elt F)),
    StableHlo.unary main_call4_call0_v0 main_call4_call0_v1 (broadcastInDim S100000x128 ![] bcast_S_S100000x128 : (⟨S_, .f32⟩ : BufTy).Contents (Elt F) → (⟨S100000x128, .f32⟩ : BufTy).Contents (Elt F)),
    StableHlo.ternary main_call4_v3 main_call4_call0_v1 main_v26 main_call4_v4 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.unary main_call4_v4 main_call4_v5 (Host.expm1 : (⟨S100000x128, .f32⟩ : BufTy).Contents (Elt F) → (⟨S100000x128, .f32⟩ : BufTy).Contents (Elt F)),
    StableHlo.nullary main_call4_cst_2 (constant S_ .f32 0x3F800000#32),
    StableHlo.unary main_call4_cst_2 main_call4_v6 (broadcastInDim S100000x128 ![] bcast_S_S100000x128 : (⟨S_, .f32⟩ : BufTy).Contents (Elt F) → (⟨S100000x128, .f32⟩ : BufTy).Contents (Elt F)),
    StableHlo.binary main_call4_v6 main_call4_v5 main_call4_v7 (mulf : (⟨S100000x128, .f32⟩ : BufTy).Contents (Elt F) → (⟨S100000x128, .f32⟩ : BufTy).Contents (Elt F) → (⟨S100000x128, .f32⟩ : BufTy).Contents (Elt F)),
    StableHlo.ternary main_call4_v1 main_v26 main_call4_v7 main_v27 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- Operations 99–102 of the line. -/
def opsE : List (HloOp τ sig (Elt F)) :=
  [ StableHlo.binary main_v27 main_arg9 main_v28 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v28 main_v30 main_v31 (addf : (⟨S100000x64, .f32⟩ : BufTy).Contents (Elt F) → (⟨S100000x64, .f32⟩ : BufTy).Contents (Elt F) → (⟨S100000x64, .f32⟩ : BufTy).Contents (Elt F)) ]

/-- Operations 103–117 of the line. -/
def opsF : List (HloOp τ sig (Elt F)) :=
  [ StableHlo.reshape main_v31 main_v32 rfl shapeCasts_S100000x64_S100000x4x16,
    StableHlo.nullary main_cst_1 (constant S_ .f32 0xFF800000#32),
    StableHlo.binary main_v32 main_cst_1 main_v33 ((fun x v => Host.reduce FloatOps.maximumf x v reducesTo_S100000x4x16_S100000x4_d2 h_S_) : (⟨S100000x4x16, .f32⟩ : BufTy).Contents (Elt F) → (⟨S_, .f32⟩ : BufTy).Contents (Elt F) → (⟨S100000x4, .f32⟩ : BufTy).Contents (Elt F)),
    StableHlo.nullary main_cst_2 (constant S_ .f32 0xFF800000#32),
    StableHlo.unary main_cst_2 main_v34 (broadcastInDim S100000x4 ![] bcast_S_S100000x4 : (⟨S_, .f32⟩ : BufTy).Contents (Elt F) → (⟨S100000x4, .f32⟩ : BufTy).Contents (Elt F)),
    StableHlo.binary main_v34 main_v33 main_v35 (maximumf : (⟨S100000x4, .f32⟩ : BufTy).Contents (Elt F) → (⟨S100000x4, .f32⟩ : BufTy).Contents (Elt F) → (⟨S100000x4, .f32⟩ : BufTy).Contents (Elt F)),
    StableHlo.unary main_v35 main_v36 (broadcastInDim S100000x4x1 ![0, 1] bcast_S100000x4_S100000x4x1_0_1 : (⟨S100000x4, .f32⟩ : BufTy).Contents (Elt F) → (⟨S100000x4x1, .f32⟩ : BufTy).Contents (Elt F)),
    StableHlo.unary main_v36 main_v37 (broadcastInDim S100000x4x16 ![0, 1, 2] bcast_S100000x4x1_S100000x4x16_0_1_2 : (⟨S100000x4x1, .f32⟩ : BufTy).Contents (Elt F) → (⟨S100000x4x16, .f32⟩ : BufTy).Contents (Elt F)),
    StableHlo.binary main_v32 main_v37 main_v38 (subf : (⟨S100000x4x16, .f32⟩ : BufTy).Contents (Elt F) → (⟨S100000x4x16, .f32⟩ : BufTy).Contents (Elt F) → (⟨S100000x4x16, .f32⟩ : BufTy).Contents (Elt F)),
    StableHlo.unary main_v38 main_v39 (Host.exp : (⟨S100000x4x16, .f32⟩ : BufTy).Contents (Elt F) → (⟨S100000x4x16, .f32⟩ : BufTy).Contents (Elt F)),
    StableHlo.nullary main_cst_3 (constant S_ .f32 0x00000000#32),
    StableHlo.binary main_v39 main_cst_3 main_v40 ((fun x v => Host.reduceAdd x v reducesTo_S100000x4x16_S100000x4_d2 h_S_) : (⟨S100000x4x16, .f32⟩ : BufTy).Contents (Elt F) → (⟨S_, .f32⟩ : BufTy).Contents (Elt F) → (⟨S100000x4, .f32⟩ : BufTy).Contents (Elt F)),
    StableHlo.unary main_v40 main_v41 (broadcastInDim S100000x4x1 ![0, 1] bcast_S100000x4_S100000x4x1_0_1 : (⟨S100000x4, .f32⟩ : BufTy).Contents (Elt F) → (⟨S100000x4x1, .f32⟩ : BufTy).Contents (Elt F)),
    StableHlo.unary main_v41 main_v42 (broadcastInDim S100000x4x16 ![0, 1, 2] bcast_S100000x4x1_S100000x4x16_0_1_2 : (⟨S100000x4x1, .f32⟩ : BufTy).Contents (Elt F) → (⟨S100000x4x16, .f32⟩ : BufTy).Contents (Elt F)),
    StableHlo.binary main_v39 main_v42 main_v43 (Host.divf : (⟨S100000x4x16, .f32⟩ : BufTy).Contents (Elt F) → (⟨S100000x4x16, .f32⟩ : BufTy).Contents (Elt F) → (⟨S100000x4x16, .f32⟩ : BufTy).Contents (Elt F)) ]

/-- The line is its six stretches in order. -/
theorem ops_split : (ops : List (HloOp τ sig (Elt F))) = opsA ++ (opsB ++ (opsC ++ (opsD ++ (opsE ++ opsF)))) := rfl

/-- The fold of two stretches run one after the other is the second's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Stretches

/-! ## Each stretch at the buffer its last operation writes -/

attribute [local irreducible] Host.reduce Host.reduceAdd Host.gather Host.expm1 Host.exp Host.divf concatenate shapeCast broadcastInDim in
set_option maxRecDepth 8192 in
set_option maxHeartbeats 1000000 in
theorem stageA (W : Valuation τ sig (Elt Ideal)) :
    after opsA W (main_v4 : DevRef τ sig) = xpR (W (main_arg0 : DevRef τ sig)) (W (main_arg3 : DevRef τ sig)) (W (main_arg4 : DevRef τ sig)) := by
  unfold opsA
  after_results_simp
  rfl

attribute [local irreducible] Host.reduce Host.reduceAdd Host.gather Host.expm1 Host.exp Host.divf concatenate shapeCast broadcastInDim in
set_option maxRecDepth 8192 in
set_option maxHeartbeats 1000000 in
theorem stageB (W : Valuation τ sig (Elt Ideal)) :
    after opsB W (main_v11 : DevRef τ sig) = gmR (W (main_v4 : DevRef τ sig)) (W (main_arg1 : DevRef τ sig)) := by
  unfold opsB
  after_results_simp
  rfl

attribute [local irreducible] Host.reduce Host.reduceAdd Host.gather Host.expm1 Host.exp Host.divf concatenate shapeCast broadcastInDim in
set_option maxRecDepth 8192 in
set_option maxHeartbeats 1000000 in
theorem stageC (W : Valuation τ sig (Elt Ideal)) :
    after opsC W (main_v22 : DevRef τ sig) = hid0R (W (main_v4 : DevRef τ sig)) (W (main_v11 : DevRef τ sig)) (W (main_arg2 : DevRef τ sig)) (W (main_arg5 : DevRef τ sig)) (W (main_arg6 : DevRef τ sig)) := by
  unfold opsC
  after_results_simp
  rfl

attribute [local irreducible] Host.reduce Host.reduceAdd Host.gather Host.expm1 Host.exp Host.divf concatenate shapeCast broadcastInDim in
set_option maxRecDepth 8192 in
set_option maxHeartbeats 1000000 in
theorem stageD (W : Valuation τ sig (Elt Ideal)) :
    after opsD W (main_v27 : DevRef τ sig) = hid1R (W (main_v22 : DevRef τ sig)) (W (main_arg7 : DevRef τ sig)) (W (main_arg8 : DevRef τ sig)) := by
  unfold opsD
  after_results_simp
  rfl

attribute [local irreducible] Host.reduce Host.reduceAdd Host.gather Host.expm1 Host.exp Host.divf concatenate shapeCast broadcastInDim in
set_option maxRecDepth 8192 in
set_option maxHeartbeats 1000000 in
theorem stageE (W : Valuation τ sig (Elt Ideal)) :
    after opsE W (main_v31 : DevRef τ sig) = logitR (W (main_v27 : DevRef τ sig)) (W (main_arg9 : DevRef τ sig)) (W (main_arg10 : DevRef τ sig)) := by
  unfold opsE
  after_results_simp
  rfl

attribute [local irreducible] Host.reduce Host.reduceAdd Host.gather Host.expm1 Host.exp Host.divf concatenate shapeCast broadcastInDim in
set_option maxRecDepth 8192 in
set_option maxHeartbeats 1000000 in
theorem stageF (W : Valuation τ sig (Elt Ideal)) :
    after opsF W (main_v43 : DevRef τ sig) = smR (W (main_v31 : DevRef τ sig)) := by
  unfold opsF
  after_results_simp
  rfl

/-! ## Each stretch at a buffer it does not write -/

theorem keepA_arg1 (W : Valuation τ sig (Elt Ideal)) :
    after opsA W (main_arg1 : DevRef τ sig) = W (main_arg1 : DevRef τ sig) := by
  unfold opsA
  after_results_simp

theorem keepA_arg2 (W : Valuation τ sig (Elt Ideal)) :
    after opsA W (main_arg2 : DevRef τ sig) = W (main_arg2 : DevRef τ sig) := by
  unfold opsA
  after_results_simp

theorem keepA_arg5 (W : Valuation τ sig (Elt Ideal)) :
    after opsA W (main_arg5 : DevRef τ sig) = W (main_arg5 : DevRef τ sig) := by
  unfold opsA
  after_results_simp

theorem keepA_arg6 (W : Valuation τ sig (Elt Ideal)) :
    after opsA W (main_arg6 : DevRef τ sig) = W (main_arg6 : DevRef τ sig) := by
  unfold opsA
  after_results_simp

theorem keepA_arg7 (W : Valuation τ sig (Elt Ideal)) :
    after opsA W (main_arg7 : DevRef τ sig) = W (main_arg7 : DevRef τ sig) := by
  unfold opsA
  after_results_simp

theorem keepA_arg8 (W : Valuation τ sig (Elt Ideal)) :
    after opsA W (main_arg8 : DevRef τ sig) = W (main_arg8 : DevRef τ sig) := by
  unfold opsA
  after_results_simp

theorem keepA_arg9 (W : Valuation τ sig (Elt Ideal)) :
    after opsA W (main_arg9 : DevRef τ sig) = W (main_arg9 : DevRef τ sig) := by
  unfold opsA
  after_results_simp

theorem keepA_arg10 (W : Valuation τ sig (Elt Ideal)) :
    after opsA W (main_arg10 : DevRef τ sig) = W (main_arg10 : DevRef τ sig) := by
  unfold opsA
  after_results_simp

theorem keepB_v4 (W : Valuation τ sig (Elt Ideal)) :
    after opsB W (main_v4 : DevRef τ sig) = W (main_v4 : DevRef τ sig) := by
  unfold opsB
  after_results_simp

theorem keepB_arg2 (W : Valuation τ sig (Elt Ideal)) :
    after opsB W (main_arg2 : DevRef τ sig) = W (main_arg2 : DevRef τ sig) := by
  unfold opsB
  after_results_simp

theorem keepB_arg5 (W : Valuation τ sig (Elt Ideal)) :
    after opsB W (main_arg5 : DevRef τ sig) = W (main_arg5 : DevRef τ sig) := by
  unfold opsB
  after_results_simp

theorem keepB_arg6 (W : Valuation τ sig (Elt Ideal)) :
    after opsB W (main_arg6 : DevRef τ sig) = W (main_arg6 : DevRef τ sig) := by
  unfold opsB
  after_results_simp

theorem keepB_arg7 (W : Valuation τ sig (Elt Ideal)) :
    after opsB W (main_arg7 : DevRef τ sig) = W (main_arg7 : DevRef τ sig) := by
  unfold opsB
  after_results_simp

theorem keepB_arg8 (W : Valuation τ sig (Elt Ideal)) :
    after opsB W (main_arg8 : DevRef τ sig) = W (main_arg8 : DevRef τ sig) := by
  unfold opsB
  after_results_simp

theorem keepB_arg9 (W : Valuation τ sig (Elt Ideal)) :
    after opsB W (main_arg9 : DevRef τ sig) = W (main_arg9 : DevRef τ sig) := by
  unfold opsB
  after_results_simp

theorem keepB_arg10 (W : Valuation τ sig (Elt Ideal)) :
    after opsB W (main_arg10 : DevRef τ sig) = W (main_arg10 : DevRef τ sig) := by
  unfold opsB
  after_results_simp

theorem keepC_arg7 (W : Valuation τ sig (Elt Ideal)) :
    after opsC W (main_arg7 : DevRef τ sig) = W (main_arg7 : DevRef τ sig) := by
  unfold opsC
  after_results_simp

theorem keepC_arg8 (W : Valuation τ sig (Elt Ideal)) :
    after opsC W (main_arg8 : DevRef τ sig) = W (main_arg8 : DevRef τ sig) := by
  unfold opsC
  after_results_simp

theorem keepC_arg9 (W : Valuation τ sig (Elt Ideal)) :
    after opsC W (main_arg9 : DevRef τ sig) = W (main_arg9 : DevRef τ sig) := by
  unfold opsC
  after_results_simp

theorem keepC_arg10 (W : Valuation τ sig (Elt Ideal)) :
    after opsC W (main_arg10 : DevRef τ sig) = W (main_arg10 : DevRef τ sig) := by
  unfold opsC
  after_results_simp

theorem keepD_arg9 (W : Valuation τ sig (Elt Ideal)) :
    after opsD W (main_arg9 : DevRef τ sig) = W (main_arg9 : DevRef τ sig) := by
  unfold opsD
  after_results_simp

theorem keepD_arg10 (W : Valuation τ sig (Elt Ideal)) :
    after opsD W (main_arg10 : DevRef τ sig) = W (main_arg10 : DevRef τ sig) := by
  unfold opsD
  after_results_simp

end Cert.ReferenceIdeal.RefValue

end
-- ==== Proof.ROut.lean ====
/-
  The reference's result as a function of its arguments.

  The fold of the whole line is the folds of its six stretches one after the other, so at the result buffer it is
  the composition of the six stages (x · W_pre + b_pre under elu; the neighbours' rows gathered and masked; the
  first dense layer on the 16 segments of 65 under elu; the second under elu; the third; the softmax over each
  group of 16) applied to the contents of the eleven argument buffers, and at an argument buffer it is what was
  there: no operation writes an argument. With the run of the straight line this gives, for every execution, the
  result buffer at that function of the launch contents and the arguments unchanged.
-/
import proofs.«106685_j23562190586026_2_alg».proof.Proof.RStretch

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The whole line -/

/-- The fold at the result buffer is the stages' composition: the line is its stretches, each read at its last
    buffer is its stage, and what a later stretch reads of an earlier buffer is carried through the stretches between. -/
theorem out_eq (V : Valuation τ sig (Elt Ideal)) :
    after ops V (main_v43 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [ops_split]
  simp only [after_append]
  rw [stageF, stageE, stageD, keepD_arg9, keepD_arg10, stageC, keepC_arg7, keepC_arg8, keepC_arg9, keepC_arg10, stageB, keepB_v4, keepB_arg2, keepB_arg5, keepB_arg6, keepB_arg7, keepB_arg8, keepB_arg9, keepB_arg10, stageA, keepA_arg1, keepA_arg2, keepA_arg5, keepA_arg6, keepA_arg7, keepA_arg8, keepA_arg9, keepA_arg10]
  rfl

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

theorem arg2_eq (V : Valuation τ sig (Elt Ideal)) :
    after ops V (main_arg2 : DevRef τ sig) = V (main_arg2 : DevRef τ sig) := by
  after_results_simp

theorem arg3_eq (V : Valuation τ sig (Elt Ideal)) :
    after ops V (main_arg3 : DevRef τ sig) = V (main_arg3 : DevRef τ sig) := by
  after_results_simp

theorem arg4_eq (V : Valuation τ sig (Elt Ideal)) :
    after ops V (main_arg4 : DevRef τ sig) = V (main_arg4 : DevRef τ sig) := by
  after_results_simp

theorem arg5_eq (V : Valuation τ sig (Elt Ideal)) :
    after ops V (main_arg5 : DevRef τ sig) = V (main_arg5 : DevRef τ sig) := by
  after_results_simp

theorem arg6_eq (V : Valuation τ sig (Elt Ideal)) :
    after ops V (main_arg6 : DevRef τ sig) = V (main_arg6 : DevRef τ sig) := by
  after_results_simp

theorem arg7_eq (V : Valuation τ sig (Elt Ideal)) :
    after ops V (main_arg7 : DevRef τ sig) = V (main_arg7 : DevRef τ sig) := by
  after_results_simp

theorem arg8_eq (V : Valuation τ sig (Elt Ideal)) :
    after ops V (main_arg8 : DevRef τ sig) = V (main_arg8 : DevRef τ sig) := by
  after_results_simp

theorem arg9_eq (V : Valuation τ sig (Elt Ideal)) :
    after ops V (main_arg9 : DevRef τ sig) = V (main_arg9 : DevRef τ sig) := by
  after_results_simp

theorem arg10_eq (V : Valuation τ sig (Elt Ideal)) :
    after ops V (main_arg10 : DevRef τ sig) = V (main_arg10 : DevRef τ sig) := by
  after_results_simp

/-- Every weakly fair execution of the reference terminates with the result buffer at `refOut` of the arguments'
    launch contents and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_all m ρ)

end Cert.ReferenceIdeal.RefValue

end
-- ==== Proof.RReadXp.lean ====
/-
  The pre-dense layer of the reference, over all rows: at (v, p) it is elu (Σ_f x(v, f) · W_pre(f, p) + b_pre(p)).
  The printed product is the plain [rows, 64] × [64, 64] one, the bias row is broadcast down the rows, and the printed
  elu is "y above zero, exp y − 1 otherwise" at each entry.
-/
import proofs.«106685_j23562190586026_2_alg».proof.Proof.RStages
import proofs.«106685_j23562190586026_2_alg».proof.Proof.LibEluDense

noncomputable section
open scoped BigOperators
namespace Cert.ReferenceIdeal.RefValue
open Idealize.ShloMosaic Idealize.ShloMosaic.ValueIdx Cert.ReferenceIdeal

/-- The printed dimension numbers are those of the plain product. -/
theorem dot_pre_eq : dot_S100000x64_S64x64_S100000x64_1_0_0_1_n_n = DotDims.plain 100000 64 64 := rfl

theorem xpR_eq (x : FVec Ideal S100000x64 .f32) (wpre : FVec Ideal S64x64 .f32) (bpre : FVec Ideal S64 .f32) :
    xpR x wpre bpre = Cert.Spec.xpArr x wpre bpre := by
  funext j
  obtain ⟨v, p, rfl⟩ : ∃ (v : Fin 100000) (p : Fin 64), j = ix2 v p := ⟨j 0, j 1, eq_ix2 j⟩
  unfold xpR
  rw [jaxElu_apply, dense_apply _ dot_pre_eq]
  rfl

end Cert.ReferenceIdeal.RefValue

end
-- ==== Proof.RReadCat.lean ====
/-
  The operand of the 1040-long contraction, read at an index.

  Row v of the operand is 16 segments of 65 entries laid side by side: segment k holds the 64 differences
  xp(v, p) − g(v, k, p) followed by the squared distance ds(v, k).  It is printed as a concatenation along the last axis
  of a [rows, 16, 64] and a [rows, 16, 1] array, reshaped from [rows, 16, 65] to [rows, 1040]; in row-major order
  position 65·k + p of the long row is entry (k, p) of the short ones.
-/
import proofs.«106685_j23562190586026_2_alg».proof.ReferenceIdeal
import Idealize.ShloMosaic.Lib.ValueIdx
import Idealize.ShloMosaic.Lib.Pipeline.Value

noncomputable section
open scoped BigOperators
namespace Cert.ReferenceIdeal.RefValue
open Idealize.ShloMosaic Idealize.ShloMosaic.ValueIdx
open Cert.ReferenceIdeal

variable {α : Type}

/-- Position 65·k + p with p < 64 of the long row is entry (k, p) of the first piece. -/
theorem cat_left (a : S100000x16x64.Idx → α) (b : S100000x16x1.Idx → α)
    (hc : Shape.Concatenates [S100000x16x64, S100000x16x1] S100000x16x65 2) (hs : S100000x16x65.ShapeCasts S100000x1040)
    (v : Fin 100000) (k : Fin 16) (p : Fin 64) :
    shapeCast S100000x1040 (concatenate S100000x16x65 2 [⟨S100000x16x64, a⟩, ⟨S100000x16x1, b⟩] hc) hs
        (ix2 v (⟨65 * k.val + p.val, by omega⟩ : Fin 1040)) = a (ix3 v k p) := by
  rw [shapeCast_apply _ hs (ix2 v (⟨65 * k.val + p.val, by omega⟩ : Fin 1040)) (ix3 v k (⟨p.val, by omega⟩ : Fin 65))
    (by rw [Shape.rowMajor_val_three, Shape.rowMajor_val_two]
        show (v.val * 16 + k.val) * 65 + p.val = v.val * 1040 + (65 * k.val + p.val)
        omega)]
  refine concatenate_pair_apply_left 2 a b hc (ix3 v k (⟨p.val, by omega⟩ : Fin 65)) rfl (ix3 v k p) ?_
  intro c
  fin_cases c <;> rfl

/-- Position 65·k + 64 of the long row is entry (k, 0) of the second piece. -/
theorem cat_right (a : S100000x16x64.Idx → α) (b : S100000x16x1.Idx → α)
    (hc : Shape.Concatenates [S100000x16x64, S100000x16x1] S100000x16x65 2) (hs : S100000x16x65.ShapeCasts S100000x1040)
    (v : Fin 100000) (k : Fin 16) :
    shapeCast S100000x1040 (concatenate S100000x16x65 2 [⟨S100000x16x64, a⟩, ⟨S100000x16x1, b⟩] hc) hs
        (ix2 v (⟨65 * k.val + 64, by omega⟩ : Fin 1040)) = b (ix3 v k (0 : Fin 1)) := by
  rw [shapeCast_apply _ hs (ix2 v (⟨65 * k.val + 64, by omega⟩ : Fin 1040)) (ix3 v k (⟨64, by omega⟩ : Fin 65))
    (by rw [Shape.rowMajor_val_three, Shape.rowMajor_val_two]
        show (v.val * 16 + k.val) * 65 + 64 = v.val * 1040 + (65 * k.val + 64)
        omega)]
  refine concatenate_pair_apply_right 2 a b hc (ix3 v k (⟨64, by omega⟩ : Fin 65)) rfl rfl (ix3 v k (0 : Fin 1)) ?_ ?_
  · intro c hne
    fin_cases c
    · rfl
    · rfl
    · exact absurd rfl hne
  · rfl

/-- The features of row v repeated over the 16 neighbours, at (v, k, p). -/
theorem rep16_apply (h1 : S100000x64.BroadcastsInDim S100000x1x64 ![0, 2]) (h2 : S100000x1x64.BroadcastsInDim S100000x16x64 ![0, 1, 2])
    (xp : S100000x64.Idx → α) (v : Fin 100000) (k : Fin 16) (p : Fin 64) :
    broadcastInDim S100000x16x64 ![0, 1, 2] h2 (broadcastInDim S100000x1x64 ![0, 2] h1 xp) (ix3 v k p) = xp (ix2 v p) := by
  rw [broadcastInDim_apply ![0, 1, 2] h2 _ (ix3 v k p) (ix3 v (0 : Fin 1) p) (by intro c; fin_cases c <;> rfl)]
  exact broadcastInDim_apply ![0, 2] h1 xp (ix3 v (0 : Fin 1) p) (ix2 v p) (by intro c; fin_cases c <;> rfl)

/-- The squared distances with a unit axis appended, at (v, k, 0). -/
theorem unit_apply (h : S100000x16.BroadcastsInDim S100000x16x1 ![0, 1]) (ds : S100000x16.Idx → α) (v : Fin 100000) (k : Fin 16) :
    broadcastInDim S100000x16x1 ![0, 1] h ds (ix3 v k (0 : Fin 1)) = ds (ix2 v k) :=
  broadcastInDim_apply ![0, 1] h ds (ix3 v k (0 : Fin 1)) (ix2 v k) (by intro c; fin_cases c <;> rfl)

end Cert.ReferenceIdeal.RefValue

end
-- ==== Proof.RReadHid.lean ====
/-
  The three dense layers of the reference, each read at an entry.

  The first takes row v of the 1040-long operand — 16 segments, segment k being the 64 differences xp(v, ·) − g(v, k, ·)
  followed by ds(v, k) — against W0 and adds the bias; a sum over 1040 positions is the sum over the 16 segments of their
  first 64 positions and their last one, which is the first layer as the specification writes it, with
  wf k p = W0 (65 k + p) and wd k = W0 (65 k + 64).  Only + is reordered.  The second and third layers are plain products
  plus a bias row; the first two layers end in elu.
-/
import proofs.«106685_j23562190586026_2_alg».proof.Proof.RStages
import proofs.«106685_j23562190586026_2_alg».proof.Proof.LibEluDense
import proofs.«106685_j23562190586026_2_alg».proof.Proof.RReadCat

noncomputable section
open scoped BigOperators
namespace Cert.ReferenceIdeal.RefValue
open Idealize.ShloMosaic Idealize.ShloMosaic.ValueIdx Cert.ReferenceIdeal

/-- The printed dimension numbers are those of the plain products. -/
theorem dot0_eq : dot_S100000x1040_S1040x128_S100000x128_1_0_0_1_n_n = DotDims.plain 100000 1040 128 := rfl
theorem dot1_eq : dot_S100000x128_S128x128_S100000x128_1_0_0_1_n_n = DotDims.plain 100000 128 128 := rfl
theorem dot2_eq : dot_S100000x128_S128x64_S100000x64_1_0_0_1_n_n = DotDims.plain 100000 128 64 := rfl

theorem hid0R_apply (xp : FVec Ideal S100000x64 .f32) (g : FVec Ideal S100000x16x64 .f32) (ds : FVec Ideal S100000x16 .f32)
    (w0 : FVec Ideal S1040x128 .f32) (b0 : FVec Ideal S128 .f32) (v : Fin 100000) (c : Fin 128) :
    hid0R xp g ds w0 b0 (ix2 v c)
      = Cert.Spec.elu (Cert.Spec.hid0 (fun p : Fin 64 => xp (ix2 v p)) (fun (k : Fin 16) (p : Fin 64) => g (ix3 v k p)) (fun k : Fin 16 => ds (ix2 v k))
          (fun (k : Fin 16) (p : Fin 64) (c : Fin 128) => Cert.Spec.wfArr w0 (ix3 k p c)) (fun (k : Fin 16) (c : Fin 128) => Cert.Spec.wdArr w0 (ix2 k c))
          (fun c : Fin 128 => b0 (ix1 c)) c) := by
  unfold hid0R
  rw [jaxElu_apply, dense_apply _ dot0_eq]
  unfold Cert.Spec.dense Cert.Spec.hid0
  rw [Cert.Spec.sum_segments]
  refine congrArg Cert.Spec.elu (congrArg (· + b0 (ix1 c)) (Finset.sum_congr rfl fun k _ => ?_))
  beta_reduce
  rw [cat_right, unit_apply]
  refine congrArg₂ (· + ·) (Finset.sum_congr rfl fun p _ => ?_) rfl
  rw [cat_left, subf_apply, rep16_apply]
  rfl

theorem hid1R_apply (h : FVec Ideal S100000x128 .f32) (w1 : FVec Ideal S128x128 .f32) (b1 : FVec Ideal S128 .f32) (v : Fin 100000) (c : Fin 128) :
    hid1R h w1 b1 (ix2 v c)
      = Cert.Spec.elu (Cert.Spec.dense (fun i : Fin 128 => h (ix2 v i)) (fun (i : Fin 128) (c : Fin 128) => w1 (ix2 i c)) (fun c : Fin 128 => b1 (ix1 c)) c) := by
  unfold hid1R
  rw [jaxElu_apply, dense_apply _ dot1_eq]

theorem logitR_apply (h : FVec Ideal S100000x128 .f32) (w2 : FVec Ideal S128x64 .f32) (b2 : FVec Ideal S64 .f32) (v : Fin 100000) (q : Fin 64) :
    logitR h w2 b2 (ix2 v q)
      = Cert.Spec.dense (fun j : Fin 128 => h (ix2 v j)) (fun (j : Fin 128) (q : Fin 64) => w2 (ix2 j q)) (fun q : Fin 64 => b2 (ix1 q)) q := by
  unfold logitR
  exact dense_apply _ dot2_eq _ _ h w2 b2 v q

end Cert.ReferenceIdeal.RefValue

end
-- ==== Proof.RReadSoft.lean ====
/-
  The softmax over each group of 16 logits, operation by operation, read at an index.

  The row of 64 logits reshaped to [4, 16]: entry (h, k) is position 16·h + k of the row.  The maximum over the last
  axis from −∞ is the fold of max from ⊥ over the 16 entries, and its maximum with −∞ again changes nothing.  The sum over
  the last axis from 0 is the sum of the 16 entries.  A [rows, 4] array given back its unit last axis and repeated 16
  times reads, at (v, h, k), its entry (v, h).
-/
import proofs.«106685_j23562190586026_2_alg».proof.ReferenceIdeal
import proofs.«106685_j23562190586026_2_alg».proof.Proof.Spec
import Idealize.ShloMosaic.Lib.IdealHost
import Idealize.ShloMosaic.Lib.Pipeline.Value

noncomputable section
open scoped BigOperators
namespace Cert.ReferenceIdeal.RefValue
open Idealize.ShloMosaic Idealize.ShloMosaic.ValueIdx
open Cert.ReferenceIdeal

/-- The f32 pattern of −∞ is the bottom of the extended reals. -/
theorem ofBits_negInf_f32 : Ideal.ofBits .f32 0xFF800000#32 = (⊥ : EReal) := by simp [Ideal.ofBits, Ideal.ieee]

/-- The reshape [rows, 64] → [rows, 4, 16] at (v, h, k) is position 16·h + k of row v. -/
theorem groups_apply {α : Type} (z : S100000x64.Idx → α) (hs : S100000x64.ShapeCasts S100000x4x16) (v : Fin 100000) (h : Fin 4) (k : Fin 16) :
    shapeCast S100000x4x16 z hs (ix3 v h k) = z (ix2 v (Cert.Spec.flat h k)) :=
  shapeCast_apply z hs (ix3 v h k) (ix2 v (Cert.Spec.flat h k))
    (by rw [Shape.rowMajor_val_three, Shape.rowMajor_val_two]
        show v.val * 64 + (16 * h.val + k.val) = (v.val * 4 + h.val) * 16 + k.val
        omega)

/-- The witness that names the index a reduced index comes from. -/
theorem reduces_last : S100000x4x16.Reduces [2] S100000x4 := by decide

/-- The reduced index (v, h) with coordinate k put back on the last axis is (v, h, k). -/
theorem lift_last (hr : S100000x4x16.Reduces [2] S100000x4) (v : Fin 100000) (h : Fin 4) (k : Fin 16) :
    hr.lift (ix2 v h) k = ix3 v h k := by
  funext c; apply Fin.ext
  fin_cases c <;> rfl

/-- A [rows, 4] array with its unit last axis restored and repeated 16 times, at (v, h, k). -/
theorem keep_apply {α : Type} (h1 : S100000x4.BroadcastsInDim S100000x4x1 ![0, 1]) (h2 : S100000x4x1.BroadcastsInDim S100000x4x16 ![0, 1, 2])
    (x : S100000x4.Idx → α) (v : Fin 100000) (h : Fin 4) (k : Fin 16) :
    broadcastInDim S100000x4x16 ![0, 1, 2] h2 (broadcastInDim S100000x4x1 ![0, 1] h1 x) (ix3 v h k) = x (ix2 v h) := by
  rw [broadcastInDim_apply ![0, 1, 2] h2 _ (ix3 v h k) (ix3 v h (0 : Fin 1)) (by intro c; fin_cases c <;> rfl)]
  exact broadcastInDim_apply ![0, 1] h1 x (ix3 v h (0 : Fin 1)) (ix2 v h) (by intro c; fin_cases c <;> rfl)

/-- The maximum over the last axis from −∞, then its maximum with −∞, at (v, h): the largest of the 16 entries. -/
theorem groupMax_apply (x : FVec Ideal S100000x4x16 .f32) (hb : S_.BroadcastsInDim S100000x4 ![])
    (h' : S100000x4x16.ReducesTo [2] S100000x4) (hu : 0 < S_.numel) (v : Fin 100000) (h : Fin 4) :
    maximumf (broadcastInDim S100000x4 ![] hb (constant (F := Ideal) S_ .f32 0xFF800000#32))
        (Host.reduce FloatOps.maximumf x (constant (F := Ideal) S_ .f32 0xFF800000#32) h' hu) (ix2 v h)
      = Cert.Spec.rowMax (fun k : Fin 16 => x (ix3 v h k)) := by
  rw [maximumf_apply, broadcastInDim_scalar_apply, Host.reduce_eq_fold_single FloatOps.maximumf x _ h' reduces_last hu]
  show max (Ideal.ofBits .f32 0xFF800000#32)
      ((Finset.univ : Finset (Fin 16)).fold max (Ideal.ofBits .f32 0xFF800000#32) (x ∘ reduces_last.lift (ix2 v h))) = _
  rw [ofBits_negInf_f32, bot_sup_eq]
  have hf : (x ∘ reduces_last.lift (ix2 v h)) = fun k : Fin 16 => x (ix3 v h k) :=
    funext fun k => congrArg x (lift_last reduces_last v h k)
  rw [hf]
  rfl

/-- The sum over the last axis from 0, at (v, h): the sum of the 16 entries. -/
theorem groupSum_apply (x : FVec Ideal S100000x4x16 .f32) (h' : S100000x4x16.ReducesTo [2] S100000x4) (hu : 0 < S_.numel)
    (v : Fin 100000) (h : Fin 4) :
    Host.reduceAdd x (constant (F := Ideal) S_ .f32 0x00000000#32) h' hu (ix2 v h) = ∑ k : Fin 16, x (ix3 v h k) := by
  rw [hostReduceAdd_apply, Ideal.hostReduceAdd_single h' reduces_last]
  show Ideal.ofBits .f32 0x00000000#32 + ∑ k : Fin 16, x (reduces_last.lift (ix2 v h) k) = _
  rw [Ideal.ofBits_zero_f32, zero_add]
  exact Finset.sum_congr rfl fun k _ => congrArg x (lift_last reduces_last v h k)

end Cert.ReferenceIdeal.RefValue

end
-- ==== Proof.RReadSm.lean ====
/-
  The reference's softmax, read at an entry: at (v, h, k) it is exp (z_k − M) / Σ_k' exp (z_k' − M), where z_k is
  position 16·h + k of row v of the logits and M the largest of the 16.
-/
import proofs.«106685_j23562190586026_2_alg».proof.Proof.RStages
import proofs.«106685_j23562190586026_2_alg».proof.Proof.RReadSoft

noncomputable section
open scoped BigOperators
namespace Cert.ReferenceIdeal.RefValue
open Idealize.ShloMosaic Idealize.ShloMosaic.ValueIdx Cert.ReferenceIdeal

/-- The host's exponential at an index. -/
theorem hostExp_apply {s : Shape} (x : FVec Ideal s .f32) (i : s.Idx) : Host.exp (F := Ideal) x i = Ideal.exp (x i) := rfl

/-- Entry (v, h, k) of the logits in groups, shifted by its group's maximum. -/
theorem shift_apply (z : FVec Ideal S100000x64 .f32) (hs : S100000x64.ShapeCasts S100000x4x16)
    (h1 : S100000x4.BroadcastsInDim S100000x4x1 ![0, 1]) (h2 : S100000x4x1.BroadcastsInDim S100000x4x16 ![0, 1, 2])
    (hb : S_.BroadcastsInDim S100000x4 ![]) (h' : S100000x4x16.ReducesTo [2] S100000x4) (hu : 0 < S_.numel)
    (v : Fin 100000) (h : Fin 4) (k : Fin 16) :
    subf (shapeCast S100000x4x16 z hs)
        (broadcastInDim S100000x4x16 ![0, 1, 2] h2 (broadcastInDim S100000x4x1 ![0, 1] h1
          (maximumf (broadcastInDim S100000x4 ![] hb (constant (F := Ideal) S_ .f32 0xFF800000#32))
            (Host.reduce FloatOps.maximumf (shapeCast S100000x4x16 z hs) (constant (F := Ideal) S_ .f32 0xFF800000#32) h' hu)))) (ix3 v h k)
      = z (ix2 v (Cert.Spec.flat h k)) - Cert.Spec.rowMax (fun k' : Fin 16 => z (ix2 v (Cert.Spec.flat h k'))) := by
  rw [subf_apply, keep_apply, groupMax_apply, groups_apply]
  simp only [groups_apply]

theorem smR_apply (z : FVec Ideal S100000x64 .f32) (v : Fin 100000) (h : Fin 4) (k : Fin 16) :
    smR z (ix3 v h k) = Cert.Spec.softmax16 (fun k' : Fin 16 => z (ix2 v (Cert.Spec.flat h k'))) k := by
  unfold smR
  rw [hostDivf_apply, keep_apply, groupSum_apply, hostExp_apply, shift_apply]
  unfold Cert.Spec.softmax16
  refine congrArg (Ideal.div _) (Finset.sum_congr rfl fun k' _ => ?_)
  rw [hostExp_apply, shift_apply]

end Cert.ReferenceIdeal.RefValue

end
-- ==== Proof.RRead.lean ====
/-
  The reference's result as the specification's array: at (v, h, k) the softmax over head h's 16 logits of row v, the
  logits being three dense layers (elu after the first two) on the row of differences and squared distances.  The gather
  of the neighbours' rows stays one function applied to the pre-dense features; it is never opened.
-/
import proofs.«106685_j23562190586026_2_alg».proof.Proof.RStages
import proofs.«106685_j23562190586026_2_alg».proof.Proof.RReadXp
import proofs.«106685_j23562190586026_2_alg».proof.Proof.RReadHid
import proofs.«106685_j23562190586026_2_alg».proof.Proof.RReadSm

noncomputable section
open scoped BigOperators
namespace Cert.ReferenceIdeal.RefValue
open Idealize.ShloMosaic Idealize.ShloMosaic.ValueIdx Cert.ReferenceIdeal

theorem refOut_eq (x : FVec Ideal S100000x64 .f32) (nidx : IVec S100000x16 32) (ds : FVec Ideal S100000x16 .f32) (wpre : FVec Ideal S64x64 .f32)
    (bpre : FVec Ideal S64 .f32) (w0 : FVec Ideal S1040x128 .f32) (b0 : FVec Ideal S128 .f32) (w1 : FVec Ideal S128x128 .f32)
    (b1 : FVec Ideal S128 .f32) (w2 : FVec Ideal S128x64 .f32) (b2 : FVec Ideal S64 .f32) :
    refOut x nidx ds wpre bpre w0 b0 w1 b1 w2 b2
      = Cert.Spec.outArr3 (Cert.Spec.xpArr x wpre bpre) (gmR (Cert.Spec.xpArr x wpre bpre) nidx) ds (Cert.Spec.wfArr w0) (Cert.Spec.wdArr w0)
          b0 w1 b1 w2 b2 := by
  unfold refOut
  rw [xpR_eq]
  generalize Cert.Spec.xpArr x wpre bpre = xp
  generalize gmR xp nidx = g
  funext j
  obtain ⟨v, h, k, rfl⟩ : ∃ (v : Fin 100000) (h : Fin 4) (k : Fin 16), j = ix3 v h k := ⟨j 0, j 1, j 2, eq_ix3 j⟩
  rw [smR_apply]
  simp only [logitR_apply, hid1R_apply, hid0R_apply]
  rfl

end Cert.ReferenceIdeal.RefValue

end
-- ==== Proof.lean ====
/-
  The claim: a two-region TPU kernel with host operations between the regions, and a plain jnp reference, compute
  the same array on the extended reals.

  For each of 100000 rows v:  xp v = elu (x v · W_pre + b_pre);  g v k = the feature row xp (nidx v k) of neighbour k
  (zero where nidx v k < 0);  the row  [xp v − g v k, distsq v k]  for k = 0 … 15, 1040 long, goes through three dense
  layers 1040 → 128 → 128 → 64 with elu after the first two, and each of the 4 groups of 16 logits is normalised by a
  softmax.  The kernel computes xp in its first region (blocks of 5000 rows), gathers g on the host, and runs the three
  layers and the softmax in its second region (blocks of 1000 rows), taking the first layer's 1040-long contraction
  segment by segment: sixteen 64-term product sums against the re-laid weights W0 (65 k + p), each followed by one
  product with W0 (65 k + 64).  The reference contracts all 1040 positions at once.  A sum over 1040 = 16 · 65
  positions is the sum of its sixteen segments of 64 + 1 terms — commutativity and associativity of + only, so it holds
  on the extended reals without any finiteness — and that is the one law between the two arrangements.  The kernel's
  elu,  select (y > 0) y (exp (min y 0) − 1),  and jax's,  select (y > 0) y (1 · expm1 (select (y > 0) 0 y)),  are one
  function, since expm1 is exp − 1 on the extended reals and the two selects read the same y wherever the second branch
  is taken.  Changes of float format are the identity there, a matrix product into a zero accumulator is the plain sum,
  and a maximum from −∞ is the plain maximum.

  Both programs' results are shown equal to ONE function of the arguments, `Cert.Spec.outArr3 …` (Proof/Spec.lean): the
  kernel's by reading its result buffer back through the program's segments (Proof/KValue.lean, over the frame run with
  the result kept), the reference's by its run and the reading of its stages at an index (Proof/ROut.lean,
  Proof/RRead.lean).  The three frames are the generated frame runs (the reference's: its run with the result
  dropped); no rewrite was applied to the kernel, so `preserves` is trivial; the precondition is never opened.
-/
import proofs.«106685_j23562190586026_2_alg».proof.Defs
import proofs.«106685_j23562190586026_2_alg».proof.Proof.Gen.Kernel
import proofs.«106685_j23562190586026_2_alg».proof.Proof.Gen.Kernel.Frame
import proofs.«106685_j23562190586026_2_alg».proof.Proof.Gen.KernelIdeal
import proofs.«106685_j23562190586026_2_alg».proof.Proof.Gen.KernelIdeal.Frame
import proofs.«106685_j23562190586026_2_alg».proof.Proof.Gen.ReferenceIdeal
import proofs.«106685_j23562190586026_2_alg».proof.Proof.Gen.Pre_finite_inputs
import proofs.«106685_j23562190586026_2_alg».proof.Proof.KValue
import proofs.«106685_j23562190586026_2_alg».proof.Proof.ROut
import proofs.«106685_j23562190586026_2_alg».proof.Proof.RRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end with the result at the same function of the (agreeing) arguments. -/
theorem algebraic : Cert.algebraic_KernelIdeal_ReferenceIdeal := by
  intro m ρ m' ρ' _ hagree
  refine ⟨fun c => Cert.KernelIdeal.Val.resultOf m c, Cert.KernelIdeal.Val.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10⟩ := hagree c
  rw [Cert.ReferenceIdeal.RefValue.refOut_eq, h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
